-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S4x256x128 : Shape := ⟨3, ![4, 256, 128]⟩
abbrev S128 : Shape := ⟨1, ![128]⟩
abbrev S4x128x128 : Shape := ⟨3, ![4, 128, 128]⟩
abbrev S4x128x64 : Shape := ⟨3, ![4, 128, 64]⟩
abbrev S64 : Shape := ⟨1, ![64]⟩
abbrev S64x64 : Shape := ⟨2, ![64, 64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S4x256x128 : S_.BroadcastsInDim S4x256x128 (![] : Fin 0 → Fin S4x256x128.rank)
  reducesTo_S4x256x128_S_d0_1_2 : S4x256x128.ReducesTo [0, 1, 2] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128x64 : S_.BroadcastsInDim S4x128x64 (![] : Fin 0 → Fin S4x128x64.rank)
  reducesTo_S4x128x64_S_d0_1_2 : S4x128x64.ReducesTo [0, 1, 2] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_arg10 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S128 .f32) (main_arg6 : FVec F S4x128x64 .f32) (main_arg7 : FVec F S64 .f32) (main_arg8 : FVec F S64x64 .f32) (main_arg9 : FVec F S64 .f32) (main_arg10 : FVec F S64x64 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x64 .f32 := Host.absf main_arg6
  let main_cst_8 : FVec F S_ .f32 := constant S_ .f32 0x7F800000#32
  let main_v25 : FVec F S4x128x64 .f32 := broadcastInDim S4x128x64 ![] bcast_S_S4x128x64 main_cst_8
  let main_v26 : IVec S4x128x64 1 := cmpf .olt main_v24 main_v25
  let main_c_9 : IVec S_ 1 := constantI S_ 1 1#1
  let main_v27 : IVec S_ 1 := (fun x v => Host.reduce IntOp.andi x v reducesTo_S4x128x64_S_d0_1_2 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S10000x256 .f32) (main_arg1 : IVec S2x320000 32) (main_arg2 : FVec F S4x256x128 .f32) (main_arg3 : FVec F S128 .f32) (main_arg4 : FVec F S4x128x128 .f32) (main_arg5 : FVec F S128 .f32) (main_arg6 : FVec F S4x128x64 .f32) (main_arg7 : FVec F S64 .f32) (main_arg8 : FVec F S64x64 .f32) (main_arg9 : FVec F S64 .f32) (main_arg10 : FVec F S64x64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S4x256x128 .f32 := Host.absf main_arg2
  let main_cst_0 : FVec F S_ .f32 := constant S_ .f32 0x7F800000#32
  let main_v5 : FVec F S4x256x128 .f32 := broadcastInDim S4x256x128 ![] bcast_S_S4x256x128 main_cst_0
  let main_v6 : IVec S4x256x128 1 := cmpf .olt main_v4 main_v5
  let main_c_1 : IVec S_ 1 := constantI S_ 1 1#1
  let main_v7 : IVec S_ 1 := (fun x v => Host.reduce IntOp.andi x v reducesTo_S4x256x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_v13 main_v16
-- ==== Kernel.lean ====
abbrev S10000x256 : Shape := ⟨2, ![10000, 256]⟩
abbrev S2x320000 : Shape := ⟨2, ![2, 320000]⟩
abbrev S4x256x128 : Shape := ⟨3, ![4, 256, 128]⟩
abbrev S128 : Shape := ⟨1, ![128]⟩
abbrev S4x128x128 : Shape := ⟨3, ![4, 128, 128]⟩
abbrev S4x128x64 : Shape := ⟨3, ![4, 128, 64]⟩
abbrev S64 : Shape := ⟨1, ![64]⟩
abbrev S64x64 : Shape := ⟨2, ![64, 64]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S320000x256 : Shape := ⟨2, ![320000, 256]⟩
abbrev S10000x1024 : Shape := ⟨2, ![10000, 1024]⟩
abbrev S1024x128 : Shape := ⟨2, ![1024, 128]⟩
abbrev S1x128 : Shape := ⟨2, ![1, 128]⟩
abbrev S10000x128 : Shape := ⟨2, ![10000, 128]⟩
abbrev S1000x1024 : Shape := ⟨2, ![1000, 1024]⟩
abbrev S1000x128 : Shape := ⟨2, ![1000, 128]⟩
abbrev S320000x128 : Shape := ⟨2, ![320000, 128]⟩
abbrev S10000x512 : Shape := ⟨2, ![10000, 512]⟩
abbrev S512x128 : Shape := ⟨2, ![512, 128]⟩
abbrev S1000x512 : Shape := ⟨2, ![1000, 512]⟩
abbrev S512x64 : Shape := ⟨2, ![512, 64]⟩
abbrev S1x64 : Shape := ⟨2, ![1, 64]⟩
abbrev S10000x64 : Shape := ⟨2, ![10000, 64]⟩
abbrev S1000x64 : Shape := ⟨2, ![1000, 64]⟩
abbrev S10000x10000 : Shape := ⟨2, ![10000, 10000]⟩
abbrev S200x64 : Shape := ⟨2, ![200, 64]⟩
abbrev S200x10000 : Shape := ⟨2, ![200, 10000]⟩
abbrev S64x10000 : Shape := ⟨2, ![64, 10000]⟩

abbrev nBuf : Space → Nat
  | .hbm => 214
  | .vmem => 35
  | .smem => 0
  | _ => 0

abbrev hbmTy0_0 (i : Nat) : BufTy := match i % 128 with
  | 0 => ⟨S10000x256, .f32⟩
  | 1 => ⟨S2x320000, .i32⟩
  | 2 => ⟨S4x256x128, .f32⟩
  | 3 => ⟨S128, .f32⟩
  | 4 => ⟨S4x128x128, .f32⟩
  | 5 => ⟨S128, .f32⟩
  | 6 => ⟨S4x128x64, .f32⟩
  | 7 => ⟨S64, .f32⟩
  | 8 => ⟨S64x64, .f32⟩
  | 9 => ⟨S64, .f32⟩
  | 10 => ⟨S64x64, .f32⟩
  | 11 => ⟨S1x320000, .i32⟩
  | 12 => ⟨S320000, .i32⟩
  | 13 => ⟨S1x320000, .i32⟩
  | 14 => ⟨S320000, .i32⟩
  | 15 => ⟨S_, .f32⟩
  | 16 => ⟨S320000, .f32⟩
  | 17 => ⟨S_, .f32⟩
  | 18 => ⟨S10000, .f32⟩
  | 19 => ⟨S320000x1, .i32⟩
  | 20 => ⟨S10000, .f32⟩
  | 21 => ⟨S_, .f32⟩
  | 22 => ⟨S10000, .f32⟩
  | 23 => ⟨S10000, .i1⟩
  | 24 => ⟨S_, .f32⟩
  | 25 => ⟨S10000, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S320000x1, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x256, .f32⟩
  | 61 => ⟨S320000x256, .f32⟩
  | 62 => ⟨S320000x256, .f32⟩
  | 63 => ⟨S_, .f32⟩
  | 64 => ⟨S10000x256, .f32⟩
  | 65 => ⟨S320000x1, .i32⟩
  | 66 => ⟨S10000x256, .f32⟩
  | 67 => ⟨S320000x1, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x256, .f32⟩
  | 77 => ⟨S320000x256, .f32⟩
  | 78 => ⟨S320000x256, .f32⟩
  | 79 => ⟨S_, .f32⟩
  | 80 => ⟨S10000x256, .f32⟩
  | 81 => ⟨S320000x1, .i32⟩
  | 82 => ⟨S10000x256, .f32⟩
  | 83 => ⟨S320000x1, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x256, .f32⟩
  | 93 => ⟨S320000x256, .f32⟩
  | 94 => ⟨S320000x256, .f32⟩
  | 95 => ⟨S_, .f32⟩
  | 96 => ⟨S10000x256, .f32⟩
  | 97 => ⟨S320000x1, .i32⟩
  | 98 => ⟨S10000x256, .f32⟩
  | 99 => ⟨S10000x1024, .f32⟩
  | 100 => ⟨S1024x128, .f32⟩
  | 101 => ⟨S1x128, .f32⟩
  | 102 => ⟨S10000x128, .f32⟩
  | 103 => ⟨S320000x1, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x128, .f32⟩
  | 113 => ⟨S320000x128, .f32⟩
  | 114 => ⟨S320000x128, .f32⟩
  | 115 => ⟨S_, .f32⟩
  | 116 => ⟨S10000x128, .f32⟩
  | 117 => ⟨S320000x1, .i32⟩
  | 118 => ⟨S10000x128, .f32⟩
  | 119 => ⟨S320000x1, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x256, .f32⟩

abbrev hbmTy0_1 (i : Nat) : BufTy := match i % 128 with
  | 0 => ⟨S320000x128, .f32⟩
  | 1 => ⟨S320000x128, .f32⟩
  | 2 => ⟨S320000x128, .f32⟩
  | 3 => ⟨S_, .f32⟩
  | 4 => ⟨S10000x128, .f32⟩
  | 5 => ⟨S320000x1, .i32⟩
  | 6 => ⟨S10000x128, .f32⟩
  | 7 => ⟨S320000x1, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000x128, .f32⟩
  | 17 => ⟨S320000x128, .f32⟩
  | 18 => ⟨S320000x128, .f32⟩
  | 19 => ⟨S_, .f32⟩
  | 20 => ⟨S10000x128, .f32⟩
  | 21 => ⟨S320000x1, .i32⟩
  | 22 => ⟨S10000x128, .f32⟩
  | 23 => ⟨S10000x512, .f32⟩
  | 24 => ⟨S512x128, .f32⟩
  | 25 => ⟨S1x128, .f32⟩
  | 26 => ⟨S10000x128, .f32⟩
  | 27 => ⟨S320000x1, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x128, .f32⟩
  | 37 => ⟨S320000x128, .f32⟩
  | 38 => ⟨S320000x128, .f32⟩
  | 39 => ⟨S_, .f32⟩
  | 40 => ⟨S10000x128, .f32⟩
  | 41 => ⟨S320000x1, .i32⟩
  | 42 => ⟨S10000x128, .f32⟩
  | 43 => ⟨S320000x1, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x128, .f32⟩
  | 53 => ⟨S320000x128, .f32⟩
  | 54 => ⟨S320000x128, .f32⟩
  | 55 => ⟨S_, .f32⟩
  | 56 => ⟨S10000x128, .f32⟩
  | 57 => ⟨S320000x1, .i32⟩
  | 58 => ⟨S10000x128, .f32⟩
  | 59 => ⟨S320000x1, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x128, .f32⟩
  | 69 => ⟨S320000x128, .f32⟩
  | 70 => ⟨S320000x128, .f32⟩
  | 71 => ⟨S_, .f32⟩
  | 72 => ⟨S10000x128, .f32⟩
  | 73 => ⟨S320000x1, .i32⟩
  | 74 => ⟨S10000x128, .f32⟩
  | 75 => ⟨S10000x512, .f32⟩
  | 76 => ⟨S512x64, .f32⟩
  | 77 => ⟨S1x64, .f32⟩
  | 78 => ⟨S10000x64, .f32⟩
  | 79 => ⟨S1x64, .f32⟩
  | 80 => ⟨S10000x64, .f32⟩
  | 81 => ⟨S_, .f32⟩
  | 82 => ⟨S64, .f32⟩
  | 83 => ⟨S1x64, .f32⟩
  | 84 => ⟨S10000x64, .f32⟩
  | 85 => ⟨S10000x10000, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x1024, .f32⟩
  | .local _ .vmem, ⟨1, _⟩ => ⟨S1000x1024, .f32⟩
  | .local _ .vmem, ⟨2, _⟩ => ⟨S1024x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x512, .f32⟩
  | .local _ .vmem, ⟨7, _⟩ => ⟨S1000x512, .f32⟩
  | .local _ .vmem, ⟨8, _⟩ => ⟨S512x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x512, .f32⟩
  | .local _ .vmem, ⟨13, _⟩ => ⟨S1000x512, .f32⟩
  | .local _ .vmem, ⟨14, _⟩ => ⟨S512x64, .f32⟩
  | .local _ .vmem, ⟨15, _⟩ => ⟨S1x64, .f32⟩
  | .local _ .vmem, ⟨16, _⟩ => ⟨S1000x64, .f32⟩
  | .local _ .vmem, ⟨17, _⟩ => ⟨S1000x64, .f32⟩
  | .local _ .vmem, ⟨18, _⟩ => ⟨S1000x64, .f32⟩
  | .local _ .vmem, ⟨19, _⟩ => ⟨S1000x64, .f32⟩
  | .local _ .vmem, ⟨20, _⟩ => ⟨S64x64, .f32⟩
  | .local _ .vmem, ⟨21, _⟩ => ⟨S1x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S64x64, .f32⟩
  | .local _ .vmem, ⟨27, _⟩ => ⟨S1x64, .f32⟩
  | .local _ .vmem, ⟨28, _⟩ => ⟨S1000x64, .f32⟩
  | .local _ .vmem, ⟨29, _⟩ => ⟨S1000x64, .f32⟩
  | .local _ .vmem, ⟨30, _⟩ => ⟨S200x64, .f32⟩
  | .local _ .vmem, ⟨31, _⟩ => ⟨S200x64, .f32⟩
  | .local _ .vmem, ⟨32, _⟩ => ⟨S10000x64, .f32⟩
  | .local _ .vmem, ⟨33, _⟩ => ⟨S200x10000, .f32⟩
  | .local _ .vmem, ⟨34, _⟩ => ⟨S200x10000, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_c_20 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_22 : Ref sig .tc := ⟨.hbm, 136, rfl⟩
abbrev main_v99 : Ref sig .tc := ⟨.hbm, 137, rfl⟩
abbrev main_v100 : Ref sig .tc := ⟨.hbm, 138, rfl⟩
abbrev main_c_23 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_24 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_25 : Ref sig .tc := ⟨.hbm, 156, rfl⟩
abbrev main_v116 : Ref sig .tc := ⟨.hbm, 157, rfl⟩
abbrev main_v117 : Ref sig .tc := ⟨.hbm, 158, rfl⟩
abbrev main_c_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_27 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_28 : Ref sig .tc := ⟨.hbm, 172, rfl⟩
abbrev main_v129 : Ref sig .tc := ⟨.hbm, 173, rfl⟩
abbrev main_v130 : Ref sig .tc := ⟨.hbm, 174, rfl⟩
abbrev main_c_29 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_30 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_c_31 : Ref sig .tc := ⟨.hbm, 188, rfl⟩
abbrev main_v142 : Ref sig .tc := ⟨.hbm, 189, rfl⟩
abbrev main_v143 : Ref sig .tc := ⟨.hbm, 190, rfl⟩
abbrev main_c_32 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_33 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_34 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg2_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem2_1 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S200x10000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  concatenates_S10000x256_S10000x256_S10000x256_S10000x256_S10000x1024_d1 : Shape.Concatenates [S10000x256, S10000x256, S10000x256, S10000x256] S10000x1024 1
  shapeCasts_S4x256x128_S1024x128 : S4x256x128.ShapeCasts S1024x128
  shapeCasts_S128_S1x128 : S128.ShapeCasts S1x128
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  concatenates_S10000x128_S10000x128_S10000x128_S10000x128_S10000x512_d1 : Shape.Concatenates [S10000x128, S10000x128, S10000x128, S10000x128] S10000x512 1
  shapeCasts_S4x128x128_S512x128 : S4x128x128.ShapeCasts S512x128
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S4x128x64_S512x64 : S4x128x64.ShapeCasts S512x64
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  bcast_S_S64 : S_.BroadcastsInDim S64 (![] : Fin 0 → Fin S64.rank)
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  transposes_S10000x64_p1_0_S64x10000 : S10000x64.Transposes [1, 0] S64x10000
  inb_S200x10000_S200x10000_0_0 : ∀ a, (![0, 0] : Fin 2 → Nat) a + S200x10000.size a ≤ S200x10000.size a
  h_S200x10000 : 0 < S200x10000.numel
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x1024_S1024x128_S1000x128_1_0_0_1_n_n_wf : DotDims.WF S1000x1024 S1024x128 S1000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S1000x512_S512x128_S1000x128_1_0_0_1_n_n_wf : DotDims.WF S1000x512 S512x128 S1000x128 [1] [0] [0] [1] [] []
  dot_S1000x512_S512x64_S1000x64_1_0_0_1_n_n_wf : DotDims.WF S1000x512 S512x64 S1000x64 [1] [0] [0] [1] [] []
  dot_S1000x64_S64x64_S1000x64_1_0_0_1_n_n_wf : DotDims.WF S1000x64 S64x64 S1000x64 [1] [0] [0] [1] [] []
  dot_S200x64_S64x10000_S200x10000_1_0_0_1_n_n_wf : DotDims.WF S200x64 S64x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S10000x1024.size a
  hwx0_0 : ∀ i : grid0.Coords, EltTy.bits .f32 = 32 ∨ (Rect.block (s := S10000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S10000x128.size a
  hwx1_3 : ∀ i : grid1.Coords, EltTy.bits .f32 = 32 ∨ (Rect.block (s := S10000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S10000x64.size a
  hwx2_3 : ∀ i : grid2.Coords, EltTy.bits .f32 = 32 ∨ (Rect.block (s := S10000x64) S1000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S10000x64.size a
  hwx3_0 : ∀ i : grid3.Coords, EltTy.bits .f32 = 32 ∨ (Rect.block (s := S10000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x64.size a ≤ S10000x64.size a
  hwx3_3 : ∀ i : grid3.Coords, EltTy.bits .f32 = 32 ∨ (Rect.block (s := S10000x64) S1000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S10000x64.size a
  hwx4_0 : ∀ i : grid4.Coords, EltTy.bits .f32 = 32 ∨ (Rect.block (s := S10000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x64.size a ≤ S10000x64.size a
  hwx4_3 : ∀ i : grid4.Coords, EltTy.bits .f32 = 32 ∨ (Rect.block (s := S10000x64) S1000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x64.size a ≤ S10000x64.size a
  hwx5_0 : ∀ i : grid5.Coords, EltTy.bits .f32 = 32 ∨ (Rect.block (s := S10000x64) S200x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x10000.size a ≤ S10000x10000.size a
  hwx5_2 : ∀ i : grid5.Coords, EltTy.bits .f32 = 32 ∨ (Rect.block (s := S10000x10000) S200x10000.size (cc5_transform_2 i) (hinb5_2 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x512_S512x64_S1000x64_1_0_0_1_n_n : DotDims S1000x512 S512x64 S1000x64 where
  lhsContracting := [1]
  rhsContracting := [0]
  lhsNonContracting := [0]
  rhsNonContracting := [1]
  lhsBatch := []
  rhsBatch := []
  wf := dot_S1000x512_S512x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S200x64_S64x10000_S200x10000_1_0_0_1_n_n : DotDims S200x64 S64x10000 S200x10000 where
  lhsContracting := [1]
  rhsContracting := [0]
  lhsNonContracting := [0]
  rhsNonContracting := [1]
  lhsBatch := []
  rhsBatch := []
  wf := dot_S200x64_S64x10000_S200x10000_1_0_0_1_n_n_wf

abbrev win0_0 : Pipeline.Window sig grid0 :=
  Pipeline.Window.ofSpec (Memref.whole main_v68) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v70) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v71) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v111) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v112) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v113) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v114) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v154) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v155) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v156) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v157) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v157) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v158) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v159) S1000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v159) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v161) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v162) S1000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v162) S200x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v159) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v163) S200x10000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S4x256x128 : Shape := ⟨3, ![4, 256, 128]⟩
abbrev S128 : Shape := ⟨1, ![128]⟩
abbrev S4x128x128 : Shape := ⟨3, ![4, 128, 128]⟩
abbrev S4x128x64 : Shape := ⟨3, ![4, 128, 64]⟩
abbrev S64 : Shape := ⟨1, ![64]⟩
abbrev S64x64 : Shape := ⟨2, ![64, 64]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S1x256x128 : Shape := ⟨3, ![1, 256, 128]⟩
abbrev S256x128 : Shape := ⟨2, ![256, 128]⟩
abbrev S10000x128 : Shape := ⟨2, ![10000, 128]⟩
abbrev S320000x256 : Shape := ⟨2, ![320000, 256]⟩
abbrev S1x128 : Shape := ⟨2, ![1, 128]⟩
abbrev S1x128x128 : Shape := ⟨3, ![1, 128, 128]⟩
abbrev S128x128 : Shape := ⟨2, ![128, 128]⟩
abbrev S320000x128 : Shape := ⟨2, ![320000, 128]⟩
abbrev S1x128x64 : Shape := ⟨3, ![1, 128, 64]⟩
abbrev S128x64 : Shape := ⟨2, ![128, 64]⟩
abbrev S10000x64 : Shape := ⟨2, ![10000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 265
  | .vmem => 0
  | .smem => 0
  | _ => 0

abbrev hbmTy0_0 (i : Nat) : BufTy := match i % 128 with
  | 0 => ⟨S10000x256, .f32⟩
  | 1 => ⟨S2x320000, .i32⟩
  | 2 => ⟨S4x256x128, .f32⟩
  | 3 => ⟨S128, .f32⟩
  | 4 => ⟨S4x128x128, .f32⟩
  | 5 => ⟨S128, .f32⟩
  | 6 => ⟨S4x128x64, .f32⟩
  | 7 => ⟨S64, .f32⟩
  | 8 => ⟨S64x64, .f32⟩
  | 9 => ⟨S64, .f32⟩
  | 10 => ⟨S64x64, .f32⟩
  | 11 => ⟨S1x320000, .i32⟩
  | 12 => ⟨S320000, .i32⟩
  | 13 => ⟨S1x320000, .i32⟩
  | 14 => ⟨S320000, .i32⟩
  | 15 => ⟨S_, .f32⟩
  | 16 => ⟨S320000, .f32⟩
  | 17 => ⟨S_, .f32⟩
  | 18 => ⟨S10000, .f32⟩
  | 19 => ⟨S320000x1, .i32⟩
  | 20 => ⟨S10000, .f32⟩
  | 21 => ⟨S_, .f32⟩
  | 22 => ⟨S10000, .f32⟩
  | 23 => ⟨S10000, .i1⟩
  | 24 => ⟨S_, .f32⟩
  | 25 => ⟨S10000, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S1x256x128, .f32⟩
  | 52 => ⟨S256x128, .f32⟩
  | 53 => ⟨S10000x128, .f32⟩
  | 54 => ⟨S320000x1, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S320000x256, .f32⟩
  | 65 => ⟨S320000x256, .f32⟩
  | 66 => ⟨S_, .f32⟩
  | 67 => ⟨S10000x256, .f32⟩
  | 68 => ⟨S320000x1, .i32⟩
  | 69 => ⟨S10000x256, .f32⟩
  | 70 => ⟨S1x256x128, .f32⟩
  | 71 => ⟨S256x128, .f32⟩
  | 72 => ⟨S10000x128, .f32⟩
  | 73 => ⟨S10000x128, .f32⟩
  | 74 => ⟨S320000x1, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x256, .f32⟩
  | 84 => ⟨S320000x256, .f32⟩
  | 85 => ⟨S320000x256, .f32⟩
  | 86 => ⟨S_, .f32⟩
  | 87 => ⟨S10000x256, .f32⟩
  | 88 => ⟨S320000x1, .i32⟩
  | 89 => ⟨S10000x256, .f32⟩
  | 90 => ⟨S1x256x128, .f32⟩
  | 91 => ⟨S256x128, .f32⟩
  | 92 => ⟨S10000x128, .f32⟩
  | 93 => ⟨S10000x128, .f32⟩
  | 94 => ⟨S320000x1, .f32⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000x256, .f32⟩
  | 104 => ⟨S320000x256, .f32⟩
  | 105 => ⟨S320000x256, .f32⟩
  | 106 => ⟨S_, .f32⟩
  | 107 => ⟨S10000x256, .f32⟩
  | 108 => ⟨S320000x1, .i32⟩
  | 109 => ⟨S10000x256, .f32⟩
  | 110 => ⟨S1x256x128, .f32⟩
  | 111 => ⟨S256x128, .f32⟩
  | 112 => ⟨S10000x128, .f32⟩
  | 113 => ⟨S10000x128, .f32⟩
  | 114 => ⟨S1x128, .f32⟩
  | 115 => ⟨S10000x128, .f32⟩
  | 116 => ⟨S10000x128, .f32⟩
  | 117 => ⟨S_, .f32⟩
  | 118 => ⟨S10000x128, .f32⟩
  | 119 => ⟨S10000x128, .f32⟩
  | 120 => ⟨S1x128x128, .f32⟩
  | 121 => ⟨S128x128, .f32⟩
  | 122 => ⟨S10000x128, .f32⟩
  | 123 => ⟨S320000x1, .f32⟩
  | 124 => ⟨S_, .i32⟩
  | 125 => ⟨S320000, .i32⟩
  | 126 => ⟨S320000, .i1⟩
  | 127 => ⟨S_, .i32⟩
  | _ => ⟨S10000x256, .f32⟩

abbrev hbmTy0_1 (i : Nat) : BufTy := match i % 128 with
  | 0 => ⟨S320000, .i32⟩
  | 1 => ⟨S320000, .i32⟩
  | 2 => ⟨S320000, .i32⟩
  | 3 => ⟨S320000x1, .i32⟩
  | 4 => ⟨S320000x128, .f32⟩
  | 5 => ⟨S320000x128, .f32⟩
  | 6 => ⟨S320000x128, .f32⟩
  | 7 => ⟨S_, .f32⟩
  | 8 => ⟨S10000x128, .f32⟩
  | 9 => ⟨S320000x1, .i32⟩
  | 10 => ⟨S10000x128, .f32⟩
  | 11 => ⟨S1x128x128, .f32⟩
  | 12 => ⟨S128x128, .f32⟩
  | 13 => ⟨S10000x128, .f32⟩
  | 14 => ⟨S10000x128, .f32⟩
  | 15 => ⟨S320000x1, .f32⟩
  | 16 => ⟨S_, .i32⟩
  | 17 => ⟨S320000, .i32⟩
  | 18 => ⟨S320000, .i1⟩
  | 19 => ⟨S_, .i32⟩
  | 20 => ⟨S320000, .i32⟩
  | 21 => ⟨S320000, .i32⟩
  | 22 => ⟨S320000, .i32⟩
  | 23 => ⟨S320000x1, .i32⟩
  | 24 => ⟨S320000x128, .f32⟩
  | 25 => ⟨S320000x128, .f32⟩
  | 26 => ⟨S320000x128, .f32⟩
  | 27 => ⟨S_, .f32⟩
  | 28 => ⟨S10000x128, .f32⟩
  | 29 => ⟨S320000x1, .i32⟩
  | 30 => ⟨S10000x128, .f32⟩
  | 31 => ⟨S1x128x128, .f32⟩
  | 32 => ⟨S128x128, .f32⟩
  | 33 => ⟨S10000x128, .f32⟩
  | 34 => ⟨S10000x128, .f32⟩
  | 35 => ⟨S320000x1, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x128, .f32⟩
  | 45 => ⟨S320000x128, .f32⟩
  | 46 => ⟨S320000x128, .f32⟩
  | 47 => ⟨S_, .f32⟩
  | 48 => ⟨S10000x128, .f32⟩
  | 49 => ⟨S320000x1, .i32⟩
  | 50 => ⟨S10000x128, .f32⟩
  | 51 => ⟨S1x128x128, .f32⟩
  | 52 => ⟨S128x128, .f32⟩
  | 53 => ⟨S10000x128, .f32⟩
  | 54 => ⟨S10000x128, .f32⟩
  | 55 => ⟨S1x128, .f32⟩
  | 56 => ⟨S10000x128, .f32⟩
  | 57 => ⟨S10000x128, .f32⟩
  | 58 => ⟨S_, .f32⟩
  | 59 => ⟨S10000x128, .f32⟩
  | 60 => ⟨S10000x128, .f32⟩
  | 61 => ⟨S1x128x64, .f32⟩
  | 62 => ⟨S128x64, .f32⟩
  | 63 => ⟨S10000x64, .f32⟩
  | 64 => ⟨S320000x1, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x128, .f32⟩
  | 74 => ⟨S320000x128, .f32⟩
  | 75 => ⟨S320000x128, .f32⟩
  | 76 => ⟨S_, .f32⟩
  | 77 => ⟨S10000x128, .f32⟩
  | 78 => ⟨S320000x1, .i32⟩
  | 79 => ⟨S10000x128, .f32⟩
  | 80 => ⟨S1x128x64, .f32⟩
  | 81 => ⟨S128x64, .f32⟩
  | 82 => ⟨S10000x64, .f32⟩
  | 83 => ⟨S10000x64, .f32⟩
  | 84 => ⟨S320000x1, .f32⟩
  | 85 => ⟨S_, .i32⟩
  | 86 => ⟨S320000, .i32⟩
  | 87 => ⟨S320000, .i1⟩
  | 88 => ⟨S_, .i32⟩
  | 89 => ⟨S320000, .i32⟩
  | 90 => ⟨S320000, .i32⟩
  | 91 => ⟨S320000, .i32⟩
  | 92 => ⟨S320000x1, .i32⟩
  | 93 => ⟨S320000x128, .f32⟩
  | 94 => ⟨S320000x128, .f32⟩
  | 95 => ⟨S320000x128, .f32⟩
  | 96 => ⟨S_, .f32⟩
  | 97 => ⟨S10000x128, .f32⟩
  | 98 => ⟨S320000x1, .i32⟩
  | 99 => ⟨S10000x128, .f32⟩
  | 100 => ⟨S1x128x64, .f32⟩
  | 101 => ⟨S128x64, .f32⟩
  | 102 => ⟨S10000x64, .f32⟩
  | 103 => ⟨S10000x64, .f32⟩
  | 104 => ⟨S320000x1, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x128, .f32⟩
  | 114 => ⟨S320000x128, .f32⟩
  | 115 => ⟨S320000x128, .f32⟩
  | 116 => ⟨S_, .f32⟩
  | 117 => ⟨S10000x128, .f32⟩
  | 118 => ⟨S320000x1, .i32⟩
  | 119 => ⟨S10000x128, .f32⟩
  | 120 => ⟨S1x128x64, .f32⟩
  | 121 => ⟨S128x64, .f32⟩
  | 122 => ⟨S10000x64, .f32⟩
  | 123 => ⟨S10000x64, .f32⟩
  | 124 => ⟨S1x64, .f32⟩
  | 125 => ⟨S10000x64, .f32⟩
  | 126 => ⟨S10000x64, .f32⟩
  | 127 => ⟨S_, .f32⟩
  | _ => ⟨S10000x256, .f32⟩

abbrev hbmTy0_2 (i : Nat) : BufTy := match i % 128 with
  | 0 => ⟨S10000x64, .f32⟩
  | 1 => ⟨S10000x64, .f32⟩
  | 2 => ⟨S10000x64, .f32⟩
  | 3 => ⟨S1x64, .f32⟩
  | 4 => ⟨S10000x64, .f32⟩
  | 5 => ⟨S10000x64, .f32⟩
  | 6 => ⟨S10000x64, .f32⟩
  | 7 => ⟨S64x10000, .f32⟩
  | 8 => ⟨S10000x10000, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call1_cst : Ref sig .tc := ⟨.hbm, 117, rfl⟩
abbrev main_call1_v0 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_c_16 : Ref sig .tc := ⟨.hbm, 124, rfl⟩
abbrev main_v91 : Ref sig .tc := ⟨.hbm, 125, rfl⟩
abbrev main_v92 : Ref sig .tc := ⟨.hbm, 126, rfl⟩
abbrev main_c_17 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_18 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_19 : Ref sig .tc := ⟨.hbm, 144, rfl⟩
abbrev main_v108 : Ref sig .tc := ⟨.hbm, 145, rfl⟩
abbrev main_v109 : Ref sig .tc := ⟨.hbm, 146, rfl⟩
abbrev main_c_20 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_21 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_22 : Ref sig .tc := ⟨.hbm, 164, rfl⟩
abbrev main_v125 : Ref sig .tc := ⟨.hbm, 165, rfl⟩
abbrev main_v126 : Ref sig .tc := ⟨.hbm, 166, rfl⟩
abbrev main_c_23 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_24 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_call2_cst : Ref sig .tc := ⟨.hbm, 186, rfl⟩
abbrev main_call2_v0 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_25 : Ref sig .tc := ⟨.hbm, 193, rfl⟩
abbrev main_v149 : Ref sig .tc := ⟨.hbm, 194, rfl⟩
abbrev main_v150 : Ref sig .tc := ⟨.hbm, 195, rfl⟩
abbrev main_c_26 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_27 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_c_28 : Ref sig .tc := ⟨.hbm, 213, rfl⟩
abbrev main_v166 : Ref sig .tc := ⟨.hbm, 214, rfl⟩
abbrev main_v167 : Ref sig .tc := ⟨.hbm, 215, rfl⟩
abbrev main_c_29 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_30 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_c_31 : Ref sig .tc := ⟨.hbm, 233, rfl⟩
abbrev main_v183 : Ref sig .tc := ⟨.hbm, 234, rfl⟩
abbrev main_v184 : Ref sig .tc := ⟨.hbm, 235, rfl⟩
abbrev main_c_32 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_cst_33 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_call3_cst : Ref sig .tc := ⟨.hbm, 255, rfl⟩
abbrev main_call3_v0 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  slices_S4x256x128_S1x256x128_0_0_0 : S4x256x128.Slices ![0, 0, 0] S1x256x128
  shapeCasts_S1x256x128_S256x128 : S1x256x128.ShapeCasts S256x128
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  slices_S4x256x128_S1x256x128_1_0_0 : S4x256x128.Slices ![1, 0, 0] S1x256x128
  slices_S4x256x128_S1x256x128_2_0_0 : S4x256x128.Slices ![2, 0, 0] S1x256x128
  slices_S4x256x128_S1x256x128_3_0_0 : S4x256x128.Slices ![3, 0, 0] S1x256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  slices_S4x128x128_S1x128x128_0_0_0 : S4x128x128.Slices ![0, 0, 0] S1x128x128
  shapeCasts_S1x128x128_S128x128 : S1x128x128.ShapeCasts S128x128
  bcast_S320000x1_S320000x128_0_1 : S320000x1.BroadcastsInDim S320000x128 (![0, 1] : Fin 2 → Fin S320000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  slices_S4x128x64_S1x128x64_0_0_0 : S4x128x64.Slices ![0, 0, 0] S1x128x64
  shapeCasts_S1x128x64_S128x64 : S1x128x64.ShapeCasts S128x64
  slices_S4x128x64_S1x128x64_1_0_0 : S4x128x64.Slices ![1, 0, 0] S1x128x64
  slices_S4x128x64_S1x128x64_2_0_0 : S4x128x64.Slices ![2, 0, 0] S1x128x64
  slices_S4x128x64_S1x128x64_3_0_0 : S4x128x64.Slices ![3, 0, 0] S1x128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S10000x64_S64x10000_1_0 : S10000x64.Transposes [1, 0] S64x10000
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  dot_S10000x256_S256x128_S10000x128_1_0_0_1_n_n_wf : DotDims.WF S10000x256 S256x128 S10000x128 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  dot_S10000x64_S64x10000_S10000x10000_1_0_0_1_n_n_wf : DotDims.WF S10000x64 S64x10000 S10000x10000 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.WReg0.lean ====
/-
  The first dense layer's pallas_call (ten points; point `t` owns rows `1000 t … 1000 t + 999` of the output).

  At every point the body reads three blocks — a thousand rows of the concatenated hop features, the whole stacked
  weight matrix, the bias row — and overwrites the point's thousand output rows with one value computed from them.
  So, for ANY contents `V` of the buffers when the call is entered: what the output's staging buffer holds after the
  body is a function `out0_3` of the three input blocks alone; each input's staging buffer holds its block of `V`'s
  array at every point, whether that point fetched it or not (the weights and the bias are fetched once, their block
  index never moves); and the body, run on whole staging buffers, leaves the inputs as they were.  These are the
  pipeline's proof data and its per-point obligation.  Everything is stated at any float instance.
-/
import proofs.«106689_j32762010534267_1_alg».proof.Proof.Gen.Kernel.Launch
import proofs.«106689_j32762010534267_1_alg».proof.Proof.Gen.Kernel.Skeleton
import proofs.«106689_j32762010534267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block, for any proof data over `V`'s arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer, as the rectangle the body's loads and its one store go through. -/
abbrev rx0 : Rect S1000x1024 := Rect.unit (s := S1000x1024) ![0, 0] S1000x1024.size inb_S1000x1024_S1000x1024_0_0
abbrev rw0 : Rect S1024x128 := Rect.unit (s := S1024x128) ![0, 0] S1024x128.size inb_S1024x128_S1024x128_0_0
abbrev rb0 : Rect S1x128 := Rect.unit (s := S1x128) ![0, 0] S1x128.size inb_S1x128_S1x128_0_0
abbrev ro0 : Rect S1000x128 := Rect.unit (s := S1000x128) ![0, 0] S1000x128.size inb_S1000x128_S1000x128_0_0

/-- The output rows' staging buffer after the body: its one store, over the whole buffer, of the layer's value on the
    three blocks read. -/
def out0_3 (x0 : Vec F S1000x1024 .f32) (x1 : Vec F S1024x128 .f32) (x2 : Vec F S1x128 .f32) : Vec F S1000x128 .f32 :=
  View.canon [⟨ro0, k0_pay1 (View.ld x0 rx0) (View.ld x1 rw0) (View.ld x2 rb0)⟩]

/-- The one store covers the buffer. -/
theorem cover0_3 (p0 : Vec F S1000x128 .f32) (y : S1000x128.Idx) :
    ∃ pc ∈ ([⟨ro0, p0⟩] : List (View.Piece (Elt F) S1000x128 .f32)), y ∈ pc.1.set :=
  View.cover_of_tiled [⟨ro0, p0⟩] S1000x128.size (by rfl) y

set_option maxHeartbeats 1000000 in
/-- The body on whole staging buffers — the inputs' at contents `x0 x1 x2`, the output's at anything — runs to its end
    leaving the inputs as they were and the output's at `out0_3 x0 x1 x2`. -/
theorem sound_kernel0 (c : Dev nD) (E : Set ℕ) (i : grid0.Coords)
    (arg1 : Memref sig .tc .vmem S1000x1024 .f32) (harg1 : arg1.IsWhole) (arg2 : Memref sig .tc .vmem S1024x128 .f32) (harg2 : arg2.IsWhole)
    (arg3 : Memref sig .tc .vmem S1x128 .f32) (harg3 : arg3.IsWhole) (arg4 : Memref sig .tc .vmem S1000x128 .f32) (harg4 : arg4.IsWhole)
    (x0 : Vec F S1000x1024 .f32) (x1 : Vec F S1024x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the call finds them; after the body at point `t` each input's
    buffer at its block and the output's at `out0_3` of the three blocks; the invariant is the untouched rest (the
    scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.WReg1.lean ====
/-
  The second dense layer's pallas_call (ten points; point `t` owns rows `1000 t … 1000 t + 999` of the output): a thousand rows of the four concatenated hop features (4 × 128 columns) against the stacked 512 × 128 weights, plus the bias row, clipped below at zero.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.Kernel.Launch
import proofs.«106689_j32762010534267_1_alg».proof.Proof.Gen.Kernel.Skeleton
import proofs.«106689_j32762010534267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature rows' staging buffer holds the point's block, for any proof data over `V`'s arrays whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole matrix at every point: it is fetched once and its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the rectangle the body's loads and its one store go through. -/
abbrev rx1 : Rect S1000x512 := Rect.unit (s := S1000x512) ![0, 0] S1000x512.size inb_S1000x512_S1000x512_0_0
abbrev rw1 : Rect S512x128 := Rect.unit (s := S512x128) ![0, 0] S512x128.size inb_S512x128_S512x128_0_0
abbrev rb1 : Rect S1x128 := Rect.unit (s := S1x128) ![0, 0] S1x128.size inb_S1x128_S1x128_0_0
abbrev ro1 : Rect S1000x128 := Rect.unit (s := S1000x128) ![0, 0] S1000x128.size inb_S1000x128_S1000x128_0_0

/-- The output rows' staging buffer after the body: its one store, over the whole buffer, of the layer's value on the
    three blocks read. -/
def out1_3 (x0 : Vec F S1000x512 .f32) (x1 : Vec F S512x128 .f32) (x2 : Vec F S1x128 .f32) : Vec F S1000x128 .f32 :=
  View.canon [⟨ro1, k1_pay1 (View.ld x0 rx1) (View.ld x1 rw1) (View.ld x2 rb1)⟩]

/-- The one store covers the buffer. -/
theorem cover1_3 (p0 : Vec F S1000x128 .f32) (y : S1000x128.Idx) :
    ∃ pc ∈ ([⟨ro1, p0⟩] : List (View.Piece (Elt F) S1000x128 .f32)), y ∈ pc.1.set :=
  View.cover_of_tiled [⟨ro1, p0⟩] S1000x128.size (by rfl) y

set_option maxHeartbeats 1000000 in
/-- The body on whole staging buffers — the inputs' at contents `x0 x1 x2`, the output's at anything — runs to its end
    leaving the inputs as they were and the output's at `out1_3 x0 x1 x2`. -/
theorem sound_kernel1 (c : Dev nD) (E : Set ℕ) (i : grid1.Coords)
    (arg1 : Memref sig .tc .vmem S1000x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S1000x128 .f32) (harg4 : arg4.IsWhole)
    (x0 : Vec F S1000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body at point `t` each input's
    buffer at its block and the output's at `out1_3` of the three blocks; the invariant is the untouched rest (the
    scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.WReg2.lean ====
/-
  The third dense layer's pallas_call (ten points; point `t` owns rows `1000 t … 1000 t + 999` of the output): a thousand rows of the four concatenated hop features (4 × 128 columns) against the stacked 512 × 64 weights, plus the bias row, clipped below at zero.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.Kernel.Launch
import proofs.«106689_j32762010534267_1_alg».proof.Proof.Gen.Kernel.Skeleton
import proofs.«106689_j32762010534267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds the point's block, for any proof data over `V`'s arrays whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole matrix at every point: it is fetched once and its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer, as the rectangle the body's loads and its one store go through. -/
abbrev rx2 : Rect S1000x512 := Rect.unit (s := S1000x512) ![0, 0] S1000x512.size inb_S1000x512_S1000x512_0_0
abbrev rw2 : Rect S512x64 := Rect.unit (s := S512x64) ![0, 0] S512x64.size inb_S512x64_S512x64_0_0
abbrev rb2 : Rect S1x64 := Rect.unit (s := S1x64) ![0, 0] S1x64.size inb_S1x64_S1x64_0_0
abbrev ro2 : Rect S1000x64 := Rect.unit (s := S1000x64) ![0, 0] S1000x64.size inb_S1000x64_S1000x64_0_0

/-- The output rows' staging buffer after the body: its one store, over the whole buffer, of the layer's value on the
    three blocks read. -/
def out2_3 (x0 : Vec F S1000x512 .f32) (x1 : Vec F S512x64 .f32) (x2 : Vec F S1x64 .f32) : Vec F S1000x64 .f32 :=
  View.canon [⟨ro2, k2_pay1 (View.ld x0 rx2) (View.ld x1 rw2) (View.ld x2 rb2)⟩]

/-- The one store covers the buffer. -/
theorem cover2_3 (p0 : Vec F S1000x64 .f32) (y : S1000x64.Idx) :
    ∃ pc ∈ ([⟨ro2, p0⟩] : List (View.Piece (Elt F) S1000x64 .f32)), y ∈ pc.1.set :=
  View.cover_of_tiled [⟨ro2, p0⟩] S1000x64.size (by rfl) y

set_option maxHeartbeats 1000000 in
/-- The body on whole staging buffers — the inputs' at contents `x0 x1 x2`, the output's at anything — runs to its end
    leaving the inputs as they were and the output's at `out2_3 x0 x1 x2`. -/
theorem sound_kernel2 (c : Dev nD) (E : Set ℕ) (i : grid2.Coords)
    (arg1 : Memref sig .tc .vmem S1000x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x512 .f32) (x1 : Vec F S512x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the call finds them; after the body at point `t` each input's
    buffer at its block and the output's at `out2_3` of the three blocks; the invariant is the untouched rest (the
    scoped buffers and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.WReg3.lean ====
/-
  The code projection's pallas_call (ten points; point `t` owns rows `1000 t … 1000 t + 999`): a thousand rows of the last layer's output against the 64 × 64 projection, plus its bias row; nothing is clipped.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.Kernel.Launch
import proofs.«106689_j32762010534267_1_alg».proof.Proof.Gen.Kernel.Skeleton
import proofs.«106689_j32762010534267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature rows' staging buffer holds the point's block, for any proof data over `V`'s arrays whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole matrix at every point: it is fetched once and its block never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole of each staging buffer, as the rectangle the body's loads and its one store go through. -/
abbrev rx3 : Rect S1000x64 := Rect.unit (s := S1000x64) ![0, 0] S1000x64.size inb_S1000x64_S1000x64_0_0
abbrev rw3 : Rect S64x64 := Rect.unit (s := S64x64) ![0, 0] S64x64.size inb_S64x64_S64x64_0_0
abbrev rb3 : Rect S1x64 := Rect.unit (s := S1x64) ![0, 0] S1x64.size inb_S1x64_S1x64_0_0
abbrev ro3 : Rect S1000x64 := Rect.unit (s := S1000x64) ![0, 0] S1000x64.size inb_S1000x64_S1000x64_0_0

/-- The output rows' staging buffer after the body: its one store, over the whole buffer, of the layer's value on the
    three blocks read. -/
def out3_3 (x0 : Vec F S1000x64 .f32) (x1 : Vec F S64x64 .f32) (x2 : Vec F S1x64 .f32) : Vec F S1000x64 .f32 :=
  View.canon [⟨ro3, k3_pay1 (View.ld x0 rx3) (View.ld x1 rw3) (View.ld x2 rb3)⟩]

/-- The one store covers the buffer. -/
theorem cover3_3 (p0 : Vec F S1000x64 .f32) (y : S1000x64.Idx) :
    ∃ pc ∈ ([⟨ro3, p0⟩] : List (View.Piece (Elt F) S1000x64 .f32)), y ∈ pc.1.set :=
  View.cover_of_tiled [⟨ro3, p0⟩] S1000x64.size (by rfl) y

set_option maxHeartbeats 1000000 in
/-- The body on whole staging buffers — the inputs' at contents `x0 x1 x2`, the output's at anything — runs to its end
    leaving the inputs as they were and the output's at `out3_3 x0 x1 x2`. -/
theorem sound_kernel3 (c : Dev nD) (E : Set ℕ) (i : grid3.Coords)
    (arg1 : Memref sig .tc .vmem S1000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the call finds them; after the body at point `t` each input's
    buffer at its block and the output's at `out3_3` of the three blocks; the invariant is the untouched rest (the
    scoped buffers and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.WReg4.lean ====
/-
  The decoder-side projection's pallas_call (ten points; point `t` owns rows `1000 t … 1000 t + 999`): a thousand rows of the codes against the 64 × 64 decoder matrix, plus a bias row that the program fills with zeros; nothing is clipped.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.Kernel.Launch
import proofs.«106689_j32762010534267_1_alg».proof.Proof.Gen.Kernel.Skeleton
import proofs.«106689_j32762010534267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature rows' staging buffer holds the point's block, for any proof data over `V`'s arrays whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the whole matrix at every point: it is fetched once and its block never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole of each staging buffer, as the rectangle the body's loads and its one store go through. -/
abbrev rx4 : Rect S1000x64 := Rect.unit (s := S1000x64) ![0, 0] S1000x64.size inb_S1000x64_S1000x64_0_0
abbrev rw4 : Rect S64x64 := Rect.unit (s := S64x64) ![0, 0] S64x64.size inb_S64x64_S64x64_0_0
abbrev rb4 : Rect S1x64 := Rect.unit (s := S1x64) ![0, 0] S1x64.size inb_S1x64_S1x64_0_0
abbrev ro4 : Rect S1000x64 := Rect.unit (s := S1000x64) ![0, 0] S1000x64.size inb_S1000x64_S1000x64_0_0

/-- The output rows' staging buffer after the body: its one store, over the whole buffer, of the layer's value on the
    three blocks read. -/
def out4_3 (x0 : Vec F S1000x64 .f32) (x1 : Vec F S64x64 .f32) (x2 : Vec F S1x64 .f32) : Vec F S1000x64 .f32 :=
  View.canon [⟨ro4, k4_pay1 (View.ld x0 rx4) (View.ld x1 rw4) (View.ld x2 rb4)⟩]

/-- The one store covers the buffer. -/
theorem cover4_3 (p0 : Vec F S1000x64 .f32) (y : S1000x64.Idx) :
    ∃ pc ∈ ([⟨ro4, p0⟩] : List (View.Piece (Elt F) S1000x64 .f32)), y ∈ pc.1.set :=
  View.cover_of_tiled [⟨ro4, p0⟩] S1000x64.size (by rfl) y

set_option maxHeartbeats 1000000 in
/-- The body on whole staging buffers — the inputs' at contents `x0 x1 x2`, the output's at anything — runs to its end
    leaving the inputs as they were and the output's at `out4_3 x0 x1 x2`. -/
theorem sound_kernel4 (c : Dev nD) (E : Set ℕ) (i : grid4.Coords)
    (arg1 : Memref sig .tc .vmem S1000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the call finds them; after the body at point `t` each input's
    buffer at its block and the output's at `out4_3` of the three blocks; the invariant is the untouched rest (the
    scoped buffers and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `sound_kernel4` applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.WReg5.lean ====
/-
  The bilinear decode's pallas_call (fifty points; point `t` owns rows `200 t … 200 t + 199` of the square output).

  At every point the body reads two hundred rows of the projected codes and the WHOLE code matrix (fetched once: its
  block never moves), and overwrites the point's two hundred output rows with the product of the first with the
  transpose of the second.  As for the dense layers: for any contents `V` of the buffers when the call is entered, what
  the output's staging buffer holds after the body is a function `out5_2` of the two input blocks; each input's
  staging buffer holds its block of `V`'s array at every point; the body leaves the inputs as they were.
-/
import proofs.«106689_j32762010534267_1_alg».proof.Proof.Gen.Kernel.Launch
import proofs.«106689_j32762010534267_1_alg».proof.Proof.Gen.Kernel.Skeleton
import proofs.«106689_j32762010534267_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The projected rows' staging buffer holds the point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The code matrix's staging buffer holds the whole matrix at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole of each staging buffer, as the rectangle the body's loads and its one store go through. -/
abbrev ra5 : Rect S200x64 := Rect.unit (s := S200x64) ![0, 0] S200x64.size inb_S200x64_S200x64_0_0
abbrev rz5 : Rect S10000x64 := Rect.unit (s := S10000x64) ![0, 0] S10000x64.size inb_S10000x64_S10000x64_0_0
abbrev ro5 : Rect S200x10000 := Rect.unit (s := S200x10000) ![0, 0] S200x10000.size inb_S200x10000_S200x10000_0_0

/-- The output rows' staging buffer after the body: its one store, over the whole buffer. -/
def out5_2 (x0 : Vec F S200x64 .f32) (x1 : Vec F S10000x64 .f32) : Vec F S200x10000 .f32 :=
  View.canon [⟨ro5, k5_pay1 (View.ld x0 ra5) (View.ld x1 rz5)⟩]

/-- The one store covers the buffer. -/
theorem cover5_2 (p0 : Vec F S200x10000 .f32) (y : S200x10000.Idx) :
    ∃ pc ∈ ([⟨ro5, p0⟩] : List (View.Piece (Elt F) S200x10000 .f32)), y ∈ pc.1.set :=
  View.cover_of_tiled [⟨ro5, p0⟩] S200x10000.size (by rfl) y

set_option maxHeartbeats 1000000 in
/-- The body on whole staging buffers runs to its end leaving the inputs as they were and the output's at
    `out5_2 x0 x1`. -/
theorem sound_kernel5 (c : Dev nD) (E : Set ℕ) (i : grid5.Coords)
    (arg1 : Memref sig .tc .vmem S200x64 .f32) (harg1 : arg1.IsWhole) (arg2 : Memref sig .tc .vmem S10000x64 .f32) (harg2 : arg2.IsWhole)
    (arg3 : Memref sig .tc .vmem S200x10000 .f32) (harg3 : arg3.IsWhole)
    (x0 : Vec F S200x64 .f32) (x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bilinear_kernel i arg1 harg1 arg2 harg2 arg3 harg3) K := by
  simp only [cc5__bilinear_kernel_eq_skeleton]; unfold cc5__bilinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.WRun.lean ====
/-
  The whole run of @main: thirteen segments — three stretches of host operations (the edge normaliser, an outlined
  select, then the first layer's hops, their concatenation and the weights' re-laying), the first layer's pallas_call,
  the second layer's host stretch and call, the third's, a one-line stretch and the code projection, a three-line
  stretch and the decoder-side projection, and the bilinear decode right after it.

  The buffers' contents at each boundary are a fold from the launch memory: a host stretch applies its operations
  (`StableHlo.after`); a pallas_call replaces its windows' arrays by what its pipeline leaves (the inputs as entered,
  the output at the write-backs folded) and keeps every other buffer.  No host operation and no call writes an
  argument array, so walking the fold back at an argument's buffer reaches the launch memory; the two arguments that
  ARE windows of a call (the projection matrices) are inputs there, and an input's array is left as entered.
  Every call's pipeline gets its proof data at its own entry contents; each call is a segment that splits its arrays
  out of the thread's buffers, runs, and puts them back; and the launch theorem for a list of segments gives: every
  weakly fair execution terminates, nothing faults, and every unscoped buffer ends at the last boundary's contents.
  Stated at any float instance.
-/
import proofs.«106689_j32762010534267_1_alg».proof.Proof.WReg0
import proofs.«106689_j32762010534267_1_alg».proof.Proof.WReg1
import proofs.«106689_j32762010534267_1_alg».proof.Proof.WReg2
import proofs.«106689_j32762010534267_1_alg».proof.Proof.WReg3
import proofs.«106689_j32762010534267_1_alg».proof.Proof.WReg4
import proofs.«106689_j32762010534267_1_alg».proof.Proof.WReg5

set_option maxRecDepth 16384

noncomputable section

namespace Cert.Kernel.Rn

open Cert.Kernel Cert.Kernel.Gen Cert.Kernel.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the edge normaliser's first stretch. -/
abbrev W1 : Dev nD → Valuation τ sig (Elt F) := fun c => StableHlo.after hostOps0 (W0 m ρ c)
/-- After the outlined select. -/
abbrev W2 : Dev nD → Valuation τ sig (Elt F) := fun c => StableHlo.after hostOps0_1 (W1 m ρ c)
/-- After the first layer's hops, concatenation and re-laying: the first call's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- The first call's exit. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second layer's host stretch: the second call's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- The second call's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the third layer's host stretch: the third call's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- The third call's exit. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the projection bias's re-laying: the fourth call's entry. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
/-- The fourth call's exit. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the zero bias row is made: the fifth call's entry. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
/-- The fifth call's exit, which is the sixth call's entry. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- The sixth call's exit: the contents @main returns with. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

/-! ## The argument arrays end as launched -/

/-- @main's eleven argument arrays. -/
def args : List (Ref sig .tc) :=
  [main_arg0, main_arg1, main_arg2, main_arg3, main_arg4, main_arg5, main_arg6, main_arg7, main_arg8, main_arg9, main_arg10]

/-- A stretch of host operations none of which writes an argument leaves every argument's buffer as it was. -/
theorem after_keeps (ops : List (HloOp τ sig (Elt F))) (W : Valuation τ sig (Elt F))
    (h : ops.Forall fun op => ∀ r ∈ args, (Proc.devRef .tc r : DevRef τ sig) ∉ op.writes) (r : Ref sig .tc) (hr : r ∈ args) :
    StableHlo.after ops W (Proc.devRef .tc r) = W (Proc.devRef .tc r) :=
  StableHlo.after_of_forall_not_mem ops W fun op hop => (List.forall_iff_forall_mem.mp h) op hop r hr

/-- Each operation of each stretch writes one buffer, and it is no argument (told apart as references). -/
theorem keeps0 : (hostOps0 : List (HloOp τ sig (Elt F))).Forall fun op => ∀ r ∈ args, (Proc.devRef .tc r : DevRef τ sig) ∉ op.writes := by
  simp only [hostOps0, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
theorem keeps0_1 : (hostOps0_1 : List (HloOp τ sig (Elt F))).Forall fun op => ∀ r ∈ args, (Proc.devRef .tc r : DevRef τ sig) ∉ op.writes := by
  simp only [hostOps0_1, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
set_option maxHeartbeats 4000000 in
theorem keeps0_2 : (hostOps0_2 : List (HloOp τ sig (Elt F))).Forall fun op => ∀ r ∈ args, (Proc.devRef .tc r : DevRef τ sig) ∉ op.writes := by
  simp only [hostOps0_2, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
set_option maxHeartbeats 4000000 in
theorem keeps1 : (hostOps1 : List (HloOp τ sig (Elt F))).Forall fun op => ∀ r ∈ args, (Proc.devRef .tc r : DevRef τ sig) ∉ op.writes := by
  simp only [hostOps1, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
set_option maxHeartbeats 4000000 in
theorem keeps2 : (hostOps2 : List (HloOp τ sig (Elt F))).Forall fun op => ∀ r ∈ args, (Proc.devRef .tc r : DevRef τ sig) ∉ op.writes := by
  simp only [hostOps2, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
theorem keeps3 : (hostOps3 : List (HloOp τ sig (Elt F))).Forall fun op => ∀ r ∈ args, (Proc.devRef .tc r : DevRef τ sig) ∉ op.writes := by
  simp only [hostOps3, List.Forall, StableHlo.nullary_writes, StableHlo.unary_writes, StableHlo.binary_writes, StableHlo.ternary_writes,
    StableHlo.reshape_writes, StableHlo.nary_writes, Finset.mem_singleton]
  intro r hr; refine StableHlo.devRef_ne_of_ne ?_; revert r; decide
theorem keeps4 : (hostOps4 : List (HloOp τ sig (Elt F))).Forall fun op => ∀ r ∈ args, (Proc.devRef .tc r : DevRef τ sig) ∉ op.writes := by
  simp only [hostOps4, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)

/-- A call of which no argument is a window's array keeps every argument's buffer. -/
theorem call0_keeps (c : Dev nD) (r : Ref sig .tc) (hr : r ∈ args) : W4 m ρ c (Proc.devRef .tc r) = W3 m ρ c (Proc.devRef .tc r) :=
  W4_of_ne m ρ c r ((by decide : ∀ r ∈ args, ∀ w, Pipeline.arrRef spec0 w ≠ r) r hr)
theorem call1_keeps (c : Dev nD) (r : Ref sig .tc) (hr : r ∈ args) : W6 m ρ c (Proc.devRef .tc r) = W5 m ρ c (Proc.devRef .tc r) :=
  W6_of_ne m ρ c r ((by decide : ∀ r ∈ args, ∀ w, Pipeline.arrRef spec1 w ≠ r) r hr)
theorem call2_keeps (c : Dev nD) (r : Ref sig .tc) (hr : r ∈ args) : W8 m ρ c (Proc.devRef .tc r) = W7 m ρ c (Proc.devRef .tc r) :=
  W8_of_ne m ρ c r ((by decide : ∀ r ∈ args, ∀ w, Pipeline.arrRef spec2 w ≠ r) r hr)
theorem call5_keeps (c : Dev nD) (r : Ref sig .tc) (hr : r ∈ args) : W13 m ρ c (Proc.devRef .tc r) = W12 m ρ c (Proc.devRef .tc r) :=
  W13_of_ne m ρ c r ((by decide : ∀ r ∈ args, ∀ w, Pipeline.arrRef spec5 w ≠ r) r hr)
/-- The code projection reads its matrix (an argument) through an input window: an input's array is left as entered. -/
theorem call3_keeps (c : Dev nD) (r : Ref sig .tc) (hr : r ∈ args) : W10 m ρ c (Proc.devRef .tc r) = W9 m ρ c (Proc.devRef .tc r) := by
  rcases (by decide : ∀ r ∈ args, r = main_arg8 ∨ ∀ w, Pipeline.arrRef spec3 w ≠ r) r hr with rfl | h
  · exact (W10_arr m ρ c 1).trans (((dat3 (V9 m ρ) c).arrAt_in 1 rfl _).trans (A_eq3 (V9 m ρ) c 1))
  · exact W10_of_ne m ρ c r h
/-- The decoder-side projection likewise. -/
theorem call4_keeps (c : Dev nD) (r : Ref sig .tc) (hr : r ∈ args) : W12 m ρ c (Proc.devRef .tc r) = W11 m ρ c (Proc.devRef .tc r) := by
  rcases (by decide : ∀ r ∈ args, r = main_arg10 ∨ ∀ w, Pipeline.arrRef spec4 w ≠ r) r hr with rfl | h
  · exact (W12_arr m ρ c 1).trans (((dat4 (V11 m ρ) c).arrAt_in 1 rfl _).trans (A_eq4 (V11 m ρ) c 1))
  · exact W12_of_ne m ρ c r h

/-- Walking the fold back at an argument's buffer reaches the launch memory. -/
theorem final_arg (c : Dev nD) (r : Ref sig .tc) (hr : r ∈ args) :
    W13 m ρ c (Proc.devRef .tc r) = m ((c : Thread nD τ).loc r) :=
  calc W13 m ρ c (Proc.devRef .tc r)
    _ = W12 m ρ c (Proc.devRef .tc r) := call5_keeps m ρ c r hr
    _ = W11 m ρ c (Proc.devRef .tc r) := call4_keeps m ρ c r hr
    _ = W10 m ρ c (Proc.devRef .tc r) := after_keeps hostOps4 _ keeps4 r hr
    _ = W9 m ρ c (Proc.devRef .tc r) := call3_keeps m ρ c r hr
    _ = W8 m ρ c (Proc.devRef .tc r) := after_keeps hostOps3 _ keeps3 r hr
    _ = W7 m ρ c (Proc.devRef .tc r) := call2_keeps m ρ c r hr
    _ = W6 m ρ c (Proc.devRef .tc r) := after_keeps hostOps2 _ keeps2 r hr
    _ = W5 m ρ c (Proc.devRef .tc r) := call1_keeps m ρ c r hr
    _ = W4 m ρ c (Proc.devRef .tc r) := after_keeps hostOps1 _ keeps1 r hr
    _ = W3 m ρ c (Proc.devRef .tc r) := call0_keeps m ρ c r hr
    _ = W2 m ρ c (Proc.devRef .tc r) := after_keeps hostOps0_2 _ keeps0_2 r hr
    _ = W1 m ρ c (Proc.devRef .tc r) := after_keeps hostOps0_1 _ keeps0_1 r hr
    _ = W0 m ρ c (Proc.devRef .tc r) := after_keeps hostOps0 _ keeps0 r hr
    _ = m ((c : Thread nD τ).loc r) := rfl

/-! ## The proof data family and the thread state -/

/-- No pipeline has a prefetched table. -/
abbrev adm : (p : Fin 6) → (pcfgs (F := F) p).Adm := fun p => (cfgs p).toPCfg_adm
/-- Every pipeline's proof data, each at its own call's entry contents. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh0 : (hostOps0 : List (HloOp τ sig (Elt F))).Forall fun op => op.fresh = ∅ := by
  simp only [hostOps0, List.Forall]; repeat' constructor
theorem fresh0_1 : (hostOps0_1 : List (HloOp τ sig (Elt F))).Forall fun op => op.fresh = ∅ := by
  simp only [hostOps0_1, List.Forall]; repeat' constructor
set_option maxHeartbeats 4000000 in
theorem fresh0_2 : (hostOps0_2 : List (HloOp τ sig (Elt F))).Forall fun op => op.fresh = ∅ := by
  simp only [hostOps0_2, List.Forall]; repeat' constructor
set_option maxHeartbeats 4000000 in
theorem fresh1 : (hostOps1 : List (HloOp τ sig (Elt F))).Forall fun op => op.fresh = ∅ := by
  simp only [hostOps1, List.Forall]; repeat' constructor
set_option maxHeartbeats 4000000 in
theorem fresh2 : (hostOps2 : List (HloOp τ sig (Elt F))).Forall fun op => op.fresh = ∅ := by
  simp only [hostOps2, List.Forall]; repeat' constructor
theorem fresh3 : (hostOps3 : List (HloOp τ sig (Elt F))).Forall fun op => op.fresh = ∅ := by
  simp only [hostOps3, List.Forall]; repeat' constructor
theorem fresh4 : (hostOps4 : List (HloOp τ sig (Elt F))).Forall fun op => op.fresh = ∅ := by
  simp only [hostOps4, List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W13 m ρ c) ∗ ∃ r, prngReg c r)

/-! ## The calls as segments -/

set_option backward.isDefEq.respectTransparency.types false in
/-- The first layer's call over the thread state: entered from every unscoped buffer at `W3`, left at `W4`. Its arrays are split out of the unscoped buffers and put back at the exit contents; the generator register goes into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's call: entered at `W5`, left at `W6`; otherwise as the first. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third layer's call: entered at `W7`, left at `W8`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The code projection's call: entered at `W9`, left at `W10`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder-side projection's call: entered at `W11`, left at `W12`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The bilinear decode's call: entered at `W12` (nothing stands between it and the call before), left at `W13`, the contents @main returns with. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .region (reg0 m ρ),
    .host (hseg hostOps1 hostOps1_sub fresh1 (W4 m ρ)),
    .region (reg1 m ρ),
    .host (hseg hostOps2 hostOps2_sub fresh2 (W6 m ρ)),
    .region (reg2 m ρ),
    .host (hseg hostOps3 hostOps3_sub fresh3 (W8 m ρ)),
    .region (reg3 m ρ),
    .host (hseg hostOps4 hostOps4_sub fresh4 (W10 m ρ)),
    .region (reg4 m ρ),
    .region (reg5 m ρ) ]

set_option maxHeartbeats 4000000 in
/-- @main IS the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has every unscoped buffer at the last boundary's contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- An argument array is an unscoped buffer of the TensorCore. -/
theorem arg_mem_uc (r : Ref sig .tc) (hr : r ∈ args) : Proc.devRef .tc r ∈ Pipeline.ucRefs τ sig :=
  mem_uc r ((by decide : ∀ r ∈ args, ¬ (Proc.devRef .tc r : DevRef τ sig).isScoped) r hr)

/-- What a final state of the run says of an argument: it is as launched. -/
theorem arg_kept {s : MemSt nD τ sig (Elt F)} (h : ∀ c : Dev nD, ∀ b ∈ Pipeline.ucRefs τ sig, s.mem (((c : Thread nD τ)).1, b) = W13 m ρ c b)
    (c : Dev nD) (r : Ref sig .tc) (hr : r ∈ args) : s.mem ((c.tc : Thread nD τ).loc r) = m ((c.tc : Thread nD τ).loc r) :=
  (h c _ (arg_mem_uc r hr)).trans (final_arg m ρ c r hr)

/-- THE FRAME: every weakly fair execution terminates, nothing faults, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨arg_kept m ρ h c main_arg0 (by decide), arg_kept m ρ h c main_arg1 (by decide), arg_kept m ρ h c main_arg2 (by decide),
     arg_kept m ρ h c main_arg3 (by decide), arg_kept m ρ h c main_arg4 (by decide), arg_kept m ρ h c main_arg5 (by decide),
     arg_kept m ρ h c main_arg6 (by decide), arg_kept m ρ h c main_arg7 (by decide), arg_kept m ρ h c main_arg8 (by decide),
     arg_kept m ρ h c main_arg9 (by decide), arg_kept m ρ h c main_arg10 (by decide)⟩) (run_all m ρ)

end Cert.Kernel.Rn

end
-- ==== Proof.KReg0.lean ====
/-
  The first dense layer's pallas_call (ten points; point `t` owns rows `1000 t … 1000 t + 999` of the output).

  At every point the body reads three blocks — a thousand rows of the concatenated hop features, the whole stacked
  weight matrix, the bias row — and overwrites the point's thousand output rows with one value computed from them.
  So, for ANY contents `V` of the buffers when the call is entered: what the output's staging buffer holds after the
  body is a function `out0_3` of the three input blocks alone; each input's staging buffer holds its block of `V`'s
  array at every point, whether that point fetched it or not (the weights and the bias are fetched once, their block
  index never moves); and the body, run on whole staging buffers, leaves the inputs as they were.  These are the
  pipeline's proof data and its per-point obligation.  Everything is stated at any float instance.
-/
import proofs.«106689_j32762010534267_1_alg».proof.Proof.Gen.KernelIdeal.Launch
import proofs.«106689_j32762010534267_1_alg».proof.Proof.Gen.KernelIdeal.Skeleton
import proofs.«106689_j32762010534267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows' staging buffer holds the point's block, for any proof data over `V`'s arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole of each staging buffer, as the rectangle the body's loads and its one store go through. -/
abbrev rx0 : Rect S1000x1024 := Rect.unit (s := S1000x1024) ![0, 0] S1000x1024.size inb_S1000x1024_S1000x1024_0_0
abbrev rw0 : Rect S1024x128 := Rect.unit (s := S1024x128) ![0, 0] S1024x128.size inb_S1024x128_S1024x128_0_0
abbrev rb0 : Rect S1x128 := Rect.unit (s := S1x128) ![0, 0] S1x128.size inb_S1x128_S1x128_0_0
abbrev ro0 : Rect S1000x128 := Rect.unit (s := S1000x128) ![0, 0] S1000x128.size inb_S1000x128_S1000x128_0_0

/-- The output rows' staging buffer after the body: its one store, over the whole buffer, of the layer's value on the
    three blocks read. -/
def out0_3 (x0 : Vec F S1000x1024 .f32) (x1 : Vec F S1024x128 .f32) (x2 : Vec F S1x128 .f32) : Vec F S1000x128 .f32 :=
  View.canon [⟨ro0, k0_pay1 (View.ld x0 rx0) (View.ld x1 rw0) (View.ld x2 rb0)⟩]

/-- The one store covers the buffer. -/
theorem cover0_3 (p0 : Vec F S1000x128 .f32) (y : S1000x128.Idx) :
    ∃ pc ∈ ([⟨ro0, p0⟩] : List (View.Piece (Elt F) S1000x128 .f32)), y ∈ pc.1.set :=
  View.cover_of_tiled [⟨ro0, p0⟩] S1000x128.size (by rfl) y

set_option maxHeartbeats 1000000 in
/-- The body on whole staging buffers — the inputs' at contents `x0 x1 x2`, the output's at anything — runs to its end
    leaving the inputs as they were and the output's at `out0_3 x0 x1 x2`. -/
theorem sound_kernel0 (c : Dev nD) (E : Set ℕ) (i : grid0.Coords)
    (arg1 : Memref sig .tc .vmem S1000x1024 .f32) (harg1 : arg1.IsWhole) (arg2 : Memref sig .tc .vmem S1024x128 .f32) (harg2 : arg2.IsWhole)
    (arg3 : Memref sig .tc .vmem S1x128 .f32) (harg3 : arg3.IsWhole) (arg4 : Memref sig .tc .vmem S1000x128 .f32) (harg4 : arg4.IsWhole)
    (x0 : Vec F S1000x1024 .f32) (x1 : Vec F S1024x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the call finds them; after the body at point `t` each input's
    buffer at its block and the output's at `out0_3` of the three blocks; the invariant is the untouched rest (the
    scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KReg1.lean ====
/-
  The second dense layer's pallas_call (ten points; point `t` owns rows `1000 t … 1000 t + 999` of the output): a thousand rows of the four concatenated hop features (4 × 128 columns) against the stacked 512 × 128 weights, plus the bias row, clipped below at zero.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.KernelIdeal.Launch
import proofs.«106689_j32762010534267_1_alg».proof.Proof.Gen.KernelIdeal.Skeleton
import proofs.«106689_j32762010534267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature rows' staging buffer holds the point's block, for any proof data over `V`'s arrays whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole matrix at every point: it is fetched once and its block never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer, as the rectangle the body's loads and its one store go through. -/
abbrev rx1 : Rect S1000x512 := Rect.unit (s := S1000x512) ![0, 0] S1000x512.size inb_S1000x512_S1000x512_0_0
abbrev rw1 : Rect S512x128 := Rect.unit (s := S512x128) ![0, 0] S512x128.size inb_S512x128_S512x128_0_0
abbrev rb1 : Rect S1x128 := Rect.unit (s := S1x128) ![0, 0] S1x128.size inb_S1x128_S1x128_0_0
abbrev ro1 : Rect S1000x128 := Rect.unit (s := S1000x128) ![0, 0] S1000x128.size inb_S1000x128_S1000x128_0_0

/-- The output rows' staging buffer after the body: its one store, over the whole buffer, of the layer's value on the
    three blocks read. -/
def out1_3 (x0 : Vec F S1000x512 .f32) (x1 : Vec F S512x128 .f32) (x2 : Vec F S1x128 .f32) : Vec F S1000x128 .f32 :=
  View.canon [⟨ro1, k1_pay1 (View.ld x0 rx1) (View.ld x1 rw1) (View.ld x2 rb1)⟩]

/-- The one store covers the buffer. -/
theorem cover1_3 (p0 : Vec F S1000x128 .f32) (y : S1000x128.Idx) :
    ∃ pc ∈ ([⟨ro1, p0⟩] : List (View.Piece (Elt F) S1000x128 .f32)), y ∈ pc.1.set :=
  View.cover_of_tiled [⟨ro1, p0⟩] S1000x128.size (by rfl) y

set_option maxHeartbeats 1000000 in
/-- The body on whole staging buffers — the inputs' at contents `x0 x1 x2`, the output's at anything — runs to its end
    leaving the inputs as they were and the output's at `out1_3 x0 x1 x2`. -/
theorem sound_kernel1 (c : Dev nD) (E : Set ℕ) (i : grid1.Coords)
    (arg1 : Memref sig .tc .vmem S1000x512 .f32) (harg1 : arg1.IsWhole) (arg2 : Memref sig .tc .vmem S512x128 .f32) (harg2 : arg2.IsWhole)
    (arg3 : Memref sig .tc .vmem S1x128 .f32) (harg3 : arg3.IsWhole) (arg4 : Memref sig .tc .vmem S1000x128 .f32) (harg4 : arg4.IsWhole)
    (x0 : Vec F S1000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body at point `t` each input's
    buffer at its block and the output's at `out1_3` of the three blocks; the invariant is the untouched rest (the
    scoped buffers and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KReg2.lean ====
/-
  The third dense layer's pallas_call (ten points; point `t` owns rows `1000 t … 1000 t + 999` of the output): a thousand rows of the four concatenated hop features (4 × 128 columns) against the stacked 512 × 64 weights, plus the bias row, clipped below at zero.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.KernelIdeal.Launch
import proofs.«106689_j32762010534267_1_alg».proof.Proof.Gen.KernelIdeal.Skeleton
import proofs.«106689_j32762010534267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature rows' staging buffer holds the point's block, for any proof data over `V`'s arrays whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole matrix at every point: it is fetched once and its block never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole of each staging buffer, as the rectangle the body's loads and its one store go through. -/
abbrev rx2 : Rect S1000x512 := Rect.unit (s := S1000x512) ![0, 0] S1000x512.size inb_S1000x512_S1000x512_0_0
abbrev rw2 : Rect S512x64 := Rect.unit (s := S512x64) ![0, 0] S512x64.size inb_S512x64_S512x64_0_0
abbrev rb2 : Rect S1x64 := Rect.unit (s := S1x64) ![0, 0] S1x64.size inb_S1x64_S1x64_0_0
abbrev ro2 : Rect S1000x64 := Rect.unit (s := S1000x64) ![0, 0] S1000x64.size inb_S1000x64_S1000x64_0_0

/-- The output rows' staging buffer after the body: its one store, over the whole buffer, of the layer's value on the
    three blocks read. -/
def out2_3 (x0 : Vec F S1000x512 .f32) (x1 : Vec F S512x64 .f32) (x2 : Vec F S1x64 .f32) : Vec F S1000x64 .f32 :=
  View.canon [⟨ro2, k2_pay1 (View.ld x0 rx2) (View.ld x1 rw2) (View.ld x2 rb2)⟩]

/-- The one store covers the buffer. -/
theorem cover2_3 (p0 : Vec F S1000x64 .f32) (y : S1000x64.Idx) :
    ∃ pc ∈ ([⟨ro2, p0⟩] : List (View.Piece (Elt F) S1000x64 .f32)), y ∈ pc.1.set :=
  View.cover_of_tiled [⟨ro2, p0⟩] S1000x64.size (by rfl) y

set_option maxHeartbeats 1000000 in
/-- The body on whole staging buffers — the inputs' at contents `x0 x1 x2`, the output's at anything — runs to its end
    leaving the inputs as they were and the output's at `out2_3 x0 x1 x2`. -/
theorem sound_kernel2 (c : Dev nD) (E : Set ℕ) (i : grid2.Coords)
    (arg1 : Memref sig .tc .vmem S1000x512 .f32) (harg1 : arg1.IsWhole) (arg2 : Memref sig .tc .vmem S512x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x512 .f32) (x1 : Vec F S512x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data on core `c`: the arrays as the call finds them; after the body at point `t` each input's
    buffer at its block and the output's at `out2_3` of the three blocks; the invariant is the untouched rest (the
    scoped buffers and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KReg3.lean ====
/-
  The code projection's pallas_call (ten points; point `t` owns rows `1000 t … 1000 t + 999`): a thousand rows of the last layer's output against the 64 × 64 projection, plus its bias row; nothing is clipped.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.KernelIdeal.Launch
import proofs.«106689_j32762010534267_1_alg».proof.Proof.Gen.KernelIdeal.Skeleton
import proofs.«106689_j32762010534267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature rows' staging buffer holds the point's block, for any proof data over `V`'s arrays whose body leaves
    the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole matrix at every point: it is fetched once and its block never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole of each staging buffer, as the rectangle the body's loads and its one store go through. -/
abbrev rx3 : Rect S1000x64 := Rect.unit (s := S1000x64) ![0, 0] S1000x64.size inb_S1000x64_S1000x64_0_0
abbrev rw3 : Rect S64x64 := Rect.unit (s := S64x64) ![0, 0] S64x64.size inb_S64x64_S64x64_0_0
abbrev rb3 : Rect S1x64 := Rect.unit (s := S1x64) ![0, 0] S1x64.size inb_S1x64_S1x64_0_0
abbrev ro3 : Rect S1000x64 := Rect.unit (s := S1000x64) ![0, 0] S1000x64.size inb_S1000x64_S1000x64_0_0

/-- The output rows' staging buffer after the body: its one store, over the whole buffer, of the layer's value on the
    three blocks read. -/
def out3_3 (x0 : Vec F S1000x64 .f32) (x1 : Vec F S64x64 .f32) (x2 : Vec F S1x64 .f32) : Vec F S1000x64 .f32 :=
  View.canon [⟨ro3, k3_pay1 (View.ld x0 rx3) (View.ld x1 rw3) (View.ld x2 rb3)⟩]

/-- The one store covers the buffer. -/
theorem cover3_3 (p0 : Vec F S1000x64 .f32) (y : S1000x64.Idx) :
    ∃ pc ∈ ([⟨ro3, p0⟩] : List (View.Piece (Elt F) S1000x64 .f32)), y ∈ pc.1.set :=
  View.cover_of_tiled [⟨ro3, p0⟩] S1000x64.size (by rfl) y

set_option maxHeartbeats 1000000 in
/-- The body on whole staging buffers — the inputs' at contents `x0 x1 x2`, the output's at anything — runs to its end
    leaving the inputs as they were and the output's at `out3_3 x0 x1 x2`. -/
theorem sound_kernel3 (c : Dev nD) (E : Set ℕ) (i : grid3.Coords)
    (arg1 : Memref sig .tc .vmem S1000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pipeline's proof data on core `c`: the arrays as the call finds them; after the body at point `t` each input's
    buffer at its block and the output's at `out3_3` of the three blocks; the invariant is the untouched rest (the
    scoped buffers and the generator register); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so `sound_kernel3` applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.KReg4.lean ====
/-
  The decoder-side projection's pallas_call (ten points; point `t` owns rows `1000 t … 1000 t + 999`): a thousand rows of the codes against the 64 × 64 decoder matrix, plus a bias row that the program fills with zeros; nothing is clipped.

  For ANY contents `V` of the buffers when the call is entered: what the output's staging buffer holds after the
  body is a function of the three input blocks alone (the body's one store, over the whole buffer); each input's
  staging buffer holds its block of `V`'s array at every point, whether that point fetched it or not (the weights and
  the bias row are fetched once, their block index never moves); and the body, run on whole staging buffers, leaves
  the inputs as they were.  These are the pipeline's proof data and its per-point obligation, at any float instance.
-/
import proofs.«106689_j32762010534267_1_alg».proof.Proof.Gen.KernelIdeal.Launch
import proofs.«106689_j32762010534267_1_alg».proof.Proof.Gen.KernelIdeal.Skeleton
import proofs.«106689_j32762010534267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature rows' staging buffer holds the point's block, for any proof data over `V`'s arrays whose body leaves
    the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the whole matrix at every point: it is fetched once and its block never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer likewise. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole of each staging buffer, as the rectangle the body's loads and its one store go through. -/
abbrev rx4 : Rect S1000x64 := Rect.unit (s := S1000x64) ![0, 0] S1000x64.size inb_S1000x64_S1000x64_0_0
abbrev rw4 : Rect S64x64 := Rect.unit (s := S64x64) ![0, 0] S64x64.size inb_S64x64_S64x64_0_0
abbrev rb4 : Rect S1x64 := Rect.unit (s := S1x64) ![0, 0] S1x64.size inb_S1x64_S1x64_0_0
abbrev ro4 : Rect S1000x64 := Rect.unit (s := S1000x64) ![0, 0] S1000x64.size inb_S1000x64_S1000x64_0_0

/-- The output rows' staging buffer after the body: its one store, over the whole buffer, of the layer's value on the
    three blocks read. -/
def out4_3 (x0 : Vec F S1000x64 .f32) (x1 : Vec F S64x64 .f32) (x2 : Vec F S1x64 .f32) : Vec F S1000x64 .f32 :=
  View.canon [⟨ro4, k4_pay1 (View.ld x0 rx4) (View.ld x1 rw4) (View.ld x2 rb4)⟩]

/-- The one store covers the buffer. -/
theorem cover4_3 (p0 : Vec F S1000x64 .f32) (y : S1000x64.Idx) :
    ∃ pc ∈ ([⟨ro4, p0⟩] : List (View.Piece (Elt F) S1000x64 .f32)), y ∈ pc.1.set :=
  View.cover_of_tiled [⟨ro4, p0⟩] S1000x64.size (by rfl) y

set_option maxHeartbeats 1000000 in
/-- The body on whole staging buffers — the inputs' at contents `x0 x1 x2`, the output's at anything — runs to its end
    leaving the inputs as they were and the output's at `out4_3 x0 x1 x2`. -/
theorem sound_kernel4 (c : Dev nD) (E : Set ℕ) (i : grid4.Coords)
    (arg1 : Memref sig .tc .vmem S1000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S1000x64 .f32) (harg4 : arg4.IsWhole)
    (x0 : Vec F S1000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The pipeline's proof data on core `c`: the arrays as the call finds them; after the body at point `t` each input's
    buffer at its block and the output's at `out4_3` of the three blocks; the invariant is the untouched rest (the
    scoped buffers and the generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so `sound_kernel4` applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KReg5.lean ====
/-
  The bilinear decode's pallas_call (fifty points; point `t` owns rows `200 t … 200 t + 199` of the square output).

  At every point the body reads two hundred rows of the projected codes and the WHOLE code matrix (fetched once: its
  block never moves), and overwrites the point's two hundred output rows with the product of the first with the
  transpose of the second.  As for the dense layers: for any contents `V` of the buffers when the call is entered, what
  the output's staging buffer holds after the body is a function `out5_2` of the two input blocks; each input's
  staging buffer holds its block of `V`'s array at every point; the body leaves the inputs as they were.
-/
import proofs.«106689_j32762010534267_1_alg».proof.Proof.Gen.KernelIdeal.Launch
import proofs.«106689_j32762010534267_1_alg».proof.Proof.Gen.KernelIdeal.Skeleton
import proofs.«106689_j32762010534267_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off the window's array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The projected rows' staging buffer holds the point's block. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The code matrix's staging buffer holds the whole matrix at every point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole of each staging buffer, as the rectangle the body's loads and its one store go through. -/
abbrev ra5 : Rect S200x64 := Rect.unit (s := S200x64) ![0, 0] S200x64.size inb_S200x64_S200x64_0_0
abbrev rz5 : Rect S10000x64 := Rect.unit (s := S10000x64) ![0, 0] S10000x64.size inb_S10000x64_S10000x64_0_0
abbrev ro5 : Rect S200x10000 := Rect.unit (s := S200x10000) ![0, 0] S200x10000.size inb_S200x10000_S200x10000_0_0

/-- The output rows' staging buffer after the body: its one store, over the whole buffer. -/
def out5_2 (x0 : Vec F S200x64 .f32) (x1 : Vec F S10000x64 .f32) : Vec F S200x10000 .f32 :=
  View.canon [⟨ro5, k5_pay1 (View.ld x0 ra5) (View.ld x1 rz5)⟩]

/-- The one store covers the buffer. -/
theorem cover5_2 (p0 : Vec F S200x10000 .f32) (y : S200x10000.Idx) :
    ∃ pc ∈ ([⟨ro5, p0⟩] : List (View.Piece (Elt F) S200x10000 .f32)), y ∈ pc.1.set :=
  View.cover_of_tiled [⟨ro5, p0⟩] S200x10000.size (by rfl) y

set_option maxHeartbeats 1000000 in
/-- The body on whole staging buffers runs to its end leaving the inputs as they were and the output's at
    `out5_2 x0 x1`. -/
theorem sound_kernel5 (c : Dev nD) (E : Set ℕ) (i : grid5.Coords)
    (arg1 : Memref sig .tc .vmem S200x64 .f32) (harg1 : arg1.IsWhole) (arg2 : Memref sig .tc .vmem S10000x64 .f32) (harg2 : arg2.IsWhole)
    (arg3 : Memref sig .tc .vmem S200x10000 .f32) (harg3 : arg3.IsWhole)
    (x0 : Vec F S200x64 .f32) (x1 : Vec F S10000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__bilinear_kernel i arg1 harg1 arg2 harg2 arg3 harg3) K := by
  simp only [cc5__bilinear_kernel_eq_skeleton]; unfold cc5__bilinear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) :
    (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.KRun.lean ====
/-
  The whole run of @main: thirteen segments — three stretches of host operations (the edge normaliser, an outlined
  select, then the first layer's hops, their concatenation and the weights' re-laying), the first layer's pallas_call,
  the second layer's host stretch and call, the third's, a one-line stretch and the code projection, a three-line
  stretch and the decoder-side projection, and the bilinear decode right after it.

  The buffers' contents at each boundary are a fold from the launch memory: a host stretch applies its operations
  (`StableHlo.after`); a pallas_call replaces its windows' arrays by what its pipeline leaves (the inputs as entered,
  the output at the write-backs folded) and keeps every other buffer.  No host operation and no call writes an
  argument array, so walking the fold back at an argument's buffer reaches the launch memory; the two arguments that
  ARE windows of a call (the projection matrices) are inputs there, and an input's array is left as entered.
  Every call's pipeline gets its proof data at its own entry contents; each call is a segment that splits its arrays
  out of the thread's buffers, runs, and puts them back; and the launch theorem for a list of segments gives: every
  weakly fair execution terminates, nothing faults, and every unscoped buffer ends at the last boundary's contents.
  Stated at any float instance.
-/
import proofs.«106689_j32762010534267_1_alg».proof.Proof.KReg0
import proofs.«106689_j32762010534267_1_alg».proof.Proof.KReg1
import proofs.«106689_j32762010534267_1_alg».proof.Proof.KReg2
import proofs.«106689_j32762010534267_1_alg».proof.Proof.KReg3
import proofs.«106689_j32762010534267_1_alg».proof.Proof.KReg4
import proofs.«106689_j32762010534267_1_alg».proof.Proof.KReg5

set_option maxRecDepth 16384

noncomputable section

namespace Cert.KernelIdeal.Rn

open Cert.KernelIdeal Cert.KernelIdeal.Gen Cert.KernelIdeal.Rg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the edge normaliser's first stretch. -/
abbrev W1 : Dev nD → Valuation τ sig (Elt F) := fun c => StableHlo.after hostOps0 (W0 m ρ c)
/-- After the outlined select. -/
abbrev W2 : Dev nD → Valuation τ sig (Elt F) := fun c => StableHlo.after hostOps0_1 (W1 m ρ c)
/-- After the first layer's hops, concatenation and re-laying: the first call's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- The first call's exit. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the second layer's host stretch: the second call's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- The second call's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the third layer's host stretch: the third call's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- The third call's exit. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the projection bias's re-laying: the fourth call's entry. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
/-- The fourth call's exit. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-- After the zero bias row is made: the fifth call's entry. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b
/-- The fifth call's exit, which is the sixth call's entry. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-- The sixth call's exit: the contents @main returns with. -/
def W13 (c : Dev nD) : Valuation τ sig (Elt F) :=
  Pipeline.withArrays spec5 c (W12 m ρ c) fun w => (dat5 (V12 m ρ) c).arrAt w cfg5.N
theorem W13_arr (c : Dev nD) (w : Fin cfg5.W) :
    W13 m ρ c (Proc.devRef .tc (Pipeline.arrRef spec5 w)) = (dat5 (V12 m ρ) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
abbrev V13 : (c : Dev nD) → (b : Ref sig .tc) → Buf (Elt F) ((c : Thread nD τ).loc b) := fun c b => W13 m ρ c b
theorem hF5 (c : Dev nD) (w : Fin cfg5.W) : (dat5 (V12 m ρ) c).arrAt w cfg5.N = V13 m ρ c (Pipeline.arrRef spec5 w) :=
  (W13_arr m ρ c w).symm
theorem hrest5 (c : Dev nD) : ∀ b, b ∉ Finset.univ.image (Pipeline.arrRef spec5) → V13 m ρ c b = V12 m ρ c b :=
  fun b hb => W13_of_ne m ρ c b fun w e => hb (Finset.mem_image.mpr ⟨w, Finset.mem_univ _, e⟩)

/-! ## The argument arrays end as launched -/

/-- @main's eleven argument arrays. -/
def args : List (Ref sig .tc) :=
  [main_arg0, main_arg1, main_arg2, main_arg3, main_arg4, main_arg5, main_arg6, main_arg7, main_arg8, main_arg9, main_arg10]

/-- A stretch of host operations none of which writes an argument leaves every argument's buffer as it was. -/
theorem after_keeps (ops : List (HloOp τ sig (Elt F))) (W : Valuation τ sig (Elt F))
    (h : ops.Forall fun op => ∀ r ∈ args, (Proc.devRef .tc r : DevRef τ sig) ∉ op.writes) (r : Ref sig .tc) (hr : r ∈ args) :
    StableHlo.after ops W (Proc.devRef .tc r) = W (Proc.devRef .tc r) :=
  StableHlo.after_of_forall_not_mem ops W fun op hop => (List.forall_iff_forall_mem.mp h) op hop r hr

/-- Each operation of each stretch writes one buffer, and it is no argument (told apart as references). -/
theorem keeps0 : (hostOps0 : List (HloOp τ sig (Elt F))).Forall fun op => ∀ r ∈ args, (Proc.devRef .tc r : DevRef τ sig) ∉ op.writes := by
  simp only [hostOps0, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
theorem keeps0_1 : (hostOps0_1 : List (HloOp τ sig (Elt F))).Forall fun op => ∀ r ∈ args, (Proc.devRef .tc r : DevRef τ sig) ∉ op.writes := by
  simp only [hostOps0_1, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
set_option maxHeartbeats 4000000 in
theorem keeps0_2 : (hostOps0_2 : List (HloOp τ sig (Elt F))).Forall fun op => ∀ r ∈ args, (Proc.devRef .tc r : DevRef τ sig) ∉ op.writes := by
  simp only [hostOps0_2, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
set_option maxHeartbeats 4000000 in
theorem keeps1 : (hostOps1 : List (HloOp τ sig (Elt F))).Forall fun op => ∀ r ∈ args, (Proc.devRef .tc r : DevRef τ sig) ∉ op.writes := by
  simp only [hostOps1, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
set_option maxHeartbeats 4000000 in
theorem keeps2 : (hostOps2 : List (HloOp τ sig (Elt F))).Forall fun op => ∀ r ∈ args, (Proc.devRef .tc r : DevRef τ sig) ∉ op.writes := by
  simp only [hostOps2, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)
theorem keeps3 : (hostOps3 : List (HloOp τ sig (Elt F))).Forall fun op => ∀ r ∈ args, (Proc.devRef .tc r : DevRef τ sig) ∉ op.writes := by
  simp only [hostOps3, List.Forall, StableHlo.nullary_writes, StableHlo.unary_writes, StableHlo.binary_writes, StableHlo.ternary_writes,
    StableHlo.reshape_writes, StableHlo.nary_writes, Finset.mem_singleton]
  intro r hr; refine StableHlo.devRef_ne_of_ne ?_; revert r; decide
theorem keeps4 : (hostOps4 : List (HloOp τ sig (Elt F))).Forall fun op => ∀ r ∈ args, (Proc.devRef .tc r : DevRef τ sig) ∉ op.writes := by
  simp only [hostOps4, List.Forall, StableHlo.nullary_writes, StableHlo.unary_writes, StableHlo.binary_writes, StableHlo.ternary_writes,
    StableHlo.reshape_writes, StableHlo.nary_writes, Finset.mem_singleton]
  repeat' apply And.intro
  all_goals (intro r hr; refine StableHlo.devRef_ne_of_ne ?_; revert r; decide)

/-- A call of which no argument is a window's array keeps every argument's buffer. -/
theorem call0_keeps (c : Dev nD) (r : Ref sig .tc) (hr : r ∈ args) : W4 m ρ c (Proc.devRef .tc r) = W3 m ρ c (Proc.devRef .tc r) :=
  W4_of_ne m ρ c r ((by decide : ∀ r ∈ args, ∀ w, Pipeline.arrRef spec0 w ≠ r) r hr)
theorem call1_keeps (c : Dev nD) (r : Ref sig .tc) (hr : r ∈ args) : W6 m ρ c (Proc.devRef .tc r) = W5 m ρ c (Proc.devRef .tc r) :=
  W6_of_ne m ρ c r ((by decide : ∀ r ∈ args, ∀ w, Pipeline.arrRef spec1 w ≠ r) r hr)
theorem call2_keeps (c : Dev nD) (r : Ref sig .tc) (hr : r ∈ args) : W8 m ρ c (Proc.devRef .tc r) = W7 m ρ c (Proc.devRef .tc r) :=
  W8_of_ne m ρ c r ((by decide : ∀ r ∈ args, ∀ w, Pipeline.arrRef spec2 w ≠ r) r hr)
theorem call5_keeps (c : Dev nD) (r : Ref sig .tc) (hr : r ∈ args) : W13 m ρ c (Proc.devRef .tc r) = W12 m ρ c (Proc.devRef .tc r) :=
  W13_of_ne m ρ c r ((by decide : ∀ r ∈ args, ∀ w, Pipeline.arrRef spec5 w ≠ r) r hr)
/-- The code projection reads its matrix (an argument) through an input window: an input's array is left as entered. -/
theorem call3_keeps (c : Dev nD) (r : Ref sig .tc) (hr : r ∈ args) : W10 m ρ c (Proc.devRef .tc r) = W9 m ρ c (Proc.devRef .tc r) := by
  rcases (by decide : ∀ r ∈ args, r = main_arg8 ∨ ∀ w, Pipeline.arrRef spec3 w ≠ r) r hr with rfl | h
  · exact (W10_arr m ρ c 1).trans (((dat3 (V9 m ρ) c).arrAt_in 1 rfl _).trans (A_eq3 (V9 m ρ) c 1))
  · exact W10_of_ne m ρ c r h
/-- The decoder-side projection likewise. -/
theorem call4_keeps (c : Dev nD) (r : Ref sig .tc) (hr : r ∈ args) : W12 m ρ c (Proc.devRef .tc r) = W11 m ρ c (Proc.devRef .tc r) := by
  rcases (by decide : ∀ r ∈ args, r = main_arg10 ∨ ∀ w, Pipeline.arrRef spec4 w ≠ r) r hr with rfl | h
  · exact (W12_arr m ρ c 1).trans (((dat4 (V11 m ρ) c).arrAt_in 1 rfl _).trans (A_eq4 (V11 m ρ) c 1))
  · exact W12_of_ne m ρ c r h

/-- Walking the fold back at an argument's buffer reaches the launch memory. -/
theorem final_arg (c : Dev nD) (r : Ref sig .tc) (hr : r ∈ args) :
    W13 m ρ c (Proc.devRef .tc r) = m ((c : Thread nD τ).loc r) :=
  calc W13 m ρ c (Proc.devRef .tc r)
    _ = W12 m ρ c (Proc.devRef .tc r) := call5_keeps m ρ c r hr
    _ = W11 m ρ c (Proc.devRef .tc r) := call4_keeps m ρ c r hr
    _ = W10 m ρ c (Proc.devRef .tc r) := after_keeps hostOps4 _ keeps4 r hr
    _ = W9 m ρ c (Proc.devRef .tc r) := call3_keeps m ρ c r hr
    _ = W8 m ρ c (Proc.devRef .tc r) := after_keeps hostOps3 _ keeps3 r hr
    _ = W7 m ρ c (Proc.devRef .tc r) := call2_keeps m ρ c r hr
    _ = W6 m ρ c (Proc.devRef .tc r) := after_keeps hostOps2 _ keeps2 r hr
    _ = W5 m ρ c (Proc.devRef .tc r) := call1_keeps m ρ c r hr
    _ = W4 m ρ c (Proc.devRef .tc r) := after_keeps hostOps1 _ keeps1 r hr
    _ = W3 m ρ c (Proc.devRef .tc r) := call0_keeps m ρ c r hr
    _ = W2 m ρ c (Proc.devRef .tc r) := after_keeps hostOps0_2 _ keeps0_2 r hr
    _ = W1 m ρ c (Proc.devRef .tc r) := after_keeps hostOps0_1 _ keeps0_1 r hr
    _ = W0 m ρ c (Proc.devRef .tc r) := after_keeps hostOps0 _ keeps0 r hr
    _ = m ((c : Thread nD τ).loc r) := rfl

/-! ## The proof data family and the thread state -/

/-- No pipeline has a prefetched table. -/
abbrev adm : (p : Fin 6) → (pcfgs (F := F) p).Adm := fun p => (cfgs p).toPCfg_adm
/-- Every pipeline's proof data, each at its own call's entry contents. -/
def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
  | ⟨4, _⟩ => fun c => dat4 (V11 m ρ) c
  | ⟨5, _⟩ => fun c => dat5 (V12 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem fresh0 : (hostOps0 : List (HloOp τ sig (Elt F))).Forall fun op => op.fresh = ∅ := by
  simp only [hostOps0, List.Forall]; repeat' constructor
theorem fresh0_1 : (hostOps0_1 : List (HloOp τ sig (Elt F))).Forall fun op => op.fresh = ∅ := by
  simp only [hostOps0_1, List.Forall]; repeat' constructor
set_option maxHeartbeats 4000000 in
theorem fresh0_2 : (hostOps0_2 : List (HloOp τ sig (Elt F))).Forall fun op => op.fresh = ∅ := by
  simp only [hostOps0_2, List.Forall]; repeat' constructor
set_option maxHeartbeats 4000000 in
theorem fresh1 : (hostOps1 : List (HloOp τ sig (Elt F))).Forall fun op => op.fresh = ∅ := by
  simp only [hostOps1, List.Forall]; repeat' constructor
set_option maxHeartbeats 4000000 in
theorem fresh2 : (hostOps2 : List (HloOp τ sig (Elt F))).Forall fun op => op.fresh = ∅ := by
  simp only [hostOps2, List.Forall]; repeat' constructor
theorem fresh3 : (hostOps3 : List (HloOp τ sig (Elt F))).Forall fun op => op.fresh = ∅ := by
  simp only [hostOps3, List.Forall]; repeat' constructor
theorem fresh4 : (hostOps4 : List (HloOp τ sig (Elt F))).Forall fun op => op.fresh = ∅ := by
  simp only [hostOps4, List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W13 m ρ c) ∗ ∃ r, prngReg c r)

/-! ## The calls as segments -/

set_option backward.isDefEq.respectTransparency.types false in
/-- The first layer's call over the thread state: entered from every unscoped buffer at `W3`, left at `W4`. Its arrays are split out of the unscoped buffers and put back at the exit contents; the generator register goes into the class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second layer's call: entered at `W5`, left at `W6`; otherwise as the first. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third layer's call: entered at `W7`, left at `W8`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The code projection's call: entered at `W9`, left at `W10`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder-side projection's call: entered at `W11`, left at `W12`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The bilinear decode's call: entered at `W12` (nothing stands between it and the call before), left at `W13`, the contents @main returns with. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V12 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V12 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V12 m ρ c) (V13 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's thirteen segments in order. -/
abbrev segs : List (Pipeline.Seg (pcfgs (F := F)) adm (pdats m ρ) () defs₀ 𝒱₀ L lv) :=
  [ .host (hseg hostOps0 hostOps0_sub fresh0 (W0 m ρ)),
    .host (hseg hostOps0_1 hostOps0_1_sub fresh0_1 (W1 m ρ)),
    .host (hseg hostOps0_2 hostOps0_2_sub fresh0_2 (W2 m ρ)),
    .region (reg0 m ρ),
    .host (hseg hostOps1 hostOps1_sub fresh1 (W4 m ρ)),
    .region (reg1 m ρ),
    .host (hseg hostOps2 hostOps2_sub fresh2 (W6 m ρ)),
    .region (reg2 m ρ),
    .host (hseg hostOps3 hostOps3_sub fresh3 (W8 m ρ)),
    .region (reg3 m ρ),
    .host (hseg hostOps4 hostOps4_sub fresh4 (W10 m ρ)),
    .region (reg4 m ρ),
    .region (reg5 m ρ) ]

set_option maxHeartbeats 4000000 in
/-- @main IS the run of the segments: it is the chain of its items, and the segments' run is that chain. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has every unscoped buffer at the last boundary's contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- An argument array is an unscoped buffer of the TensorCore. -/
theorem arg_mem_uc (r : Ref sig .tc) (hr : r ∈ args) : Proc.devRef .tc r ∈ Pipeline.ucRefs τ sig :=
  mem_uc r ((by decide : ∀ r ∈ args, ¬ (Proc.devRef .tc r : DevRef τ sig).isScoped) r hr)

/-- What a final state of the run says of an argument: it is as launched. -/
theorem arg_kept {s : MemSt nD τ sig (Elt F)} (h : ∀ c : Dev nD, ∀ b ∈ Pipeline.ucRefs τ sig, s.mem (((c : Thread nD τ)).1, b) = W13 m ρ c b)
    (c : Dev nD) (r : Ref sig .tc) (hr : r ∈ args) : s.mem ((c.tc : Thread nD τ).loc r) = m ((c.tc : Thread nD τ).loc r) :=
  (h c _ (arg_mem_uc r hr)).trans (final_arg m ρ c r hr)

/-- THE FRAME: every weakly fair execution terminates, nothing faults, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨arg_kept m ρ h c main_arg0 (by decide), arg_kept m ρ h c main_arg1 (by decide), arg_kept m ρ h c main_arg2 (by decide),
     arg_kept m ρ h c main_arg3 (by decide), arg_kept m ρ h c main_arg4 (by decide), arg_kept m ρ h c main_arg5 (by decide),
     arg_kept m ρ h c main_arg6 (by decide), arg_kept m ρ h c main_arg7 (by decide), arg_kept m ρ h c main_arg8 (by decide),
     arg_kept m ρ h c main_arg9 (by decide), arg_kept m ρ h c main_arg10 (by decide)⟩) (run_all m ρ)

end Cert.KernelIdeal.Rn

end
-- ==== Proof.RefImports.lean ====
/- The reference program's operation list and its read-at-an-index lemmas, gathered for the modules that compare the two programs. -/
import proofs.«106689_j32762010534267_1_alg».proof.Proof.RefRunP
import proofs.«106689_j32762010534267_1_alg».proof.Proof.RefReadP
-- ==== Proof.RefStaged.lean ====
/-
  The reference program's run, read one stretch at a time.

  @main is 254 host operations in five consecutive stretches: the edge endpoints and the edge normaliser; the three
  layers; the head.  The buffers' contents after a list of operations are a fold (`StableHlo.after`), and the fold of a
  concatenation is the folds composed.  Each stretch is read against the contents `W` it starts from: given that `W`
  holds the arguments and the earlier stretches' results — the source and destination of each edge, the per-edge
  weight, the previous layer's output —, the stretch's own result is the reference's stage of the same name
  (`ReadP.val_main_vN`, the reference one operation at a time), and what the later stretches still read is kept.
-/
import proofs.«106689_j32762010534267_1_alg».proof.Proof.RefImports
import proofs.«106689_j32762010534267_1_alg».proof.Proof.RefChunks

set_option maxRecDepth 16384

noncomputable section

namespace Cert.RefStaged

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The fold of a concatenation is the folds composed. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## The first stretch: the edges' endpoints and the per-edge weight -/

set_option maxHeartbeats 4000000 in
/-- Each edge's source node. -/
theorem src_eq (W : Valuation τ sig (Elt F)) :
    after opsA W (Proc.devRef .tc main_v1) = val_main_v1 (F := F) (W (Proc.devRef .tc main_arg1)) := by
  after_results_simp <;> rfl
set_option maxHeartbeats 4000000 in
/-- Each edge's destination node. -/
theorem dst_eq (W : Valuation τ sig (Elt F)) :
    after opsA W (Proc.devRef .tc main_v3) = val_main_v3 (F := F) (W (Proc.devRef .tc main_arg1)) := by
  after_results_simp <;> rfl
set_option maxHeartbeats 4000000 in
/-- Each edge's weight: the product of its two endpoints' degree normalisers. -/
theorem norm_eq (W : Valuation τ sig (Elt F)) :
    after opsA W (Proc.devRef .tc main_v28) = val_main_v28 (F := F) (W (Proc.devRef .tc main_arg1)) := by
  after_results_simp <;> rfl
set_option maxHeartbeats 4000000 in
/-- The first stretch writes no argument. -/
theorem keepA_arg0 (W : Valuation τ sig (Elt F)) : after opsA W (Proc.devRef .tc main_arg0) = W (Proc.devRef .tc main_arg0) := by
  after_results_simp <;> rfl

/-! ## No stretch writes an argument -/

/-- @main's eleven argument arrays. -/
def rargs : List (Ref sig .tc) :=
  [main_arg0, main_arg1, main_arg2, main_arg3, main_arg4, main_arg5, main_arg6, main_arg7, main_arg8, main_arg9, main_arg10]

/-- A list of operations none of which writes an argument leaves every argument's buffer as it was. -/
theorem after_keeps (l : List (HloOp τ sig (Elt F))) (W : Valuation τ sig (Elt F))
    (h : l.Forall fun op => ∀ r ∈ rargs, (Proc.devRef .tc r : DevRef τ sig) ∉ op.writes) (r : Ref sig .tc) (hr : r ∈ rargs) :
    after l W (Proc.devRef .tc r) = W (Proc.devRef .tc r) :=
  after_of_forall_not_mem l W fun op hop => (List.forall_iff_forall_mem.mp h) op hop r hr

set_option maxHeartbeats 4000000 in
theorem keepsA : (opsA : List (HloOp τ sig (Elt F))).Forall fun op => ∀ r ∈ rargs, (Proc.devRef .tc r : DevRef τ sig) ∉ op.writes := by
  simp only [opsA, List.Forall, nullary_writes, unary_writes, binary_writes, ternary_writes, reshape_writes, nary_writes, Finset.mem_singleton]
  repeat' apply And.intro
  all_goals (intro r hr; refine devRef_ne_of_ne ?_; revert r; decide)
set_option maxHeartbeats 4000000 in
theorem keepsB : (opsB : List (HloOp τ sig (Elt F))).Forall fun op => ∀ r ∈ rargs, (Proc.devRef .tc r : DevRef τ sig) ∉ op.writes := by
  simp only [opsB, List.Forall, nullary_writes, unary_writes, binary_writes, ternary_writes, reshape_writes, nary_writes, Finset.mem_singleton]
  repeat' apply And.intro
  all_goals (intro r hr; refine devRef_ne_of_ne ?_; revert r; decide)
set_option maxHeartbeats 4000000 in
theorem keepsC : (opsC : List (HloOp τ sig (Elt F))).Forall fun op => ∀ r ∈ rargs, (Proc.devRef .tc r : DevRef τ sig) ∉ op.writes := by
  simp only [opsC, List.Forall, nullary_writes, unary_writes, binary_writes, ternary_writes, reshape_writes, nary_writes, Finset.mem_singleton]
  repeat' apply And.intro
  all_goals (intro r hr; refine devRef_ne_of_ne ?_; revert r; decide)
set_option maxHeartbeats 4000000 in
theorem keepsD : (opsD : List (HloOp τ sig (Elt F))).Forall fun op => ∀ r ∈ rargs, (Proc.devRef .tc r : DevRef τ sig) ∉ op.writes := by
  simp only [opsD, List.Forall, nullary_writes, unary_writes, binary_writes, ternary_writes, reshape_writes, nary_writes, Finset.mem_singleton]
  repeat' apply And.intro
  all_goals (intro r hr; refine devRef_ne_of_ne ?_; revert r; decide)
set_option maxHeartbeats 4000000 in
theorem keepsE : (opsE : List (HloOp τ sig (Elt F))).Forall fun op => ∀ r ∈ rargs, (Proc.devRef .tc r : DevRef τ sig) ∉ op.writes := by
  simp only [opsE, List.Forall, nullary_writes, unary_writes, binary_writes, ternary_writes, reshape_writes, nary_writes, Finset.mem_singleton]
  repeat' apply And.intro
  all_goals (intro r hr; refine devRef_ne_of_ne ?_; revert r; decide)

/-! ## The layers' stretches keep the edges' endpoints and weights -/

set_option maxHeartbeats 4000000 in
theorem keepB_src (W : Valuation τ sig (Elt F)) : after opsB W (Proc.devRef .tc main_v1) = W (Proc.devRef .tc main_v1) := by
  after_results_simp <;> rfl
set_option maxHeartbeats 4000000 in
theorem keepB_dst (W : Valuation τ sig (Elt F)) : after opsB W (Proc.devRef .tc main_v3) = W (Proc.devRef .tc main_v3) := by
  after_results_simp <;> rfl
set_option maxHeartbeats 4000000 in
theorem keepB_norm (W : Valuation τ sig (Elt F)) : after opsB W (Proc.devRef .tc main_v28) = W (Proc.devRef .tc main_v28) := by
  after_results_simp <;> rfl
set_option maxHeartbeats 4000000 in
theorem keepC_src (W : Valuation τ sig (Elt F)) : after opsC W (Proc.devRef .tc main_v1) = W (Proc.devRef .tc main_v1) := by
  after_results_simp <;> rfl
set_option maxHeartbeats 4000000 in
theorem keepC_dst (W : Valuation τ sig (Elt F)) : after opsC W (Proc.devRef .tc main_v3) = W (Proc.devRef .tc main_v3) := by
  after_results_simp <;> rfl
set_option maxHeartbeats 4000000 in
theorem keepC_norm (W : Valuation τ sig (Elt F)) : after opsC W (Proc.devRef .tc main_v28) = W (Proc.devRef .tc main_v28) := by
  after_results_simp <;> rfl

/-! ## Each layer's stretch, and the head -/

set_option maxHeartbeats 16000000 in
/-- The first layer: from contents holding the features, the layer's weights and bias, and the edges' endpoints and
    weights, the stretch's result is the reference's first-layer stage. -/
theorem layer1_eq (W : Valuation τ sig (Elt F)) (x0 : (⟨S10000x256, .f32⟩ : BufTy).Contents (Elt F)) (x1 : (⟨S2x320000, .i32⟩ : BufTy).Contents (Elt F))
    (x2 : (⟨S4x256x128, .f32⟩ : BufTy).Contents (Elt F)) (x3 : (⟨S128, .f32⟩ : BufTy).Contents (Elt F))
    (h0 : W (Proc.devRef .tc main_arg0) = x0) (h2 : W (Proc.devRef .tc main_arg2) = x2) (h3 : W (Proc.devRef .tc main_arg3) = x3)
    (hs : W (Proc.devRef .tc main_v1) = val_main_v1 (F := F) x1) (hd : W (Proc.devRef .tc main_v3) = val_main_v3 (F := F) x1)
    (hn : W (Proc.devRef .tc main_v28) = val_main_v28 (F := F) x1) :
    after opsB W (Proc.devRef .tc main_v86) = val_main_v86 (F := F) x0 x1 x2 x3 := by
  subst h0 h2 h3
  after_results_simp <;> (try simp only [hs, hd, hn]) <;> rfl

set_option maxHeartbeats 16000000 in
/-- The second layer. -/
theorem layer2_eq (W : Valuation τ sig (Elt F)) (x0 : (⟨S10000x256, .f32⟩ : BufTy).Contents (Elt F)) (x1 : (⟨S2x320000, .i32⟩ : BufTy).Contents (Elt F))
    (x2 : (⟨S4x256x128, .f32⟩ : BufTy).Contents (Elt F)) (x3 : (⟨S128, .f32⟩ : BufTy).Contents (Elt F))
    (x4 : (⟨S4x128x128, .f32⟩ : BufTy).Contents (Elt F)) (x5 : (⟨S128, .f32⟩ : BufTy).Contents (Elt F))
    (h4 : W (Proc.devRef .tc main_arg4) = x4) (h5 : W (Proc.devRef .tc main_arg5) = x5)
    (hh : W (Proc.devRef .tc main_v86) = val_main_v86 (F := F) x0 x1 x2 x3)
    (hs : W (Proc.devRef .tc main_v1) = val_main_v1 (F := F) x1) (hd : W (Proc.devRef .tc main_v3) = val_main_v3 (F := F) x1)
    (hn : W (Proc.devRef .tc main_v28) = val_main_v28 (F := F) x1) :
    after opsC W (Proc.devRef .tc main_v144) = val_main_v144 (F := F) x0 x1 x2 x3 x4 x5 := by
  subst h4 h5
  after_results_simp <;> (try simp only [hh, hs, hd, hn]) <;> rfl

set_option maxHeartbeats 16000000 in
/-- The third layer. -/
theorem layer3_eq (W : Valuation τ sig (Elt F)) (x0 : (⟨S10000x256, .f32⟩ : BufTy).Contents (Elt F)) (x1 : (⟨S2x320000, .i32⟩ : BufTy).Contents (Elt F))
    (x2 : (⟨S4x256x128, .f32⟩ : BufTy).Contents (Elt F)) (x3 : (⟨S128, .f32⟩ : BufTy).Contents (Elt F))
    (x4 : (⟨S4x128x128, .f32⟩ : BufTy).Contents (Elt F)) (x5 : (⟨S128, .f32⟩ : BufTy).Contents (Elt F))
    (x6 : (⟨S4x128x64, .f32⟩ : BufTy).Contents (Elt F)) (x7 : (⟨S64, .f32⟩ : BufTy).Contents (Elt F))
    (h6 : W (Proc.devRef .tc main_arg6) = x6) (h7 : W (Proc.devRef .tc main_arg7) = x7)
    (hh : W (Proc.devRef .tc main_v144) = val_main_v144 (F := F) x0 x1 x2 x3 x4 x5)
    (hs : W (Proc.devRef .tc main_v1) = val_main_v1 (F := F) x1) (hd : W (Proc.devRef .tc main_v3) = val_main_v3 (F := F) x1)
    (hn : W (Proc.devRef .tc main_v28) = val_main_v28 (F := F) x1) :
    after opsD W (Proc.devRef .tc main_v202) = val_main_v202 (F := F) x0 x1 x2 x3 x4 x5 x6 x7 := by
  subst h6 h7
  after_results_simp <;> (try simp only [hh, hs, hd, hn]) <;> rfl

set_option maxHeartbeats 16000000 in
/-- The head: the two projections and the bilinear decode. -/
theorem head_eq (W : Valuation τ sig (Elt F)) (x0 : (⟨S10000x256, .f32⟩ : BufTy).Contents (Elt F)) (x1 : (⟨S2x320000, .i32⟩ : BufTy).Contents (Elt F))
    (x2 : (⟨S4x256x128, .f32⟩ : BufTy).Contents (Elt F)) (x3 : (⟨S128, .f32⟩ : BufTy).Contents (Elt F))
    (x4 : (⟨S4x128x128, .f32⟩ : BufTy).Contents (Elt F)) (x5 : (⟨S128, .f32⟩ : BufTy).Contents (Elt F))
    (x6 : (⟨S4x128x64, .f32⟩ : BufTy).Contents (Elt F)) (x7 : (⟨S64, .f32⟩ : BufTy).Contents (Elt F))
    (x8 : (⟨S64x64, .f32⟩ : BufTy).Contents (Elt F)) (x9 : (⟨S64, .f32⟩ : BufTy).Contents (Elt F)) (x10 : (⟨S64x64, .f32⟩ : BufTy).Contents (Elt F))
    (h8 : W (Proc.devRef .tc main_arg8) = x8) (h9 : W (Proc.devRef .tc main_arg9) = x9) (h10 : W (Proc.devRef .tc main_arg10) = x10)
    (hh : W (Proc.devRef .tc main_v202) = val_main_v202 (F := F) x0 x1 x2 x3 x4 x5 x6 x7) :
    after opsE W (Proc.devRef .tc main_v209) = val_main_v209 (F := F) x0 x1 x2 x3 x4 x5 x6 x7 x8 x9 x10 := by
  subst h8 h9 h10
  after_results_simp <;> (try simp only [hh]) <;> rfl

/-! ## The stretches composed, and the run -/

/-- After all of @main's operations, from any contents `V`, the result buffer holds the reference's last stage of the
    arguments as `V` holds them. -/
theorem result_eq (V : Valuation τ sig (Elt F)) :
    after ops V (Proc.devRef .tc main_v209) = val_main_v209 (F := F) (V (Proc.devRef .tc main_arg0)) (V (Proc.devRef .tc main_arg1))
      (V (Proc.devRef .tc main_arg2)) (V (Proc.devRef .tc main_arg3)) (V (Proc.devRef .tc main_arg4)) (V (Proc.devRef .tc main_arg5))
      (V (Proc.devRef .tc main_arg6)) (V (Proc.devRef .tc main_arg7)) (V (Proc.devRef .tc main_arg8)) (V (Proc.devRef .tc main_arg9))
      (V (Proc.devRef .tc main_arg10)) := by
  rw [ops_eq, after_append, after_append, after_append, after_append]
  have kA := fun r hr => after_keeps opsA V keepsA r hr
  have kB := fun r hr => (after_keeps opsB (after opsA V) keepsB r hr).trans (kA r hr)
  have kC := fun r hr => (after_keeps opsC (after opsB (after opsA V)) keepsC r hr).trans (kB r hr)
  have kD := fun r hr => (after_keeps opsD (after opsC (after opsB (after opsA V))) keepsD r hr).trans (kC r hr)
  have sA := src_eq V
  have dA := dst_eq V
  have nA := norm_eq V
  have l1 := layer1_eq (after opsA V) _ _ _ _ (kA main_arg0 (by decide)) (kA main_arg2 (by decide)) (kA main_arg3 (by decide)) sA dA nA
  have sB := (keepB_src (after opsA V)).trans sA
  have dB := (keepB_dst (after opsA V)).trans dA
  have nB := (keepB_norm (after opsA V)).trans nA
  have l2 := layer2_eq (after opsB (after opsA V)) _ _ _ _ _ _ (kB main_arg4 (by decide)) (kB main_arg5 (by decide)) l1 sB dB nB
  have sC := (keepC_src (after opsB (after opsA V))).trans sB
  have dC := (keepC_dst (after opsB (after opsA V))).trans dB
  have nC := (keepC_norm (after opsB (after opsA V))).trans nB
  have l3 := layer3_eq (after opsC (after opsB (after opsA V))) _ _ _ _ _ _ _ _ (kC main_arg6 (by decide)) (kC main_arg7 (by decide)) l2 sC dC nC
  exact head_eq (after opsD (after opsC (after opsB (after opsA V)))) _ _ _ _ _ _ _ _ _ _ _
    (kD main_arg8 (by decide)) (kD main_arg9 (by decide)) (kD main_arg10 (by decide)) l3

/-- After all of @main's operations every argument's buffer is as it was. -/
theorem arg_eq (V : Valuation τ sig (Elt F)) (r : Ref sig .tc) (hr : r ∈ rargs) :
    after ops V (Proc.devRef .tc r) = V (Proc.devRef .tc r) := by
  rw [ops_eq, after_append, after_append, after_append, after_append]
  exact (after_keeps opsE _ keepsE r hr).trans ((after_keeps opsD _ keepsD r hr).trans ((after_keeps opsC _ keepsC r hr).trans
    ((after_keeps opsB _ keepsB r hr).trans (after_keeps opsA V keepsA r hr))))

/-- THE REFERENCE'S RUN: from any memory with zero counters every weakly fair execution of @main terminates, nothing
    faulting, with the result at the reference's last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v209) = val_main_v209 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v209).trans (result_eq _), (h c main_arg0).trans (arg_eq _ _ (by decide)), (h c main_arg1).trans (arg_eq _ _ (by decide)),
     (h c main_arg2).trans (arg_eq _ _ (by decide)), (h c main_arg3).trans (arg_eq _ _ (by decide)), (h c main_arg4).trans (arg_eq _ _ (by decide)),
     (h c main_arg5).trans (arg_eq _ _ (by decide)), (h c main_arg6).trans (arg_eq _ _ (by decide)), (h c main_arg7).trans (arg_eq _ _ (by decide)),
     (h c main_arg8).trans (arg_eq _ _ (by decide)), (h c main_arg9).trans (arg_eq _ _ (by decide)), (h c main_arg10).trans (arg_eq _ _ (by decide))⟩)
    (run_seq scopedRefs_eq scopedSems_eq defs main (fun _ => ops) main_eq (fun _ => ops_sub) m ρ)

end Cert.RefStaged

end
-- ==== Proof.DenseSpec.lean ====
/-
  The dense steps of the network, entry by entry over the extended reals.

  Every dense step is one of three shapes.  `affine x w b` is the matrix product of `x` (one row per node) with a
  weight matrix `w`, plus a bias row `b` repeated down the rows: entry `(i, j)` is the sum over the contracted axis
  `l` of `x[i, l] * w[l, j]`, plus `b[0, j]`.  `affineRelu` is the same entry clipped below at zero.  `gram a z` is the
  product of `a` with the transpose of `z`: entry `(i, j)` is the sum over `l` of `a[i, l] * z[j, l]`.

  Nothing here mentions a program: both programs' dense steps are shown equal to these functions of their operands,
  whatever tiling or grouping of the sum they use.
-/
import Idealize.ShloMosaic.PureOps.Ideal
import Idealize.ShloMosaic.Lib.ValueIdx

noncomputable section

namespace Cert.Dense

open Idealize.ShloMosaic Idealize.ShloMosaic.ValueIdx

/-- An array of extended reals over two axes of extents `a` and `b`. -/
abbrev Arr (a b : ℕ) : Type := (⟨2, ![a, b]⟩ : Shape).Idx → EReal

/-- The zero every clipped step compares with: the float word of all zero bits, read as an extended real. -/
abbrev zeroWord : EReal := Ideal.ofBits .f32 0x00000000#32

/-- `x · w + b`: entry `(i, j)` is `∑ l, x[i, l] * w[l, j]`, plus the bias row's entry `b[0, j]`. -/
def affine {n k c : ℕ} (x : Arr n k) (w : Arr k c) (b : Arr 1 c) : Arr n c :=
  fun i => (∑ l : Fin k, x (ix2 (i 0 : Fin n) l) * w (ix2 l (i 1 : Fin c))) + b (ix2 (0 : Fin 1) (i 1 : Fin c))

/-- `max (x · w + b) 0`, entry by entry. -/
def affineRelu {n k c : ℕ} (x : Arr n k) (w : Arr k c) (b : Arr 1 c) : Arr n c :=
  fun i => max (affine x w b i) zeroWord

/-- `a · zᵀ`: entry `(i, j)` is `∑ l, a[i, l] * z[j, l]`. -/
def gram {n k : ℕ} (a z : Arr n k) : Arr n n :=
  fun i => ∑ l : Fin k, a (ix2 (i 0 : Fin n) l) * z (ix2 (i 1 : Fin n) l)

theorem affine_apply {n k c : ℕ} (x : Arr n k) (w : Arr k c) (b : Arr 1 c) (p : Fin n) (q : Fin c) :
    affine x w b (ix2 p q) = (∑ l : Fin k, x (ix2 p l) * w (ix2 l q)) + b (ix2 (0 : Fin 1) q) := rfl

theorem affineRelu_apply {n k c : ℕ} (x : Arr n k) (w : Arr k c) (b : Arr 1 c) (p : Fin n) (q : Fin c) :
    affineRelu x w b (ix2 p q) = max ((∑ l : Fin k, x (ix2 p l) * w (ix2 l q)) + b (ix2 (0 : Fin 1) q)) zeroWord := rfl

theorem gram_apply {n k : ℕ} (a z : Arr n k) (p q : Fin n) :
    gram a z (ix2 p q) = ∑ l : Fin k, a (ix2 p l) * z (ix2 q l) := rfl

end Cert.Dense

end
-- ==== Proof.KVal0.lean ====
/-
  The first dense layer, as one function of its three input arrays.

  Its ten grid points each take a thousand rows of the 1024-column feature array, multiply them by the whole
  1024 × 128 weight matrix, add the bias row and clip below at zero; point `t` writes rows `1000 t … 1000 t + 999` of
  the output array.  Read at an entry, the body's value is the larger of zero and the sum over the contracted axis of
  the feature row times the weight column plus the bias entry: the product runs into a zero accumulator, so it is the
  plain sum.  A block of an input at point `t` is the array read at block index × block size + the coordinate inside the
  block; the feature rows' block index is `t`, the weights' and the bias row's is zero.  So every point writes its rows
  of ONE function of the three arrays, `Dense.affineRelu`, and the ten blocks cover the output array (row `r` is in
  the block of point `r / 1000`): after the step the array is `Dense.affineRelu` of the feature array, the weights
  and the bias row.
-/
import proofs.«106689_j32762010534267_1_alg».proof.Proof.KReg0
import proofs.«106689_j32762010534267_1_alg».proof.Proof.DenseSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RgVal

open Cert.KernelIdeal Cert.KernelIdeal.Gen
open Idealize.ShloMosaic Idealize.ShloMosaic.TcCoe Idealize.ShloMosaic.ValueIdx
open Idealize.ShloMosaic.Pipeline (Dat)

/-! ## The body's value at an entry of its block -/

theorem mm0_lhs0 (i : S1000x128.Idx) (k : dot_S1000x1024_S1024x128_S1000x128_1_0_0_1_n_n.contr.Idx) :
    (dot_S1000x1024_S1024x128_S1000x128_1_0_0_1_n_n.lhsIdx i k 0).val = (i 0).val := by
  unfold DotDims.lhsIdx
  rw [dif_neg (show ¬(0 : Fin S1000x1024.rank) ∈ dot_S1000x1024_S1024x128_S1000x128_1_0_0_1_n_n.lhsBatch by decide), dif_pos (show (0 : Fin S1000x1024.rank) ∈ dot_S1000x1024_S1024x128_S1000x128_1_0_0_1_n_n.lhsNonContracting by decide)]
  rfl

theorem mm0_rhs1 (i : S1000x128.Idx) (k : dot_S1000x1024_S1024x128_S1000x128_1_0_0_1_n_n.contr.Idx) :
    (dot_S1000x1024_S1024x128_S1000x128_1_0_0_1_n_n.rhsIdx i k 1).val = (i 1).val := by
  unfold DotDims.rhsIdx
  rw [dif_neg (show ¬(1 : Fin S1024x128.rank) ∈ dot_S1000x1024_S1024x128_S1000x128_1_0_0_1_n_n.rhsBatch by decide), dif_pos (show (1 : Fin S1024x128.rank) ∈ dot_S1000x1024_S1024x128_S1000x128_1_0_0_1_n_n.rhsNonContracting by decide)]
  rfl

/-- A thousand rows against the 1024 × 128 weights, into a zero accumulator: entry `(p, q)` is the sum over the
    contracted axis of row `p` times column `q`. -/
theorem mm0_apply (l : FVec Ideal S1000x1024 .f32) (r : FVec Ideal S1024x128 .f32) (p : Fin 1000) (q : Fin 128) :
    matmul dot_S1000x1024_S1024x128_S1000x128_1_0_0_1_n_n none l r (constant S1000x128 .f32 0x00000000#32) (ix2 p q)
      = ∑ k : Fin 1024, l (ix2 p k) * r (ix2 k q) := by
  simp only [matmul]
  rw [Ideal.matmul_constant_zero_apply, ← Equiv.sum_comp (ValueIdx.contrEquiv1 dot_S1000x1024_S1024x128_S1000x128_1_0_0_1_n_n 1024 rfl rfl).symm]
  refine Finset.sum_congr rfl fun k _ => ?_
  have hk := ValueIdx.contrEquiv1_symm_val dot_S1000x1024_S1024x128_S1000x128_1_0_0_1_n_n 1024 rfl rfl k
  have el : dot_S1000x1024_S1024x128_S1000x128_1_0_0_1_n_n.lhsIdx (ix2 p q) ((ValueIdx.contrEquiv1 dot_S1000x1024_S1024x128_S1000x128_1_0_0_1_n_n 1024 rfl rfl).symm k) = ix2 p k := funext fun a => Fin.ext (by
    match a with
    | ⟨0, _⟩ => exact mm0_lhs0 _ _
    | ⟨1, _⟩ => exact (dot_S1000x1024_S1024x128_S1000x128_1_0_0_1_n_n.lhsIdx_val_of_single rfl _ _).trans hk)
  have er : dot_S1000x1024_S1024x128_S1000x128_1_0_0_1_n_n.rhsIdx (ix2 p q) ((ValueIdx.contrEquiv1 dot_S1000x1024_S1024x128_S1000x128_1_0_0_1_n_n 1024 rfl rfl).symm k) = ix2 k q := funext fun a => Fin.ext (by
    match a with
    | ⟨0, _⟩ => exact (dot_S1000x1024_S1024x128_S1000x128_1_0_0_1_n_n.rhsIdx_val_of_single rfl _ _).trans hk
    | ⟨1, _⟩ => exact mm0_rhs1 _ _)
  rw [el, er]

/-- The bias row repeated down the thousand rows: entry `(p, q)` is the row's entry `q`. -/
theorem bias0_apply (b : FVec Ideal S1x128 .f32) (p : Fin 1000) (q : Fin 128) :
    broadcastTo S1000x128 b broadcasts_S1x128_S1000x128 (ix2 p q) = b (ix2 (0 : Fin 1) q) :=
  broadcastTo_apply b broadcasts_S1x128_S1000x128 (ix2 p q) (ix2 (0 : Fin 1) q) (fun a => by
    match a with
    | ⟨0, _⟩ => rfl
    | ⟨1, _⟩ => rfl)

/-- The body's value at entry `(p, q)` of its block: row `p` of the feature block against column `q` of the weights,
    plus the bias row's entry `q`, clipped below at zero. -/
theorem pay0_apply (v0 : Vec Ideal S1000x1024 .f32) (v2 : Vec Ideal S1024x128 .f32) (v5 : Vec Ideal S1x128 .f32) (p : Fin 1000) (q : Fin 128) :
    k0_pay1 (F := Ideal) v0 v2 v5 (ix2 p q)
      = max ((∑ l : Fin 1024, v0 (ix2 p l) * v2 (ix2 l q)) + v5 (ix2 (0 : Fin 1) q)) Dense.zeroWord := by
  unfold k0_pay1
  simp only [shapeCast_self]
  refine (maximumf_apply _ _ _).trans ?_
  refine congrArg₂ max ((addf_apply _ _ _).trans ?_) rfl
  rw [mm0_apply, bias0_apply]

/-! ## From the blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The block indices over the ten points: the feature rows and the output rows move together, block `t` at point `t`;
    the weights and the bias row stay at block zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, l)` of the feature block at point `t` is entry `(1000 t + p, l)` of the feature array. -/
theorem read0_0 (c : Dev nD) (t : Fin cfg0.N) (p : Fin 1000) (l : Fin 1024) (i : S10000x1024.Idx)
    (h0 : (i 0).val = 1000 * t.val + p.val) (h1 : (i 1).val = l.val) :
    Rg.iblk0 V c 0 t (ix2 p l) = V c (Pipeline.arrRef spec0 0) i := by
  obtain ⟨e0, e1, -⟩ := idx0 t
  unfold Rg.iblk0
  rw [View.read_apply]
  refine congrArg (V c (Pipeline.arrRef spec0 0)) (funext fun a => Fin.ext ?_)
  match a with
  | ⟨0, _⟩ => show win0_0.index t (0 : Fin 2) * 1000 + 1 * p.val = (i 0).val; omega
  | ⟨1, _⟩ => show win0_0.index t (1 : Fin 2) * 1024 + 1 * l.val = (i 1).val; omega

/-- The weights' block at every point is the weight matrix. -/
theorem read0_1 (c : Dev nD) (t : Fin cfg0.N) (l : Fin 1024) (q : Fin 128) (i : S1024x128.Idx)
    (h0 : (i 0).val = l.val) (h1 : (i 1).val = q.val) :
    Rg.iblk0 V c 1 t (ix2 l q) = V c (Pipeline.arrRef spec0 1) i := by
  obtain ⟨-, -, e2, e3, -⟩ := idx0 t
  unfold Rg.iblk0
  rw [View.read_apply]
  refine congrArg (V c (Pipeline.arrRef spec0 1)) (funext fun a => Fin.ext ?_)
  match a with
  | ⟨0, _⟩ => show win0_1.index t (0 : Fin 2) * 1024 + 1 * l.val = (i 0).val; omega
  | ⟨1, _⟩ => show win0_1.index t (1 : Fin 2) * 128 + 1 * q.val = (i 1).val; omega

/-- The bias row's block at every point is the bias row. -/
theorem read0_2 (c : Dev nD) (t : Fin cfg0.N) (q : Fin 128) (i : S1x128.Idx)
    (h0 : (i 0).val = 0) (h1 : (i 1).val = q.val) :
    Rg.iblk0 V c 2 t (ix2 (0 : Fin 1) q) = V c (Pipeline.arrRef spec0 2) i := by
  obtain ⟨-, -, -, -, e4, e5, -⟩ := idx0 t
  unfold Rg.iblk0
  rw [View.read_apply]
  refine congrArg (V c (Pipeline.arrRef spec0 2)) (funext fun a => Fin.ext ?_)
  match a with
  | ⟨0, _⟩ => show win0_2.index t (0 : Fin 2) * 1 + 1 * (0 : Fin 1).val = (i 0).val; rw [h0, e4]; rfl
  | ⟨1, _⟩ => show win0_2.index t (1 : Fin 2) * 128 + 1 * q.val = (i 1).val; omega

/-- The layer on the whole feature array: every row against the weights, plus the bias row, clipped below at zero. -/
abbrev whole0 (c : Dev nD) : S10000x128.Idx → EReal :=
  Dense.affineRelu (V c (Pipeline.arrRef spec0 0)) (V c (Pipeline.arrRef spec0 1)) (V c (Pipeline.arrRef spec0 2))

/-- What point `t` writes back is rows `1000 t … 1000 t + 999` of the layer on the whole array. -/
theorem flushed0_eq (c : Dev nD) (t : Fin cfg0.N) :
    (Rg.dat0 (F := Ideal) V c).flushed 3 t = ((cfg0.win 3).blk t).view.read (Elt Ideal) (whole0 V c) := by
  show (cfg0.win 3).cut (grid0.coords t) ((Rg.dat0 (F := Ideal) V c).after 3 t) = _
  rw [Rg.after0_3]
  unfold Rg.out0_3
  rw [View.canon_unit_zero hz0]
  simp only [View.ld_unit_zero (S := S1000x1024) hz0, View.ld_unit_zero (S := S1024x128) hz0, View.ld_unit_zero (S := S1x128) hz0]
  obtain ⟨-, -, -, -, -, -, e6, e7⟩ := idx0 t
  funext j
  obtain ⟨p, q, rfl⟩ : ∃ (p : Fin 1000) (q : Fin 128), j = ix2 p q := ⟨j 0, j 1, eq_ix2 j⟩
  rw [View.read_apply]
  have hi0 : ((((cfg0.win 3).blk t).view.emb (ix2 p q)) 0).val = win0_3.index t (0 : Fin 2) * 1000 + 1 * p.val := rfl
  have hi1 : ((((cfg0.win 3).blk t).view.emb (ix2 p q)) 1).val = win0_3.index t (1 : Fin 2) * 128 + 1 * q.val := rfl
  refine (pay0_apply (Rg.iblk0 V c 0 t) (Rg.iblk0 V c 1 t) (Rg.iblk0 V c 2 t) p q).trans ?_
  refine congrArg₂ max (congrArg₂ (· + ·) (Finset.sum_congr rfl fun l _ => congrArg₂ (· * ·) ?_ ?_) ?_) rfl
  · exact read0_0 V c t p l _ (by show ((((cfg0.win 3).blk t).view.emb (ix2 p q)) 0).val = _; omega) rfl
  · exact read0_1 V c t l q _ rfl (by show ((((cfg0.win 3).blk t).view.emb (ix2 p q)) 1).val = _; omega)
  · exact read0_2 V c t q _ rfl (by show ((((cfg0.win 3).blk t).view.emb (ix2 p q)) 1).val = _; omega)

/-- Row `r` of the output array lies in the block of point `r / 1000`. -/
theorem cover0 (i : S10000x128.Idx) : ∃ t : Fin cfg0.N, (cfg0.win 3).flush t = true ∧ i ∈ ((cfg0.win 3).blk t).view.set := by
  have h0 : (i 0).val < 10000 := (i 0).isLt
  have h1 : (i 1).val < 128 := (i 1).isLt
  have hN : grid0.N = 10 := N_0
  let t : Fin cfg0.N := ⟨(i 0).val / 1000, by show (i 0).val / 1000 < grid0.N; omega⟩
  obtain ⟨-, -, -, -, -, -, e6, e7⟩ := idx0 t
  have et : t.val = (i 0).val / 1000 := rfl
  refine ⟨t, flush0_3 t, ?_⟩
  show i ∈ ((View.whole main_v71).slice (win0_3.rect t)).set
  rw [View.set_slice_whole, Rect.mem_set_unit]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- The output array after the step: the layer on the whole feature array. -/
theorem final0 (c : Dev nD) :
    (Rg.dat0 (F := Ideal) V c).arrAt 3 cfg0.N
      = Dense.affineRelu (V c (Pipeline.arrRef spec0 0)) (V c (Pipeline.arrRef spec0 1)) (V c (Pipeline.arrRef spec0 2)) :=
  (Rg.dat0 (F := Ideal) V c).arrAt_eq_of_cover 3 (whole0 V c) (fun t _ => flushed0_eq V c t) (cover0)

end Cert.KernelIdeal.RgVal

end
-- ==== Proof.KVal1.lean ====
/-
  The second dense layer, as one function of its three input arrays.

  Its ten grid points each take a thousand rows of the 512-column feature array, multiply them by the whole
  512 × 128 weight matrix, add the bias row and clip below at zero; point `t` writes rows `1000 t … 1000 t + 999` of
  the output array.  Read at an entry, the body's value is the larger of zero and the sum over the contracted axis of
  the feature row times the weight column plus the bias entry: the product runs into a zero accumulator, so it is the
  plain sum.  A block of an input at point `t` is the array read at block index × block size + the coordinate inside the
  block; the feature rows' block index is `t`, the weights' and the bias row's is zero.  So every point writes its rows
  of ONE function of the three arrays, `Dense.affineRelu`, and the ten blocks cover the output array (row `r` is in
  the block of point `r / 1000`): after the step the array is `Dense.affineRelu` of the feature array, the weights
  and the bias row.
-/
import proofs.«106689_j32762010534267_1_alg».proof.Proof.KReg1
import proofs.«106689_j32762010534267_1_alg».proof.Proof.DenseSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RgVal

open Cert.KernelIdeal Cert.KernelIdeal.Gen
open Idealize.ShloMosaic Idealize.ShloMosaic.TcCoe Idealize.ShloMosaic.ValueIdx
open Idealize.ShloMosaic.Pipeline (Dat)

/-! ## The body's value at an entry of its block -/

theorem mm1_lhs0 (i : S1000x128.Idx) (k : dot_S1000x512_S512x128_S1000x128_1_0_0_1_n_n.contr.Idx) :
    (dot_S1000x512_S512x128_S1000x128_1_0_0_1_n_n.lhsIdx i k 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl

theorem mm1_rhs1 (i : S1000x128.Idx) (k : dot_S1000x512_S512x128_S1000x128_1_0_0_1_n_n.contr.Idx) :
    (dot_S1000x512_S512x128_S1000x128_1_0_0_1_n_n.rhsIdx i k 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- A thousand rows against the 512 × 128 weights, into a zero accumulator: entry `(p, q)` is the sum over the
    contracted axis of row `p` times column `q`. -/
theorem mm1_apply (l : FVec Ideal S1000x512 .f32) (r : FVec Ideal S512x128 .f32) (p : Fin 1000) (q : Fin 128) :
    matmul dot_S1000x512_S512x128_S1000x128_1_0_0_1_n_n none l r (constant S1000x128 .f32 0x00000000#32) (ix2 p q)
      = ∑ k : Fin 512, l (ix2 p k) * r (ix2 k q) := by
  simp only [matmul]
  rw [Ideal.matmul_constant_zero_apply, ← Equiv.sum_comp (ValueIdx.contrEquiv1 dot_S1000x512_S512x128_S1000x128_1_0_0_1_n_n 512 rfl rfl).symm]
  refine Finset.sum_congr rfl fun k _ => ?_
  have hk := ValueIdx.contrEquiv1_symm_val dot_S1000x512_S512x128_S1000x128_1_0_0_1_n_n 512 rfl rfl k
  have el : dot_S1000x512_S512x128_S1000x128_1_0_0_1_n_n.lhsIdx (ix2 p q) ((ValueIdx.contrEquiv1 dot_S1000x512_S512x128_S1000x128_1_0_0_1_n_n 512 rfl rfl).symm k) = ix2 p k := funext fun a => Fin.ext (by
    match a with
    | ⟨0, _⟩ => exact mm1_lhs0 _ _
    | ⟨1, _⟩ => exact (dot_S1000x512_S512x128_S1000x128_1_0_0_1_n_n.lhsIdx_val_of_single rfl _ _).trans hk)
  have er : dot_S1000x512_S512x128_S1000x128_1_0_0_1_n_n.rhsIdx (ix2 p q) ((ValueIdx.contrEquiv1 dot_S1000x512_S512x128_S1000x128_1_0_0_1_n_n 512 rfl rfl).symm k) = ix2 k q := funext fun a => Fin.ext (by
    match a with
    | ⟨0, _⟩ => exact (dot_S1000x512_S512x128_S1000x128_1_0_0_1_n_n.rhsIdx_val_of_single rfl _ _).trans hk
    | ⟨1, _⟩ => exact mm1_rhs1 _ _)
  rw [el, er]

/-- The bias row repeated down the thousand rows: entry `(p, q)` is the row's entry `q`. -/
theorem bias1_apply (b : FVec Ideal S1x128 .f32) (p : Fin 1000) (q : Fin 128) :
    broadcastTo S1000x128 b broadcasts_S1x128_S1000x128 (ix2 p q) = b (ix2 (0 : Fin 1) q) :=
  broadcastTo_apply b broadcasts_S1x128_S1000x128 (ix2 p q) (ix2 (0 : Fin 1) q) (fun a => by
    match a with
    | ⟨0, _⟩ => rfl
    | ⟨1, _⟩ => rfl)

/-- The body's value at entry `(p, q)` of its block: row `p` of the feature block against column `q` of the weights,
    plus the bias row's entry `q`, clipped below at zero. -/
theorem pay1_apply (v0 : Vec Ideal S1000x512 .f32) (v2 : Vec Ideal S512x128 .f32) (v5 : Vec Ideal S1x128 .f32) (p : Fin 1000) (q : Fin 128) :
    k1_pay1 (F := Ideal) v0 v2 v5 (ix2 p q)
      = max ((∑ l : Fin 512, v0 (ix2 p l) * v2 (ix2 l q)) + v5 (ix2 (0 : Fin 1) q)) Dense.zeroWord := by
  unfold k1_pay1
  simp only [shapeCast_self]
  refine (maximumf_apply _ _ _).trans ?_
  refine congrArg₂ max ((addf_apply _ _ _).trans ?_) rfl
  rw [mm1_apply, bias1_apply]

/-! ## From the blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The block indices over the ten points: the feature rows and the output rows move together, block `t` at point `t`;
    the weights and the bias row stay at block zero. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, l)` of the feature block at point `t` is entry `(1000 t + p, l)` of the feature array. -/
theorem read1_0 (c : Dev nD) (t : Fin cfg1.N) (p : Fin 1000) (l : Fin 512) (i : S10000x512.Idx)
    (h0 : (i 0).val = 1000 * t.val + p.val) (h1 : (i 1).val = l.val) :
    Rg.iblk1 V c 0 t (ix2 p l) = V c (Pipeline.arrRef spec1 0) i := by
  obtain ⟨e0, e1, -⟩ := idx1 t
  unfold Rg.iblk1
  rw [View.read_apply]
  refine congrArg (V c (Pipeline.arrRef spec1 0)) (funext fun a => Fin.ext ?_)
  match a with
  | ⟨0, _⟩ => show win1_0.index t (0 : Fin 2) * 1000 + 1 * p.val = (i 0).val; omega
  | ⟨1, _⟩ => show win1_0.index t (1 : Fin 2) * 512 + 1 * l.val = (i 1).val; omega

/-- The weights' block at every point is the weight matrix. -/
theorem read1_1 (c : Dev nD) (t : Fin cfg1.N) (l : Fin 512) (q : Fin 128) (i : S512x128.Idx)
    (h0 : (i 0).val = l.val) (h1 : (i 1).val = q.val) :
    Rg.iblk1 V c 1 t (ix2 l q) = V c (Pipeline.arrRef spec1 1) i := by
  obtain ⟨-, -, e2, e3, -⟩ := idx1 t
  unfold Rg.iblk1
  rw [View.read_apply]
  refine congrArg (V c (Pipeline.arrRef spec1 1)) (funext fun a => Fin.ext ?_)
  match a with
  | ⟨0, _⟩ => show win1_1.index t (0 : Fin 2) * 512 + 1 * l.val = (i 0).val; omega
  | ⟨1, _⟩ => show win1_1.index t (1 : Fin 2) * 128 + 1 * q.val = (i 1).val; omega

/-- The bias row's block at every point is the bias row. -/
theorem read1_2 (c : Dev nD) (t : Fin cfg1.N) (q : Fin 128) (i : S1x128.Idx)
    (h0 : (i 0).val = 0) (h1 : (i 1).val = q.val) :
    Rg.iblk1 V c 2 t (ix2 (0 : Fin 1) q) = V c (Pipeline.arrRef spec1 2) i := by
  obtain ⟨-, -, -, -, e4, e5, -⟩ := idx1 t
  unfold Rg.iblk1
  rw [View.read_apply]
  refine congrArg (V c (Pipeline.arrRef spec1 2)) (funext fun a => Fin.ext ?_)
  match a with
  | ⟨0, _⟩ => show win1_2.index t (0 : Fin 2) * 1 + 1 * (0 : Fin 1).val = (i 0).val; rw [h0, e4]; rfl
  | ⟨1, _⟩ => show win1_2.index t (1 : Fin 2) * 128 + 1 * q.val = (i 1).val; omega

/-- The layer on the whole feature array: every row against the weights, plus the bias row, clipped below at zero. -/
abbrev whole1 (c : Dev nD) : S10000x128.Idx → EReal :=
  Dense.affineRelu (V c (Pipeline.arrRef spec1 0)) (V c (Pipeline.arrRef spec1 1)) (V c (Pipeline.arrRef spec1 2))

/-- What point `t` writes back is rows `1000 t … 1000 t + 999` of the layer on the whole array. -/
theorem flushed1_eq (c : Dev nD) (t : Fin cfg1.N) :
    (Rg.dat1 (F := Ideal) V c).flushed 3 t = ((cfg1.win 3).blk t).view.read (Elt Ideal) (whole1 V c) := by
  show (cfg1.win 3).cut (grid1.coords t) ((Rg.dat1 (F := Ideal) V c).after 3 t) = _
  rw [Rg.after1_3]
  unfold Rg.out1_3
  rw [View.canon_unit_zero hz1]
  simp only [View.ld_unit_zero (S := S1000x512) hz1, View.ld_unit_zero (S := S512x128) hz1, View.ld_unit_zero (S := S1x128) hz1]
  obtain ⟨-, -, -, -, -, -, e6, e7⟩ := idx1 t
  funext j
  obtain ⟨p, q, rfl⟩ : ∃ (p : Fin 1000) (q : Fin 128), j = ix2 p q := ⟨j 0, j 1, eq_ix2 j⟩
  rw [View.read_apply]
  have hi0 : ((((cfg1.win 3).blk t).view.emb (ix2 p q)) 0).val = win1_3.index t (0 : Fin 2) * 1000 + 1 * p.val := rfl
  have hi1 : ((((cfg1.win 3).blk t).view.emb (ix2 p q)) 1).val = win1_3.index t (1 : Fin 2) * 128 + 1 * q.val := rfl
  refine (pay1_apply (Rg.iblk1 V c 0 t) (Rg.iblk1 V c 1 t) (Rg.iblk1 V c 2 t) p q).trans ?_
  refine congrArg₂ max (congrArg₂ (· + ·) (Finset.sum_congr rfl fun l _ => congrArg₂ (· * ·) ?_ ?_) ?_) rfl
  · exact read1_0 V c t p l _ (by show ((((cfg1.win 3).blk t).view.emb (ix2 p q)) 0).val = _; omega) rfl
  · exact read1_1 V c t l q _ rfl (by show ((((cfg1.win 3).blk t).view.emb (ix2 p q)) 1).val = _; omega)
  · exact read1_2 V c t q _ rfl (by show ((((cfg1.win 3).blk t).view.emb (ix2 p q)) 1).val = _; omega)

/-- Row `r` of the output array lies in the block of point `r / 1000`. -/
theorem cover1 (i : S10000x128.Idx) : ∃ t : Fin cfg1.N, (cfg1.win 3).flush t = true ∧ i ∈ ((cfg1.win 3).blk t).view.set := by
  have h0 : (i 0).val < 10000 := (i 0).isLt
  have h1 : (i 1).val < 128 := (i 1).isLt
  have hN : grid1.N = 10 := N_1
  let t : Fin cfg1.N := ⟨(i 0).val / 1000, by show (i 0).val / 1000 < grid1.N; omega⟩
  obtain ⟨-, -, -, -, -, -, e6, e7⟩ := idx1 t
  have et : t.val = (i 0).val / 1000 := rfl
  refine ⟨t, flush1_3 t, ?_⟩
  show i ∈ ((View.whole main_v114).slice (win1_3.rect t)).set
  rw [View.set_slice_whole, Rect.mem_set_unit]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 128 ≤ (i 1).val ∧ (i 1).val < win1_3.index t (1 : Fin 2) * 128 + 128; omega

/-- The output array after the step: the layer on the whole feature array. -/
theorem final1 (c : Dev nD) :
    (Rg.dat1 (F := Ideal) V c).arrAt 3 cfg1.N
      = Dense.affineRelu (V c (Pipeline.arrRef spec1 0)) (V c (Pipeline.arrRef spec1 1)) (V c (Pipeline.arrRef spec1 2)) :=
  (Rg.dat1 (F := Ideal) V c).arrAt_eq_of_cover 3 (whole1 V c) (fun t _ => flushed1_eq V c t) (cover1)

end Cert.KernelIdeal.RgVal

end
-- ==== Proof.KVal2.lean ====
/-
  The third dense layer, as one function of its three input arrays.

  Its ten grid points each take a thousand rows of the 512-column feature array, multiply them by the whole
  512 × 64 weight matrix, add the bias row and clip below at zero; point `t` writes rows `1000 t … 1000 t + 999` of
  the output array.  Read at an entry, the body's value is the larger of zero and the sum over the contracted axis of
  the feature row times the weight column plus the bias entry: the product runs into a zero accumulator, so it is the
  plain sum.  A block of an input at point `t` is the array read at block index × block size + the coordinate inside the
  block; the feature rows' block index is `t`, the weights' and the bias row's is zero.  So every point writes its rows
  of ONE function of the three arrays, `Dense.affineRelu`, and the ten blocks cover the output array (row `r` is in
  the block of point `r / 1000`): after the step the array is `Dense.affineRelu` of the feature array, the weights
  and the bias row.
-/
import proofs.«106689_j32762010534267_1_alg».proof.Proof.KReg2
import proofs.«106689_j32762010534267_1_alg».proof.Proof.DenseSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RgVal

open Cert.KernelIdeal Cert.KernelIdeal.Gen
open Idealize.ShloMosaic Idealize.ShloMosaic.TcCoe Idealize.ShloMosaic.ValueIdx
open Idealize.ShloMosaic.Pipeline (Dat)

/-! ## The body's value at an entry of its block -/

theorem mm2_lhs0 (i : S1000x64.Idx) (k : dot_S1000x512_S512x64_S1000x64_1_0_0_1_n_n.contr.Idx) :
    (dot_S1000x512_S512x64_S1000x64_1_0_0_1_n_n.lhsIdx i k 0).val = (i 0).val := by
  unfold DotDims.lhsIdx
  rw [dif_neg (show ¬(0 : Fin S1000x512.rank) ∈ dot_S1000x512_S512x64_S1000x64_1_0_0_1_n_n.lhsBatch by decide), dif_pos (show (0 : Fin S1000x512.rank) ∈ dot_S1000x512_S512x64_S1000x64_1_0_0_1_n_n.lhsNonContracting by decide)]
  rfl

theorem mm2_rhs1 (i : S1000x64.Idx) (k : dot_S1000x512_S512x64_S1000x64_1_0_0_1_n_n.contr.Idx) :
    (dot_S1000x512_S512x64_S1000x64_1_0_0_1_n_n.rhsIdx i k 1).val = (i 1).val := by
  unfold DotDims.rhsIdx
  rw [dif_neg (show ¬(1 : Fin S512x64.rank) ∈ dot_S1000x512_S512x64_S1000x64_1_0_0_1_n_n.rhsBatch by decide), dif_pos (show (1 : Fin S512x64.rank) ∈ dot_S1000x512_S512x64_S1000x64_1_0_0_1_n_n.rhsNonContracting by decide)]
  rfl

/-- A thousand rows against the 512 × 64 weights, into a zero accumulator: entry `(p, q)` is the sum over the
    contracted axis of row `p` times column `q`. -/
theorem mm2_apply (l : FVec Ideal S1000x512 .f32) (r : FVec Ideal S512x64 .f32) (p : Fin 1000) (q : Fin 64) :
    matmul dot_S1000x512_S512x64_S1000x64_1_0_0_1_n_n none l r (constant S1000x64 .f32 0x00000000#32) (ix2 p q)
      = ∑ k : Fin 512, l (ix2 p k) * r (ix2 k q) := by
  simp only [matmul]
  rw [Ideal.matmul_constant_zero_apply, ← Equiv.sum_comp (ValueIdx.contrEquiv1 dot_S1000x512_S512x64_S1000x64_1_0_0_1_n_n 512 rfl rfl).symm]
  refine Finset.sum_congr rfl fun k _ => ?_
  have hk := ValueIdx.contrEquiv1_symm_val dot_S1000x512_S512x64_S1000x64_1_0_0_1_n_n 512 rfl rfl k
  have el : dot_S1000x512_S512x64_S1000x64_1_0_0_1_n_n.lhsIdx (ix2 p q) ((ValueIdx.contrEquiv1 dot_S1000x512_S512x64_S1000x64_1_0_0_1_n_n 512 rfl rfl).symm k) = ix2 p k := funext fun a => Fin.ext (by
    match a with
    | ⟨0, _⟩ => exact mm2_lhs0 _ _
    | ⟨1, _⟩ => exact (dot_S1000x512_S512x64_S1000x64_1_0_0_1_n_n.lhsIdx_val_of_single rfl _ _).trans hk)
  have er : dot_S1000x512_S512x64_S1000x64_1_0_0_1_n_n.rhsIdx (ix2 p q) ((ValueIdx.contrEquiv1 dot_S1000x512_S512x64_S1000x64_1_0_0_1_n_n 512 rfl rfl).symm k) = ix2 k q := funext fun a => Fin.ext (by
    match a with
    | ⟨0, _⟩ => exact (dot_S1000x512_S512x64_S1000x64_1_0_0_1_n_n.rhsIdx_val_of_single rfl _ _).trans hk
    | ⟨1, _⟩ => exact mm2_rhs1 _ _)
  rw [el, er]

/-- The bias row repeated down the thousand rows: entry `(p, q)` is the row's entry `q`. -/
theorem bias2_apply (b : FVec Ideal S1x64 .f32) (p : Fin 1000) (q : Fin 64) :
    broadcastTo S1000x64 b broadcasts_S1x64_S1000x64 (ix2 p q) = b (ix2 (0 : Fin 1) q) :=
  broadcastTo_apply b broadcasts_S1x64_S1000x64 (ix2 p q) (ix2 (0 : Fin 1) q) (fun a => by
    match a with
    | ⟨0, _⟩ => rfl
    | ⟨1, _⟩ => rfl)

/-- The body's value at entry `(p, q)` of its block: row `p` of the feature block against column `q` of the weights,
    plus the bias row's entry `q`, clipped below at zero. -/
theorem pay2_apply (v0 : Vec Ideal S1000x512 .f32) (v2 : Vec Ideal S512x64 .f32) (v5 : Vec Ideal S1x64 .f32) (p : Fin 1000) (q : Fin 64) :
    k2_pay1 (F := Ideal) v0 v2 v5 (ix2 p q)
      = max ((∑ l : Fin 512, v0 (ix2 p l) * v2 (ix2 l q)) + v5 (ix2 (0 : Fin 1) q)) Dense.zeroWord := by
  unfold k2_pay1
  simp only [shapeCast_self]
  refine (maximumf_apply _ _ _).trans ?_
  refine congrArg₂ max ((addf_apply _ _ _).trans ?_) rfl
  rw [mm2_apply, bias2_apply]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The block indices over the ten points: the feature rows and the output rows move together, block `t` at point `t`;
    the weights and the bias row stay at block zero. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `(p, l)` of the feature block at point `t` is entry `(1000 t + p, l)` of the feature array. -/
theorem read2_0 (c : Dev nD) (t : Fin cfg2.N) (p : Fin 1000) (l : Fin 512) (i : S10000x512.Idx)
    (h0 : (i 0).val = 1000 * t.val + p.val) (h1 : (i 1).val = l.val) :
    Rg.iblk2 V c 0 t (ix2 p l) = V c (Pipeline.arrRef spec2 0) i := by
  obtain ⟨e0, e1, -⟩ := idx2 t
  unfold Rg.iblk2
  rw [View.read_apply]
  refine congrArg (V c (Pipeline.arrRef spec2 0)) (funext fun a => Fin.ext ?_)
  match a with
  | ⟨0, _⟩ => show win2_0.index t (0 : Fin 2) * 1000 + 1 * p.val = (i 0).val; omega
  | ⟨1, _⟩ => show win2_0.index t (1 : Fin 2) * 512 + 1 * l.val = (i 1).val; omega

/-- The weights' block at every point is the weight matrix. -/
theorem read2_1 (c : Dev nD) (t : Fin cfg2.N) (l : Fin 512) (q : Fin 64) (i : S512x64.Idx)
    (h0 : (i 0).val = l.val) (h1 : (i 1).val = q.val) :
    Rg.iblk2 V c 1 t (ix2 l q) = V c (Pipeline.arrRef spec2 1) i := by
  obtain ⟨-, -, e2, e3, -⟩ := idx2 t
  unfold Rg.iblk2
  rw [View.read_apply]
  refine congrArg (V c (Pipeline.arrRef spec2 1)) (funext fun a => Fin.ext ?_)
  match a with
  | ⟨0, _⟩ => show win2_1.index t (0 : Fin 2) * 512 + 1 * l.val = (i 0).val; omega
  | ⟨1, _⟩ => show win2_1.index t (1 : Fin 2) * 64 + 1 * q.val = (i 1).val; omega

/-- The bias row's block at every point is the bias row. -/
theorem read2_2 (c : Dev nD) (t : Fin cfg2.N) (q : Fin 64) (i : S1x64.Idx)
    (h0 : (i 0).val = 0) (h1 : (i 1).val = q.val) :
    Rg.iblk2 V c 2 t (ix2 (0 : Fin 1) q) = V c (Pipeline.arrRef spec2 2) i := by
  obtain ⟨-, -, -, -, e4, e5, -⟩ := idx2 t
  unfold Rg.iblk2
  rw [View.read_apply]
  refine congrArg (V c (Pipeline.arrRef spec2 2)) (funext fun a => Fin.ext ?_)
  match a with
  | ⟨0, _⟩ => show win2_2.index t (0 : Fin 2) * 1 + 1 * (0 : Fin 1).val = (i 0).val; rw [h0, e4]; rfl
  | ⟨1, _⟩ => show win2_2.index t (1 : Fin 2) * 64 + 1 * q.val = (i 1).val; omega

/-- The layer on the whole feature array: every row against the weights, plus the bias row, clipped below at zero. -/
abbrev whole2 (c : Dev nD) : S10000x64.Idx → EReal :=
  Dense.affineRelu (V c (Pipeline.arrRef spec2 0)) (V c (Pipeline.arrRef spec2 1)) (V c (Pipeline.arrRef spec2 2))

/-- What point `t` writes back is rows `1000 t … 1000 t + 999` of the layer on the whole array. -/
theorem flushed2_eq (c : Dev nD) (t : Fin cfg2.N) :
    (Rg.dat2 (F := Ideal) V c).flushed 3 t = ((cfg2.win 3).blk t).view.read (Elt Ideal) (whole2 V c) := by
  show (cfg2.win 3).cut (grid2.coords t) ((Rg.dat2 (F := Ideal) V c).after 3 t) = _
  rw [Rg.after2_3]
  unfold Rg.out2_3
  rw [View.canon_unit_zero hz2]
  simp only [View.ld_unit_zero (S := S1000x512) hz2, View.ld_unit_zero (S := S512x64) hz2, View.ld_unit_zero (S := S1x64) hz2]
  obtain ⟨-, -, -, -, -, -, e6, e7⟩ := idx2 t
  funext j
  obtain ⟨p, q, rfl⟩ : ∃ (p : Fin 1000) (q : Fin 64), j = ix2 p q := ⟨j 0, j 1, eq_ix2 j⟩
  rw [View.read_apply]
  have hi0 : ((((cfg2.win 3).blk t).view.emb (ix2 p q)) 0).val = win2_3.index t (0 : Fin 2) * 1000 + 1 * p.val := rfl
  have hi1 : ((((cfg2.win 3).blk t).view.emb (ix2 p q)) 1).val = win2_3.index t (1 : Fin 2) * 64 + 1 * q.val := rfl
  refine (pay2_apply (Rg.iblk2 V c 0 t) (Rg.iblk2 V c 1 t) (Rg.iblk2 V c 2 t) p q).trans ?_
  refine congrArg₂ max (congrArg₂ (· + ·) (Finset.sum_congr rfl fun l _ => congrArg₂ (· * ·) ?_ ?_) ?_) rfl
  · exact read2_0 V c t p l _ (by show ((((cfg2.win 3).blk t).view.emb (ix2 p q)) 0).val = _; omega) rfl
  · exact read2_1 V c t l q _ rfl (by show ((((cfg2.win 3).blk t).view.emb (ix2 p q)) 1).val = _; omega)
  · exact read2_2 V c t q _ rfl (by show ((((cfg2.win 3).blk t).view.emb (ix2 p q)) 1).val = _; omega)

/-- Row `r` of the output array lies in the block of point `r / 1000`. -/
theorem cover2 (i : S10000x64.Idx) : ∃ t : Fin cfg2.N, (cfg2.win 3).flush t = true ∧ i ∈ ((cfg2.win 3).blk t).view.set := by
  have h0 : (i 0).val < 10000 := (i 0).isLt
  have h1 : (i 1).val < 64 := (i 1).isLt
  have hN : grid2.N = 10 := N_2
  let t : Fin cfg2.N := ⟨(i 0).val / 1000, by show (i 0).val / 1000 < grid2.N; omega⟩
  obtain ⟨-, -, -, -, -, -, e6, e7⟩ := idx2 t
  have et : t.val = (i 0).val / 1000 := rfl
  refine ⟨t, flush2_3 t, ?_⟩
  show i ∈ ((View.whole main_v157).slice (win2_3.rect t)).set
  rw [View.set_slice_whole, Rect.mem_set_unit]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 64 ≤ (i 1).val ∧ (i 1).val < win2_3.index t (1 : Fin 2) * 64 + 64; omega

/-- The output array after the step: the layer on the whole feature array. -/
theorem final2 (c : Dev nD) :
    (Rg.dat2 (F := Ideal) V c).arrAt 3 cfg2.N
      = Dense.affineRelu (V c (Pipeline.arrRef spec2 0)) (V c (Pipeline.arrRef spec2 1)) (V c (Pipeline.arrRef spec2 2)) :=
  (Rg.dat2 (F := Ideal) V c).arrAt_eq_of_cover 3 (whole2 V c) (fun t _ => flushed2_eq V c t) (cover2)

end Cert.KernelIdeal.RgVal

end
-- ==== Proof.RefAlgebra.lean ====
/-
  Regrouping a dense layer's sum.

  A graph-convolution layer adds four matrix products, one per hop array, each against its own slab of a weight array
  of extents `[4, d, c]`, then a bias, and clips at zero.  The same numbers arise from ONE matrix product: put the four
  hop arrays side by side (extents `[n, 4 d]`) and read the weight array as `[4 d, c]` in row-major order.  Position
  `k * d + l` of the long axis holds hop `k` at feature `l` on the left and slab `k` at row `l` on the right, so the long
  sum is the sum of its four consecutive blocks of `d` terms.  Only the commutative-monoid laws of `+` are used; nothing
  is assumed finite.
-/
import Idealize.ShloMosaic.Lib.Pipeline.Value
import Idealize.ShloMosaic.Lib.ValueIdx
import Idealize.ShloMosaic.PureOps.Ideal.Laws
import proofs.«106689_j32762010534267_1_alg».proof.Proof.DenseSpec

noncomputable section

namespace Cert.RefLayers

open Idealize.ShloMosaic Idealize.ShloMosaic.ValueIdx
open scoped BigOperators

/-- A sum over `d + d + d + d` positions is the sum of its four consecutive blocks of `d` positions. -/
theorem sum_four_blocks {M : Type} [AddCommMonoid M] {d D : ℕ} (hD : D = d + d + d + d) (f : Fin D → M) :
    ∑ l : Fin D, f l =
      (((∑ l : Fin d, f ⟨l.val, by omega⟩) + ∑ l : Fin d, f ⟨d + l.val, by omega⟩)
        + ∑ l : Fin d, f ⟨d + d + l.val, by omega⟩) + ∑ l : Fin d, f ⟨d + d + d + l.val, by omega⟩ := by
  subst hD
  rw [Fin.sum_univ_add, Fin.sum_univ_add, Fin.sum_univ_add]
  rfl

section Reads
variable {α : Type}

/-- Four arrays of extents `[n, d]` side by side along the second axis, read at a column `m` of the wide array: a
    column in block `k` (`m = k d + l`) reads array `k` at column `l`. -/
theorem cat4_apply {n d D : ℕ} (h0 h1 h2 h3 : (⟨2, ![n, d]⟩ : Shape).Idx → α)
    (hC : Shape.Concatenates [(⟨2, ![n, d]⟩ : Shape), ⟨2, ![n, d]⟩, ⟨2, ![n, d]⟩, ⟨2, ![n, d]⟩] ⟨2, ![n, D]⟩ 1)
    (p : Fin n) (l : Fin d) :
    (∀ m : Fin D, m.val = l.val →
      concatenate ⟨2, ![n, D]⟩ 1 [⟨⟨2, ![n, d]⟩, h0⟩, ⟨⟨2, ![n, d]⟩, h1⟩, ⟨⟨2, ![n, d]⟩, h2⟩, ⟨⟨2, ![n, d]⟩, h3⟩] hC (ix2 p m)
        = h0 (ix2 p l)) ∧
    (∀ m : Fin D, m.val = d + l.val →
      concatenate ⟨2, ![n, D]⟩ 1 [⟨⟨2, ![n, d]⟩, h0⟩, ⟨⟨2, ![n, d]⟩, h1⟩, ⟨⟨2, ![n, d]⟩, h2⟩, ⟨⟨2, ![n, d]⟩, h3⟩] hC (ix2 p m)
        = h1 (ix2 p l)) ∧
    (∀ m : Fin D, m.val = d + d + l.val →
      concatenate ⟨2, ![n, D]⟩ 1 [⟨⟨2, ![n, d]⟩, h0⟩, ⟨⟨2, ![n, d]⟩, h1⟩, ⟨⟨2, ![n, d]⟩, h2⟩, ⟨⟨2, ![n, d]⟩, h3⟩] hC (ix2 p m)
        = h2 (ix2 p l)) ∧
    (∀ m : Fin D, m.val = d + d + d + l.val →
      concatenate ⟨2, ![n, D]⟩ 1 [⟨⟨2, ![n, d]⟩, h0⟩, ⟨⟨2, ![n, d]⟩, h1⟩, ⟨⟨2, ![n, d]⟩, h2⟩, ⟨⟨2, ![n, d]⟩, h3⟩] hC (ix2 p m)
        = h3 (ix2 p l)) := by
  -- off the concatenated axis the piece's index and the wide index agree
  have hi : ∀ (m : Fin D) (b : Fin 2), b.cast rfl ≠ (1 : Fin 2) → ((ix2 p l) b).val = ((ix2 p m) (b.cast rfl)).val := by
    intro m b hb
    match b with
    | ⟨0, _⟩ => rfl
    | ⟨1, _⟩ => exact absurd rfl hb
  refine ⟨fun m hm => ?_, fun m hm => ?_, fun m hm => ?_, fun m hm => ?_⟩
  · exact concatenate_apply_piece (t := ⟨2, ![n, D]⟩) 1
      [⟨⟨2, ![n, d]⟩, h0⟩, ⟨⟨2, ![n, d]⟩, h1⟩, ⟨⟨2, ![n, d]⟩, h2⟩, ⟨⟨2, ![n, d]⟩, h3⟩] hC (ix2 p m) 0 (by simp)
      ⟨2, ![n, d]⟩ h0 rfl rfl 0 (by simp) (ix2 p l) (hi m) (by show 0 + l.val = m.val; omega)
  · exact concatenate_apply_piece (t := ⟨2, ![n, D]⟩) 1
      [⟨⟨2, ![n, d]⟩, h0⟩, ⟨⟨2, ![n, d]⟩, h1⟩, ⟨⟨2, ![n, d]⟩, h2⟩, ⟨⟨2, ![n, d]⟩, h3⟩] hC (ix2 p m) 1 (by simp)
      ⟨2, ![n, d]⟩ h1 rfl rfl d (by simp) (ix2 p l) (hi m) (by show d + l.val = m.val; omega)
  · exact concatenate_apply_piece (t := ⟨2, ![n, D]⟩) 1
      [⟨⟨2, ![n, d]⟩, h0⟩, ⟨⟨2, ![n, d]⟩, h1⟩, ⟨⟨2, ![n, d]⟩, h2⟩, ⟨⟨2, ![n, d]⟩, h3⟩] hC (ix2 p m) 2 (by simp)
      ⟨2, ![n, d]⟩ h2 rfl rfl (d + d) (by simp) (ix2 p l) (hi m) (by show d + d + l.val = m.val; omega)
  · exact concatenate_apply_piece (t := ⟨2, ![n, D]⟩) 1
      [⟨⟨2, ![n, d]⟩, h0⟩, ⟨⟨2, ![n, d]⟩, h1⟩, ⟨⟨2, ![n, d]⟩, h2⟩, ⟨⟨2, ![n, d]⟩, h3⟩] hC (ix2 p m) 3 (by simp)
      ⟨2, ![n, d]⟩ h3 rfl rfl (d + d + d) (by simp; omega) (ix2 p l) (hi m) (by show d + d + d + l.val = m.val; omega)

/-- A weight array of extents `[4, d, c]` read as `[D, c]` in row-major order: row `k * d + l` is slab `k`, row `l`. -/
theorem flat_apply {d c D : ℕ} (W : (⟨3, ![4, d, c]⟩ : Shape).Idx → α)
    (hS : (⟨3, ![4, d, c]⟩ : Shape).ShapeCasts ⟨2, ![D, c]⟩) (k : Fin 4) (l : Fin d) (q : Fin c) (m : Fin D)
    (hm : m.val = k.val * d + l.val) : shapeCast ⟨2, ![D, c]⟩ W hS (ix2 m q) = W (ix3 k l q) := by
  refine shapeCast_apply W hS (ix2 m q) (ix3 k l q) ?_
  rw [Shape.rowMajor_val_three, Shape.rowMajor_val_two]
  show (k.val * d + l.val) * c + q.val = m.val * c + q.val
  rw [hm]

/-- A bias vector of extent `c` read as one row `[1, c]`: entry `(0, q)` is entry `q`. -/
theorem row_apply {c : ℕ} (b : (⟨1, ![c]⟩ : Shape).Idx → α) (hB : (⟨1, ![c]⟩ : Shape).ShapeCasts ⟨2, ![1, c]⟩)
    (q : Fin c) : shapeCast ⟨2, ![1, c]⟩ b hB (ix2 (0 : Fin 1) q) = b (ix1 q) := by
  refine shapeCast_apply b hB (ix2 (0 : Fin 1) q) (ix1 q) ?_
  rw [Shape.rowMajor_val_one, Shape.rowMajor_val_two]
  show q.val = 0 * c + q.val
  omega

/-- A rank-2 index is named by its two coordinates' values. -/
theorem eq_ix2_of_val {n0 n1 : ℕ} (j : (⟨2, ![n0, n1]⟩ : Shape).Idx) (a : Fin n0) (b : Fin n1)
    (h0 : (j 0).val = a.val) (h1 : (j 1).val = b.val) : j = ix2 a b := by
  funext x
  match x with
  | ⟨0, _⟩ => exact Fin.ext h0
  | ⟨1, _⟩ => exact Fin.ext h1

/-- A rank-1 index is named by its coordinate's value. -/
theorem eq_ix1_of_val {n0 : ℕ} (j : (⟨1, ![n0]⟩ : Shape).Idx) (a : Fin n0) (h0 : (j 0).val = a.val) : j = ix1 a := by
  funext x
  match x with
  | ⟨0, _⟩ => exact Fin.ext h0

/-- Slab `k` of a weight array of extents `[4, d, c]` — the slice `[k : k + 1, :, :]` with its unit axis dropped — read at
    `(l, q)` is the array at `(k, l, q)`. -/
theorem slab_apply {d c : ℕ} (k : ℕ) (hk : k < 4) (W : (⟨3, ![4, d, c]⟩ : Shape).Idx → α)
    (hSl : (⟨3, ![4, d, c]⟩ : Shape).Slices ![k, 0, 0] ⟨3, ![1, d, c]⟩)
    (hSc : (⟨3, ![1, d, c]⟩ : Shape).ShapeCasts ⟨2, ![d, c]⟩) (l : Fin d) (q : Fin c)
    (j : (⟨2, ![d, c]⟩ : Shape).Idx) (hj0 : (j 0).val = l.val) (hj1 : (j 1).val = q.val) :
    shapeCast ⟨2, ![d, c]⟩ (extractStridedSlice ⟨3, ![1, d, c]⟩ ![k, 0, 0] W hSl) hSc j = W (ix3 (⟨k, hk⟩ : Fin 4) l q) := by
  refine (shapeCast_apply _ hSc j (ix3 (0 : Fin 1) l q) ?_).trans ?_
  · rw [Shape.rowMajor_val_three, Shape.rowMajor_val_two]
    show (0 * d + l.val) * c + q.val = (j 0).val * c + (j 1).val
    rw [hj0, hj1, Nat.zero_mul, Nat.zero_add]
  · refine extractStridedSlice_apply ![k, 0, 0] W hSl (ix3 (0 : Fin 1) l q) (ix3 (⟨k, hk⟩ : Fin 4) l q) (fun a => ?_)
    match a with
    | ⟨0, _⟩ => show k = k + 0; rfl
    | ⟨1, _⟩ => show l.val = 0 + l.val; omega
    | ⟨2, _⟩ => show q.val = 0 + q.val; omega

end Reads

/-- **One product for four.**  The affine step on the four hop arrays side by side, against the weight array read as
    `[D, c]` and the bias read as a row, is entry by entry the four per-hop products added left to right, plus the bias. -/
theorem affine_cat4_apply {n d c D : ℕ} (hD : D = d + d + d + d) (h0 h1 h2 h3 : Dense.Arr n d)
    (W : (⟨3, ![4, d, c]⟩ : Shape).Idx → EReal) (b : (⟨1, ![c]⟩ : Shape).Idx → EReal)
    (hC : Shape.Concatenates [(⟨2, ![n, d]⟩ : Shape), ⟨2, ![n, d]⟩, ⟨2, ![n, d]⟩, ⟨2, ![n, d]⟩] ⟨2, ![n, D]⟩ 1)
    (hS : (⟨3, ![4, d, c]⟩ : Shape).ShapeCasts ⟨2, ![D, c]⟩) (hB : (⟨1, ![c]⟩ : Shape).ShapeCasts ⟨2, ![1, c]⟩)
    (p : Fin n) (q : Fin c) :
    Dense.affine
        (concatenate ⟨2, ![n, D]⟩ 1 [⟨⟨2, ![n, d]⟩, h0⟩, ⟨⟨2, ![n, d]⟩, h1⟩, ⟨⟨2, ![n, d]⟩, h2⟩, ⟨⟨2, ![n, d]⟩, h3⟩] hC)
        (shapeCast ⟨2, ![D, c]⟩ W hS) (shapeCast ⟨2, ![1, c]⟩ b hB) (ix2 p q) =
      ((((∑ l : Fin d, h0 (ix2 p l) * W (ix3 (0 : Fin 4) l q)) + ∑ l : Fin d, h1 (ix2 p l) * W (ix3 (1 : Fin 4) l q))
          + ∑ l : Fin d, h2 (ix2 p l) * W (ix3 (2 : Fin 4) l q)) + ∑ l : Fin d, h3 (ix2 p l) * W (ix3 (3 : Fin 4) l q))
        + b (ix1 q) := by
  rw [Dense.affine_apply, row_apply, sum_four_blocks hD]
  congr 1
  refine congrArg₂ (· + ·) (congrArg₂ (· + ·) (congrArg₂ (· + ·) ?_ ?_) ?_) ?_
  · refine Finset.sum_congr rfl fun l _ => ?_
    rw [(cat4_apply h0 h1 h2 h3 hC p l).1 _ rfl, flat_apply W hS 0 l q _ (by show l.val = 0 * d + l.val; omega)]
  · refine Finset.sum_congr rfl fun l _ => ?_
    rw [(cat4_apply h0 h1 h2 h3 hC p l).2.1 _ rfl, flat_apply W hS 1 l q _ (by show d + l.val = 1 * d + l.val; omega)]
  · refine Finset.sum_congr rfl fun l _ => ?_
    rw [(cat4_apply h0 h1 h2 h3 hC p l).2.2.1 _ rfl, flat_apply W hS 2 l q _ (by show d + d + l.val = 2 * d + l.val; omega)]
  · refine Finset.sum_congr rfl fun l _ => ?_
    rw [(cat4_apply h0 h1 h2 h3 hC p l).2.2.2 _ rfl,
      flat_apply W hS 3 l q _ (by show d + d + d + l.val = 3 * d + l.val; omega)]

/-- A layer, from its entries: an array whose every entry is the four per-hop products added left to right, plus the
    bias, clipped at zero, is the clipped affine step on the hop arrays side by side. -/
theorem layer_of_entries {n d c D : ℕ} (hD : D = d + d + d + d) (h0 h1 h2 h3 : Dense.Arr n d)
    (W : (⟨3, ![4, d, c]⟩ : Shape).Idx → EReal) (b : (⟨1, ![c]⟩ : Shape).Idx → EReal)
    (hC : Shape.Concatenates [(⟨2, ![n, d]⟩ : Shape), ⟨2, ![n, d]⟩, ⟨2, ![n, d]⟩, ⟨2, ![n, d]⟩] ⟨2, ![n, D]⟩ 1)
    (hS : (⟨3, ![4, d, c]⟩ : Shape).ShapeCasts ⟨2, ![D, c]⟩) (hB : (⟨1, ![c]⟩ : Shape).ShapeCasts ⟨2, ![1, c]⟩)
    (R : Dense.Arr n c)
    (hR : ∀ (p : Fin n) (q : Fin c), R (ix2 p q) =
      max (((((∑ l : Fin d, h0 (ix2 p l) * W (ix3 (0 : Fin 4) l q)) + ∑ l : Fin d, h1 (ix2 p l) * W (ix3 (1 : Fin 4) l q))
          + ∑ l : Fin d, h2 (ix2 p l) * W (ix3 (2 : Fin 4) l q)) + ∑ l : Fin d, h3 (ix2 p l) * W (ix3 (3 : Fin 4) l q))
        + b (ix1 q)) Dense.zeroWord) :
    R = Dense.affineRelu
        (concatenate ⟨2, ![n, D]⟩ 1 [⟨⟨2, ![n, d]⟩, h0⟩, ⟨⟨2, ![n, d]⟩, h1⟩, ⟨⟨2, ![n, d]⟩, h2⟩, ⟨⟨2, ![n, d]⟩, h3⟩] hC)
        (shapeCast ⟨2, ![D, c]⟩ W hS) (shapeCast ⟨2, ![1, c]⟩ b hB) := by
  funext i
  obtain ⟨p, q, rfl⟩ : ∃ (p : Fin n) (q : Fin c), i = ix2 p q := ⟨i 0, i 1, eq_ix2 i⟩
  rw [hR p q]
  show _ = max (Dense.affine _ _ _ (ix2 p q)) Dense.zeroWord
  rw [affine_cat4_apply hD]

end Cert.RefLayers

end
-- ==== Proof.RefLayer1.lean ====
/-
  The reference's first layer as one clipped affine step.

  The reference adds, for each of the four hop arrays of the input features, the product of that array with its slab of the
  weight array, then the bias repeated down the rows, and clips at zero.  Entry by entry that is four sums of 256 terms
  added left to right, plus a bias entry; the regrouping law turns it into the one sum of 1024 terms of the wide product.
-/
import proofs.«106689_j32762010534267_1_alg».proof.Proof.RefImports
import proofs.«106689_j32762010534267_1_alg».proof.Proof.DenseSpec
import proofs.«106689_j32762010534267_1_alg».proof.Proof.RefAlgebra
import proofs.«106689_j32762010534267_1_alg».proof.Proof.Gen.KernelIdeal

noncomputable section

namespace Cert.RefLayers

open Idealize.ShloMosaic Idealize.ShloMosaic.ValueIdx Cert.ReferenceIdeal Cert.ReferenceIdeal.Gen
open scoped BigOperators

variable (x0 : (⟨S10000x256, .f32⟩ : BufTy).Contents (Elt Ideal)) (x1 : (⟨S2x320000, .i32⟩ : BufTy).Contents (Elt Ideal))
  (x2 : (⟨S4x256x128, .f32⟩ : BufTy).Contents (Elt Ideal)) (x3 : (⟨S128, .f32⟩ : BufTy).Contents (Elt Ideal))
  (x4 : (⟨S4x128x128, .f32⟩ : BufTy).Contents (Elt Ideal)) (x5 : (⟨S128, .f32⟩ : BufTy).Contents (Elt Ideal))
  (x6 : (⟨S4x128x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal))

/-- Layer 1: features of width 256 to width 128. -/
theorem layer1 :
    ReadP.val_main_v86 (F := Ideal) x0 x1 x2 x3 =
      Dense.affineRelu
        (concatenate Cert.KernelIdeal.S10000x1024 1
          [⟨Cert.KernelIdeal.S10000x256, x0⟩, ⟨Cert.KernelIdeal.S10000x256, ReadP.val_main_v44 (F := Ideal) x0 x1⟩,
           ⟨Cert.KernelIdeal.S10000x256, ReadP.val_main_v61 (F := Ideal) x0 x1⟩,
           ⟨Cert.KernelIdeal.S10000x256, ReadP.val_main_v78 (F := Ideal) x0 x1⟩]
          Cert.KernelIdeal.Gen.concatenates_S10000x256_S10000x256_S10000x256_S10000x256_S10000x1024_d1)
        (shapeCast Cert.KernelIdeal.S1024x128 x2 Cert.KernelIdeal.Gen.shapeCasts_S4x256x128_S1024x128)
        (shapeCast Cert.KernelIdeal.S1x128 x3 Cert.KernelIdeal.Gen.shapeCasts_S128_S1x128) := by
  refine layer_of_entries (n := 10000) (d := 256) (c := 128) (D := 1024) rfl x0 _ _ _ x2 x3 _ _ _ _ (fun p q => ?_)
  rw [ReadP.val_main_v86_apply, ReadP.val_main_v85_apply, ReadP.val_main_v82_apply, ReadP.val_main_v65_apply,
    ReadP.val_main_v48_apply, ReadP.val_main_v31_apply, ReadP.val_main_v47_apply, ReadP.val_main_v64_apply,
    ReadP.val_main_v81_apply, ReadP.val_main_v84_apply, ReadP.val_main_v83_apply, ReadP.val_main_call1_v0_apply,
    ReadP.val_main_call1_cst_apply]
  refine congrArg₂ max (congrArg₂ (· + ·) (congrArg₂ (· + ·) (congrArg₂ (· + ·) (congrArg₂ (· + ·) ?_ ?_) ?_) ?_) ?_) rfl
  · refine Finset.sum_congr rfl fun l _ => ?_
    rw [eq_ix2_of_val (ReadP.lidx_main_v31 (ix2 p q) l) p l rfl rfl]
    exact congrArg (x0 (ix2 p l) * ·) (slab_apply 0 (by decide) x2 _ _ l q _ rfl rfl)
  · refine Finset.sum_congr rfl fun l _ => ?_
    rw [eq_ix2_of_val (ReadP.lidx_main_v47 (ix2 p q) l) p l rfl rfl]
    exact congrArg (ReadP.val_main_v44 (F := Ideal) x0 x1 (ix2 p l) * ·) (slab_apply 1 (by decide) x2 _ _ l q _ rfl rfl)
  · refine Finset.sum_congr rfl fun l _ => ?_
    rw [eq_ix2_of_val (ReadP.lidx_main_v64 (ix2 p q) l) p l rfl rfl]
    exact congrArg (ReadP.val_main_v61 (F := Ideal) x0 x1 (ix2 p l) * ·) (slab_apply 2 (by decide) x2 _ _ l q _ rfl rfl)
  · refine Finset.sum_congr rfl fun l _ => ?_
    rw [eq_ix2_of_val (ReadP.lidx_main_v81 (ix2 p q) l) p l rfl rfl]
    exact congrArg (ReadP.val_main_v78 (F := Ideal) x0 x1 (ix2 p l) * ·) (slab_apply 3 (by decide) x2 _ _ l q _ rfl rfl)
  · exact congrArg x3 (eq_ix1_of_val _ q rfl)

end Cert.RefLayers

end
-- ==== Proof.RefLayer2.lean ====
/-
  The reference's second layer as one clipped affine step.

  The same shape as the first layer with other extents: four sums of 128 terms added left to right, plus a bias entry,
  clipped at zero, against the one sum of 512 terms of the wide product.  The hop arrays are whatever the reference
  computes from the first layer's output; they enter only as arrays.
-/
import proofs.«106689_j32762010534267_1_alg».proof.Proof.RefImports
import proofs.«106689_j32762010534267_1_alg».proof.Proof.DenseSpec
import proofs.«106689_j32762010534267_1_alg».proof.Proof.RefAlgebra
import proofs.«106689_j32762010534267_1_alg».proof.Proof.Gen.KernelIdeal

noncomputable section

namespace Cert.RefLayers

open Idealize.ShloMosaic Idealize.ShloMosaic.ValueIdx Cert.ReferenceIdeal Cert.ReferenceIdeal.Gen
open scoped BigOperators

variable (x0 : (⟨S10000x256, .f32⟩ : BufTy).Contents (Elt Ideal)) (x1 : (⟨S2x320000, .i32⟩ : BufTy).Contents (Elt Ideal))
  (x2 : (⟨S4x256x128, .f32⟩ : BufTy).Contents (Elt Ideal)) (x3 : (⟨S128, .f32⟩ : BufTy).Contents (Elt Ideal))
  (x4 : (⟨S4x128x128, .f32⟩ : BufTy).Contents (Elt Ideal)) (x5 : (⟨S128, .f32⟩ : BufTy).Contents (Elt Ideal))
  (x6 : (⟨S4x128x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal))

/-- Layer 2: features of width 128 to width 128, on the first layer's output and its three hop arrays. -/
theorem layer2 :
    ReadP.val_main_v144 (F := Ideal) x0 x1 x2 x3 x4 x5 =
      Dense.affineRelu
        (concatenate Cert.KernelIdeal.S10000x512 1
          [⟨Cert.KernelIdeal.S10000x128, ReadP.val_main_v86 (F := Ideal) x0 x1 x2 x3⟩,
           ⟨Cert.KernelIdeal.S10000x128, ReadP.val_main_v102 (F := Ideal) x0 x1 x2 x3⟩,
           ⟨Cert.KernelIdeal.S10000x128, ReadP.val_main_v119 (F := Ideal) x0 x1 x2 x3⟩,
           ⟨Cert.KernelIdeal.S10000x128, ReadP.val_main_v136 (F := Ideal) x0 x1 x2 x3⟩]
          Cert.KernelIdeal.Gen.concatenates_S10000x128_S10000x128_S10000x128_S10000x128_S10000x512_d1)
        (shapeCast Cert.KernelIdeal.S512x128 x4 Cert.KernelIdeal.Gen.shapeCasts_S4x128x128_S512x128)
        (shapeCast Cert.KernelIdeal.S1x128 x5 Cert.KernelIdeal.Gen.shapeCasts_S128_S1x128) := by
  refine layer_of_entries (n := 10000) (d := 128) (c := 128) (D := 512) rfl _ _ _ _ x4 x5 _ _ _ _ (fun p q => ?_)
  rw [ReadP.val_main_v144_apply, ReadP.val_main_v143_apply, ReadP.val_main_v140_apply, ReadP.val_main_v123_apply,
    ReadP.val_main_v106_apply, ReadP.val_main_v89_apply, ReadP.val_main_v105_apply, ReadP.val_main_v122_apply,
    ReadP.val_main_v139_apply, ReadP.val_main_v142_apply, ReadP.val_main_v141_apply, ReadP.val_main_call2_v0_apply,
    ReadP.val_main_call2_cst_apply]
  refine congrArg₂ max (congrArg₂ (· + ·) (congrArg₂ (· + ·) (congrArg₂ (· + ·) (congrArg₂ (· + ·) ?_ ?_) ?_) ?_) ?_) rfl
  · refine Finset.sum_congr rfl fun l _ => ?_
    rw [eq_ix2_of_val (ReadP.lidx_main_v89 (ix2 p q) l) p l rfl rfl]
    exact congrArg (ReadP.val_main_v86 (F := Ideal) x0 x1 x2 x3 (ix2 p l) * ·)
      (slab_apply 0 (by decide) x4 _ _ l q _ rfl rfl)
  · refine Finset.sum_congr rfl fun l _ => ?_
    rw [eq_ix2_of_val (ReadP.lidx_main_v105 (ix2 p q) l) p l rfl rfl]
    exact congrArg (ReadP.val_main_v102 (F := Ideal) x0 x1 x2 x3 (ix2 p l) * ·)
      (slab_apply 1 (by decide) x4 _ _ l q _ rfl rfl)
  · refine Finset.sum_congr rfl fun l _ => ?_
    rw [eq_ix2_of_val (ReadP.lidx_main_v122 (ix2 p q) l) p l rfl rfl]
    exact congrArg (ReadP.val_main_v119 (F := Ideal) x0 x1 x2 x3 (ix2 p l) * ·)
      (slab_apply 2 (by decide) x4 _ _ l q _ rfl rfl)
  · refine Finset.sum_congr rfl fun l _ => ?_
    rw [eq_ix2_of_val (ReadP.lidx_main_v139 (ix2 p q) l) p l rfl rfl]
    exact congrArg (ReadP.val_main_v136 (F := Ideal) x0 x1 x2 x3 (ix2 p l) * ·)
      (slab_apply 3 (by decide) x4 _ _ l q _ rfl rfl)
  · exact congrArg x5 (eq_ix1_of_val _ q rfl)

end Cert.RefLayers

end
-- ==== Proof.RefLayer3.lean ====
/-
  The reference's third layer as one clipped affine step.

  The same shape again: four sums of 128 terms added left to right, plus a bias entry, clipped at zero, against the one sum
  of 512 terms of the wide product, now with 64 output features.
-/
import proofs.«106689_j32762010534267_1_alg».proof.Proof.RefImports
import proofs.«106689_j32762010534267_1_alg».proof.Proof.DenseSpec
import proofs.«106689_j32762010534267_1_alg».proof.Proof.RefAlgebra
import proofs.«106689_j32762010534267_1_alg».proof.Proof.Gen.KernelIdeal

noncomputable section

namespace Cert.RefLayers

open Idealize.ShloMosaic Idealize.ShloMosaic.ValueIdx Cert.ReferenceIdeal Cert.ReferenceIdeal.Gen
open scoped BigOperators

variable (x0 : (⟨S10000x256, .f32⟩ : BufTy).Contents (Elt Ideal)) (x1 : (⟨S2x320000, .i32⟩ : BufTy).Contents (Elt Ideal))
  (x2 : (⟨S4x256x128, .f32⟩ : BufTy).Contents (Elt Ideal)) (x3 : (⟨S128, .f32⟩ : BufTy).Contents (Elt Ideal))
  (x4 : (⟨S4x128x128, .f32⟩ : BufTy).Contents (Elt Ideal)) (x5 : (⟨S128, .f32⟩ : BufTy).Contents (Elt Ideal))
  (x6 : (⟨S4x128x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal))

/-- Layer 3: features of width 128 to width 64, on the second layer's output and its three hop arrays. -/
theorem layer3 :
    ReadP.val_main_v202 (F := Ideal) x0 x1 x2 x3 x4 x5 x6 x7 =
      Dense.affineRelu
        (concatenate Cert.KernelIdeal.S10000x512 1
          [⟨Cert.KernelIdeal.S10000x128, ReadP.val_main_v144 (F := Ideal) x0 x1 x2 x3 x4 x5⟩,
           ⟨Cert.KernelIdeal.S10000x128, ReadP.val_main_v160 (F := Ideal) x0 x1 x2 x3 x4 x5⟩,
           ⟨Cert.KernelIdeal.S10000x128, ReadP.val_main_v177 (F := Ideal) x0 x1 x2 x3 x4 x5⟩,
           ⟨Cert.KernelIdeal.S10000x128, ReadP.val_main_v194 (F := Ideal) x0 x1 x2 x3 x4 x5⟩]
          Cert.KernelIdeal.Gen.concatenates_S10000x128_S10000x128_S10000x128_S10000x128_S10000x512_d1)
        (shapeCast Cert.KernelIdeal.S512x64 x6 Cert.KernelIdeal.Gen.shapeCasts_S4x128x64_S512x64)
        (shapeCast Cert.KernelIdeal.S1x64 x7 Cert.KernelIdeal.Gen.shapeCasts_S64_S1x64) := by
  refine layer_of_entries (n := 10000) (d := 128) (c := 64) (D := 512) rfl _ _ _ _ x6 x7 _ _ _ _ (fun p q => ?_)
  rw [ReadP.val_main_v202_apply, ReadP.val_main_v201_apply, ReadP.val_main_v198_apply, ReadP.val_main_v181_apply,
    ReadP.val_main_v164_apply, ReadP.val_main_v147_apply, ReadP.val_main_v163_apply, ReadP.val_main_v180_apply,
    ReadP.val_main_v197_apply, ReadP.val_main_v200_apply, ReadP.val_main_v199_apply, ReadP.val_main_call3_v0_apply,
    ReadP.val_main_call3_cst_apply]
  refine congrArg₂ max (congrArg₂ (· + ·) (congrArg₂ (· + ·) (congrArg₂ (· + ·) (congrArg₂ (· + ·) ?_ ?_) ?_) ?_) ?_) rfl
  · refine Finset.sum_congr rfl fun l _ => ?_
    rw [eq_ix2_of_val (ReadP.lidx_main_v147 (ix2 p q) l) p l rfl rfl]
    exact congrArg (ReadP.val_main_v144 (F := Ideal) x0 x1 x2 x3 x4 x5 (ix2 p l) * ·)
      (slab_apply 0 (by decide) x6 _ _ l q _ rfl rfl)
  · refine Finset.sum_congr rfl fun l _ => ?_
    rw [eq_ix2_of_val (ReadP.lidx_main_v163 (ix2 p q) l) p l rfl rfl]
    exact congrArg (ReadP.val_main_v160 (F := Ideal) x0 x1 x2 x3 x4 x5 (ix2 p l) * ·)
      (slab_apply 1 (by decide) x6 _ _ l q _ rfl rfl)
  · refine Finset.sum_congr rfl fun l _ => ?_
    rw [eq_ix2_of_val (ReadP.lidx_main_v180 (ix2 p q) l) p l rfl rfl]
    exact congrArg (ReadP.val_main_v177 (F := Ideal) x0 x1 x2 x3 x4 x5 (ix2 p l) * ·)
      (slab_apply 2 (by decide) x6 _ _ l q _ rfl rfl)
  · refine Finset.sum_congr rfl fun l _ => ?_
    rw [eq_ix2_of_val (ReadP.lidx_main_v197 (ix2 p q) l) p l rfl rfl]
    exact congrArg (ReadP.val_main_v194 (F := Ideal) x0 x1 x2 x3 x4 x5 (ix2 p l) * ·)
      (slab_apply 3 (by decide) x6 _ _ l q _ rfl rfl)
  · exact congrArg x7 (eq_ix1_of_val _ q rfl)

end Cert.RefLayers

end
-- ==== Proof.KLinks.lean ====
/-
  The kernel's buffers at each boundary of @main are the reference's stages.

  Both programs compute the edges' endpoints, the per-edge weight and every hop aggregate by the SAME host operations,
  so each such buffer of the kernel equals the reference's stage of the same meaning by unfolding both; what differs is
  only how a dense layer is computed.  Walking @main: the endpoints, the positive-degree mask and the inverse root of
  the degree after the first stretch; the degree normaliser after the outlined select (read against ANY contents, so
  that only the select's own wrapping is unfolded); then, for each layer, the stretch before its call read against any
  contents that hold the previous layer's output, the endpoints and the weights — giving the concatenated hop
  features, the re-laid weights and the bias row —, and the call's result, which is the dense step of those three
  arrays (the call's value) and therefore the reference's layer stage (the reference's layer as that dense step).
-/
import proofs.«106689_j32762010534267_1_alg».proof.Proof.KRun
import proofs.«106689_j32762010534267_1_alg».proof.Proof.KVal0
import proofs.«106689_j32762010534267_1_alg».proof.Proof.KVal1
import proofs.«106689_j32762010534267_1_alg».proof.Proof.KVal2
import proofs.«106689_j32762010534267_1_alg».proof.Proof.RefImports
import proofs.«106689_j32762010534267_1_alg».proof.Proof.RefLayer1
import proofs.«106689_j32762010534267_1_alg».proof.Proof.RefLayer2
import proofs.«106689_j32762010534267_1_alg».proof.Proof.RefLayer3

set_option maxRecDepth 65536

noncomputable section

namespace Cert.KernelIdeal.Lk

open Cert.KernelIdeal Cert.KernelIdeal.Gen Cert.KernelIdeal.Rg Cert.KernelIdeal.Rn
open Idealize.ShloMosaic Idealize.ShloMosaic.TcCoe Idealize.SL.Sem Idealize.ShloMosaic.StableHlo
open Cert.ReferenceIdeal.ReadP

/-- The fold of a concatenation of operation lists is the folds composed. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-! ## Each stretch against any contents -/

section Generic

variable (V : Valuation τ sig (Elt Ideal))

set_option maxHeartbeats 4000000 in
/-- The outlined select: the degree normaliser is the inverse root where the degree is positive and zero elsewhere. -/
theorem where_eq : after hostOps0_1 V (Proc.devRef .tc main_v13)
    = select (V (Proc.devRef .tc main_v9)) (V (Proc.devRef .tc main_v12)) (broadcastInDim S10000 ![] bcast_S_S10000 (id (V (Proc.devRef .tc main_cst_3)))) := by
  after_results_simp <;> rfl
set_option maxHeartbeats 4000000 in
theorem where_src : after hostOps0_1 V (Proc.devRef .tc main_v1) = V (Proc.devRef .tc main_v1) := by after_results_simp <;> rfl
set_option maxHeartbeats 4000000 in
theorem where_dst : after hostOps0_1 V (Proc.devRef .tc main_v3) = V (Proc.devRef .tc main_v3) := by after_results_simp <;> rfl

variable (x0 : (⟨S10000x256, .f32⟩ : BufTy).Contents (Elt Ideal)) (x1 : (⟨S2x320000, .i32⟩ : BufTy).Contents (Elt Ideal))
  (x2 : (⟨S4x256x128, .f32⟩ : BufTy).Contents (Elt Ideal)) (x3 : (⟨S128, .f32⟩ : BufTy).Contents (Elt Ideal))
  (x4 : (⟨S4x128x128, .f32⟩ : BufTy).Contents (Elt Ideal)) (x5 : (⟨S128, .f32⟩ : BufTy).Contents (Elt Ideal))
  (x6 : (⟨S4x128x64, .f32⟩ : BufTy).Contents (Elt Ideal)) (x7 : (⟨S64, .f32⟩ : BufTy).Contents (Elt Ideal))

/-! ### The first layer's stretch -/

set_option maxHeartbeats 16000000 in
/-- The per-edge weight. -/
theorem norm_of (hdis : V (Proc.devRef .tc main_v13) = val_main_v13 (F := Ideal) x1) (hs : V (Proc.devRef .tc main_v1) = val_main_v1 (F := Ideal) x1)
    (hd : V (Proc.devRef .tc main_v3) = val_main_v3 (F := Ideal) x1) :
    after hostOps0_2 V (Proc.devRef .tc main_v28) = val_main_v28 (F := Ideal) x1 := by
  after_results_simp <;> (try simp only [hdis, hs, hd]) <;> rfl
set_option maxHeartbeats 4000000 in
theorem keep02_src : after hostOps0_2 V (Proc.devRef .tc main_v1) = V (Proc.devRef .tc main_v1) := by after_results_simp <;> rfl
set_option maxHeartbeats 4000000 in
theorem keep02_dst : after hostOps0_2 V (Proc.devRef .tc main_v3) = V (Proc.devRef .tc main_v3) := by after_results_simp <;> rfl

/-- The stretch's last three operations: the concatenation and the two re-layings. -/
abbrev tail0 : List (HloOp τ sig (Elt Ideal)) :=
  [ StableHlo.nary ![main_arg0, main_v41, main_v54, main_v67] main_v68 (fun u => concatenate S10000x1024 1 [⟨S10000x256, u 0⟩, ⟨S10000x256, u 1⟩, ⟨S10000x256, u 2⟩, ⟨S10000x256, u 3⟩] concatenates_S10000x256_S10000x256_S10000x256_S10000x256_S10000x1024_d1),
    StableHlo.reshape main_arg2 main_v69 rfl shapeCasts_S4x256x128_S1024x128,
    StableHlo.reshape main_arg3 main_v70 rfl shapeCasts_S128_S1x128 ]
set_option maxHeartbeats 4000000 in
theorem split0 : (hostOps0_2 : List (HloOp τ sig (Elt Ideal))) = hostOps0_2.take 67 ++ tail0 :=
  (List.take_append_drop 67 hostOps0_2).symm.trans (congrArg _ (rfl : List.drop 67 hostOps0_2 = tail0))
theorem hsplit0 : after hostOps0_2 V = after tail0 (after (hostOps0_2.take 67) V) :=
  (congrArg (fun l => after l V) split0).trans (after_append _ _ _)
set_option maxHeartbeats 4000000 in
/-- The concatenation reads its four operands where the operations before it left them. -/
theorem tail0_cat : after tail0 V (Proc.devRef .tc main_v68) = concatenate S10000x1024 1 [⟨S10000x256, V (Proc.devRef .tc main_arg0)⟩,
      ⟨S10000x256, V (Proc.devRef .tc main_v41)⟩, ⟨S10000x256, V (Proc.devRef .tc main_v54)⟩, ⟨S10000x256, V (Proc.devRef .tc main_v67)⟩]
      concatenates_S10000x256_S10000x256_S10000x256_S10000x256_S10000x1024_d1 := by
  after_results_simp <;> rfl
set_option maxHeartbeats 4000000 in
theorem tail0_k0 : after tail0 V (Proc.devRef .tc main_arg0) = V (Proc.devRef .tc main_arg0) := by after_results_simp <;> rfl
set_option maxHeartbeats 4000000 in
theorem tail0_k1 : after tail0 V (Proc.devRef .tc main_v41) = V (Proc.devRef .tc main_v41) := by after_results_simp <;> rfl
set_option maxHeartbeats 4000000 in
theorem tail0_k2 : after tail0 V (Proc.devRef .tc main_v54) = V (Proc.devRef .tc main_v54) := by after_results_simp <;> rfl
set_option maxHeartbeats 4000000 in
theorem tail0_k3 : after tail0 V (Proc.devRef .tc main_v67) = V (Proc.devRef .tc main_v67) := by after_results_simp <;> rfl
/-- The concatenated buffer is its four operands' buffers side by side, all read after the whole stretch. -/
theorem cat0_eq : after hostOps0_2 V (Proc.devRef .tc main_v68) = concatenate S10000x1024 1 [⟨S10000x256, after hostOps0_2 V (Proc.devRef .tc main_arg0)⟩,
      ⟨S10000x256, after hostOps0_2 V (Proc.devRef .tc main_v41)⟩, ⟨S10000x256, after hostOps0_2 V (Proc.devRef .tc main_v54)⟩,
      ⟨S10000x256, after hostOps0_2 V (Proc.devRef .tc main_v67)⟩] concatenates_S10000x256_S10000x256_S10000x256_S10000x256_S10000x1024_d1 := by
  rw [hsplit0 V, tail0_cat, tail0_k0, tail0_k1, tail0_k2, tail0_k3]
set_option maxHeartbeats 4000000 in
theorem keep02_x : after hostOps0_2 V (Proc.devRef .tc main_arg0) = V (Proc.devRef .tc main_arg0) := by after_results_simp <;> rfl
set_option maxHeartbeats 32000000 in
/-- The three hop aggregates of the features. -/
theorem hop01_of (h0 : V (Proc.devRef .tc main_arg0) = x0) (hdis : V (Proc.devRef .tc main_v13) = val_main_v13 (F := Ideal) x1)
    (hs : V (Proc.devRef .tc main_v1) = val_main_v1 (F := Ideal) x1) (hd : V (Proc.devRef .tc main_v3) = val_main_v3 (F := Ideal) x1) :
    after hostOps0_2 V (Proc.devRef .tc main_v41) = val_main_v44 (F := Ideal) x0 x1 := by
  subst h0
  after_results_simp <;> (try simp only [hdis, hs, hd]) <;> rfl
set_option maxHeartbeats 32000000 in
theorem hop02_of (h0 : V (Proc.devRef .tc main_arg0) = x0) (hdis : V (Proc.devRef .tc main_v13) = val_main_v13 (F := Ideal) x1)
    (hs : V (Proc.devRef .tc main_v1) = val_main_v1 (F := Ideal) x1) (hd : V (Proc.devRef .tc main_v3) = val_main_v3 (F := Ideal) x1) :
    after hostOps0_2 V (Proc.devRef .tc main_v54) = val_main_v61 (F := Ideal) x0 x1 := by
  subst h0
  after_results_simp <;> (try simp only [hdis, hs, hd]) <;> rfl
set_option maxHeartbeats 64000000 in
theorem hop03_of (h0 : V (Proc.devRef .tc main_arg0) = x0) (hdis : V (Proc.devRef .tc main_v13) = val_main_v13 (F := Ideal) x1)
    (hs : V (Proc.devRef .tc main_v1) = val_main_v1 (F := Ideal) x1) (hd : V (Proc.devRef .tc main_v3) = val_main_v3 (F := Ideal) x1) :
    after hostOps0_2 V (Proc.devRef .tc main_v67) = val_main_v78 (F := Ideal) x0 x1 := by
  subst h0
  after_results_simp <;> (try simp only [hdis, hs, hd]) <;> rfl
/-- The features and their three hop aggregates, side by side. -/
theorem xcat0_of (h0 : V (Proc.devRef .tc main_arg0) = x0) (hdis : V (Proc.devRef .tc main_v13) = val_main_v13 (F := Ideal) x1)
    (hs : V (Proc.devRef .tc main_v1) = val_main_v1 (F := Ideal) x1) (hd : V (Proc.devRef .tc main_v3) = val_main_v3 (F := Ideal) x1) :
    after hostOps0_2 V (Proc.devRef .tc main_v68) = concatenate S10000x1024 1 [⟨S10000x256, x0⟩, ⟨S10000x256, val_main_v44 (F := Ideal) x0 x1⟩,
      ⟨S10000x256, val_main_v61 (F := Ideal) x0 x1⟩, ⟨S10000x256, val_main_v78 (F := Ideal) x0 x1⟩]
      concatenates_S10000x256_S10000x256_S10000x256_S10000x256_S10000x1024_d1 := by
  rw [cat0_eq V, keep02_x V, hop01_of V x0 x1 h0 hdis hs hd, hop02_of V x0 x1 h0 hdis hs hd, hop03_of V x0 x1 h0 hdis hs hd, h0]
set_option maxHeartbeats 4000000 in
theorem wflat0_of (h2 : V (Proc.devRef .tc main_arg2) = x2) :
    after hostOps0_2 V (Proc.devRef .tc main_v69) = shapeCast S1024x128 x2 shapeCasts_S4x256x128_S1024x128 := by
  subst h2
  after_results_simp <;> rfl
set_option maxHeartbeats 4000000 in
theorem brow0_of (h3 : V (Proc.devRef .tc main_arg3) = x3) :
    after hostOps0_2 V (Proc.devRef .tc main_v70) = shapeCast S1x128 x3 shapeCasts_S128_S1x128 := by
  subst h3
  after_results_simp <;> rfl

/-! ### The second layer's stretch -/

abbrev tail1 : List (HloOp τ sig (Elt Ideal)) :=
  [ StableHlo.nary ![main_v71, main_v84, main_v97, main_v110] main_v111 (fun u => concatenate S10000x512 1 [⟨S10000x128, u 0⟩, ⟨S10000x128, u 1⟩, ⟨S10000x128, u 2⟩, ⟨S10000x128, u 3⟩] concatenates_S10000x128_S10000x128_S10000x128_S10000x128_S10000x512_d1),
    StableHlo.reshape main_arg4 main_v112 rfl shapeCasts_S4x128x128_S512x128,
    StableHlo.reshape main_arg5 main_v113 rfl shapeCasts_S128_S1x128 ]
set_option maxHeartbeats 4000000 in
theorem split1 : (hostOps1 : List (HloOp τ sig (Elt Ideal))) = hostOps1.take 48 ++ tail1 :=
  (List.take_append_drop 48 hostOps1).symm.trans (congrArg _ (rfl : List.drop 48 hostOps1 = tail1))
theorem hsplit1 : after hostOps1 V = after tail1 (after (hostOps1.take 48) V) :=
  (congrArg (fun l => after l V) split1).trans (after_append _ _ _)
set_option maxHeartbeats 4000000 in
theorem tail1_cat : after tail1 V (Proc.devRef .tc main_v111) = concatenate S10000x512 1 [⟨S10000x128, V (Proc.devRef .tc main_v71)⟩,
      ⟨S10000x128, V (Proc.devRef .tc main_v84)⟩, ⟨S10000x128, V (Proc.devRef .tc main_v97)⟩, ⟨S10000x128, V (Proc.devRef .tc main_v110)⟩]
      concatenates_S10000x128_S10000x128_S10000x128_S10000x128_S10000x512_d1 := by
  after_results_simp <;> rfl
set_option maxHeartbeats 4000000 in
theorem tail1_k0 : after tail1 V (Proc.devRef .tc main_v71) = V (Proc.devRef .tc main_v71) := by after_results_simp <;> rfl
set_option maxHeartbeats 4000000 in
theorem tail1_k1 : after tail1 V (Proc.devRef .tc main_v84) = V (Proc.devRef .tc main_v84) := by after_results_simp <;> rfl
set_option maxHeartbeats 4000000 in
theorem tail1_k2 : after tail1 V (Proc.devRef .tc main_v97) = V (Proc.devRef .tc main_v97) := by after_results_simp <;> rfl
set_option maxHeartbeats 4000000 in
theorem tail1_k3 : after tail1 V (Proc.devRef .tc main_v110) = V (Proc.devRef .tc main_v110) := by after_results_simp <;> rfl
theorem cat1_eq : after hostOps1 V (Proc.devRef .tc main_v111) = concatenate S10000x512 1 [⟨S10000x128, after hostOps1 V (Proc.devRef .tc main_v71)⟩,
      ⟨S10000x128, after hostOps1 V (Proc.devRef .tc main_v84)⟩, ⟨S10000x128, after hostOps1 V (Proc.devRef .tc main_v97)⟩,
      ⟨S10000x128, after hostOps1 V (Proc.devRef .tc main_v110)⟩] concatenates_S10000x128_S10000x128_S10000x128_S10000x128_S10000x512_d1 := by
  rw [hsplit1 V, tail1_cat, tail1_k0, tail1_k1, tail1_k2, tail1_k3]
set_option maxHeartbeats 4000000 in
theorem keep1_h : after hostOps1 V (Proc.devRef .tc main_v71) = V (Proc.devRef .tc main_v71) := by after_results_simp <;> rfl
set_option maxHeartbeats 32000000 in
theorem hop11_of (hh : V (Proc.devRef .tc main_v71) = val_main_v86 (F := Ideal) x0 x1 x2 x3) (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps1 V (Proc.devRef .tc main_v84) = val_main_v102 (F := Ideal) x0 x1 x2 x3 := by
  after_results_simp <;> (try simp only [hh, hn, hs, hd]) <;> rfl
set_option maxHeartbeats 32000000 in
theorem hop12_of (hh : V (Proc.devRef .tc main_v71) = val_main_v86 (F := Ideal) x0 x1 x2 x3) (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps1 V (Proc.devRef .tc main_v97) = val_main_v119 (F := Ideal) x0 x1 x2 x3 := by
  after_results_simp <;> (try simp only [hh, hn, hs, hd]) <;> rfl
set_option maxHeartbeats 64000000 in
theorem hop13_of (hh : V (Proc.devRef .tc main_v71) = val_main_v86 (F := Ideal) x0 x1 x2 x3) (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps1 V (Proc.devRef .tc main_v110) = val_main_v136 (F := Ideal) x0 x1 x2 x3 := by
  after_results_simp <;> (try simp only [hh, hn, hs, hd]) <;> rfl
theorem xcat1_of (hh : V (Proc.devRef .tc main_v71) = val_main_v86 (F := Ideal) x0 x1 x2 x3)
    (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps1 V (Proc.devRef .tc main_v111) = concatenate S10000x512 1 [⟨S10000x128, val_main_v86 (F := Ideal) x0 x1 x2 x3⟩,
      ⟨S10000x128, val_main_v102 (F := Ideal) x0 x1 x2 x3⟩, ⟨S10000x128, val_main_v119 (F := Ideal) x0 x1 x2 x3⟩,
      ⟨S10000x128, val_main_v136 (F := Ideal) x0 x1 x2 x3⟩] concatenates_S10000x128_S10000x128_S10000x128_S10000x128_S10000x512_d1 := by
  rw [cat1_eq V, keep1_h V, hop11_of V x0 x1 x2 x3 hh hn hs hd, hop12_of V x0 x1 x2 x3 hh hn hs hd, hop13_of V x0 x1 x2 x3 hh hn hs hd, hh]
set_option maxHeartbeats 4000000 in
theorem wflat1_of (h4 : V (Proc.devRef .tc main_arg4) = x4) :
    after hostOps1 V (Proc.devRef .tc main_v112) = shapeCast S512x128 x4 shapeCasts_S4x128x128_S512x128 := by
  subst h4
  after_results_simp <;> rfl
set_option maxHeartbeats 4000000 in
theorem brow1_of (h5 : V (Proc.devRef .tc main_arg5) = x5) :
    after hostOps1 V (Proc.devRef .tc main_v113) = shapeCast S1x128 x5 shapeCasts_S128_S1x128 := by
  subst h5
  after_results_simp <;> rfl
set_option maxHeartbeats 4000000 in
theorem keep1_src : after hostOps1 V (Proc.devRef .tc main_v1) = V (Proc.devRef .tc main_v1) := by after_results_simp <;> rfl
set_option maxHeartbeats 4000000 in
theorem keep1_dst : after hostOps1 V (Proc.devRef .tc main_v3) = V (Proc.devRef .tc main_v3) := by after_results_simp <;> rfl
set_option maxHeartbeats 4000000 in
theorem keep1_norm : after hostOps1 V (Proc.devRef .tc main_v28) = V (Proc.devRef .tc main_v28) := by after_results_simp <;> rfl

/-! ### The third layer's stretch -/

abbrev tail2 : List (HloOp τ sig (Elt Ideal)) :=
  [ StableHlo.nary ![main_v114, main_v127, main_v140, main_v153] main_v154 (fun u => concatenate S10000x512 1 [⟨S10000x128, u 0⟩, ⟨S10000x128, u 1⟩, ⟨S10000x128, u 2⟩, ⟨S10000x128, u 3⟩] concatenates_S10000x128_S10000x128_S10000x128_S10000x128_S10000x512_d1),
    StableHlo.reshape main_arg6 main_v155 rfl shapeCasts_S4x128x64_S512x64,
    StableHlo.reshape main_arg7 main_v156 rfl shapeCasts_S64_S1x64 ]
set_option maxHeartbeats 4000000 in
theorem split2 : (hostOps2 : List (HloOp τ sig (Elt Ideal))) = hostOps2.take 48 ++ tail2 :=
  (List.take_append_drop 48 hostOps2).symm.trans (congrArg _ (rfl : List.drop 48 hostOps2 = tail2))
theorem hsplit2 : after hostOps2 V = after tail2 (after (hostOps2.take 48) V) :=
  (congrArg (fun l => after l V) split2).trans (after_append _ _ _)
set_option maxHeartbeats 4000000 in
theorem tail2_cat : after tail2 V (Proc.devRef .tc main_v154) = concatenate S10000x512 1 [⟨S10000x128, V (Proc.devRef .tc main_v114)⟩,
      ⟨S10000x128, V (Proc.devRef .tc main_v127)⟩, ⟨S10000x128, V (Proc.devRef .tc main_v140)⟩, ⟨S10000x128, V (Proc.devRef .tc main_v153)⟩]
      concatenates_S10000x128_S10000x128_S10000x128_S10000x128_S10000x512_d1 := by
  after_results_simp <;> rfl
set_option maxHeartbeats 4000000 in
theorem tail2_k0 : after tail2 V (Proc.devRef .tc main_v114) = V (Proc.devRef .tc main_v114) := by after_results_simp <;> rfl
set_option maxHeartbeats 4000000 in
theorem tail2_k1 : after tail2 V (Proc.devRef .tc main_v127) = V (Proc.devRef .tc main_v127) := by after_results_simp <;> rfl
set_option maxHeartbeats 4000000 in
theorem tail2_k2 : after tail2 V (Proc.devRef .tc main_v140) = V (Proc.devRef .tc main_v140) := by after_results_simp <;> rfl
set_option maxHeartbeats 4000000 in
theorem tail2_k3 : after tail2 V (Proc.devRef .tc main_v153) = V (Proc.devRef .tc main_v153) := by after_results_simp <;> rfl
theorem cat2_eq : after hostOps2 V (Proc.devRef .tc main_v154) = concatenate S10000x512 1 [⟨S10000x128, after hostOps2 V (Proc.devRef .tc main_v114)⟩,
      ⟨S10000x128, after hostOps2 V (Proc.devRef .tc main_v127)⟩, ⟨S10000x128, after hostOps2 V (Proc.devRef .tc main_v140)⟩,
      ⟨S10000x128, after hostOps2 V (Proc.devRef .tc main_v153)⟩] concatenates_S10000x128_S10000x128_S10000x128_S10000x128_S10000x512_d1 := by
  rw [hsplit2 V, tail2_cat, tail2_k0, tail2_k1, tail2_k2, tail2_k3]
set_option maxHeartbeats 4000000 in
theorem keep2_h : after hostOps2 V (Proc.devRef .tc main_v114) = V (Proc.devRef .tc main_v114) := by after_results_simp <;> rfl
set_option maxHeartbeats 32000000 in
theorem hop21_of (hh : V (Proc.devRef .tc main_v114) = val_main_v144 (F := Ideal) x0 x1 x2 x3 x4 x5) (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps2 V (Proc.devRef .tc main_v127) = val_main_v160 (F := Ideal) x0 x1 x2 x3 x4 x5 := by
  after_results_simp <;> (try simp only [hh, hn, hs, hd]) <;> rfl
set_option maxHeartbeats 32000000 in
theorem hop22_of (hh : V (Proc.devRef .tc main_v114) = val_main_v144 (F := Ideal) x0 x1 x2 x3 x4 x5) (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps2 V (Proc.devRef .tc main_v140) = val_main_v177 (F := Ideal) x0 x1 x2 x3 x4 x5 := by
  after_results_simp <;> (try simp only [hh, hn, hs, hd]) <;> rfl
set_option maxHeartbeats 64000000 in
theorem hop23_of (hh : V (Proc.devRef .tc main_v114) = val_main_v144 (F := Ideal) x0 x1 x2 x3 x4 x5) (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps2 V (Proc.devRef .tc main_v153) = val_main_v194 (F := Ideal) x0 x1 x2 x3 x4 x5 := by
  after_results_simp <;> (try simp only [hh, hn, hs, hd]) <;> rfl
theorem xcat2_of (hh : V (Proc.devRef .tc main_v114) = val_main_v144 (F := Ideal) x0 x1 x2 x3 x4 x5)
    (hn : V (Proc.devRef .tc main_v28) = val_main_v28 (F := Ideal) x1)
    (hs : V (Proc.devRef .tc main_v1) = val_main_v1 (F := Ideal) x1) (hd : V (Proc.devRef .tc main_v3) = val_main_v3 (F := Ideal) x1) :
    after hostOps2 V (Proc.devRef .tc main_v154) = concatenate S10000x512 1 [⟨S10000x128, val_main_v144 (F := Ideal) x0 x1 x2 x3 x4 x5⟩,
      ⟨S10000x128, val_main_v160 (F := Ideal) x0 x1 x2 x3 x4 x5⟩, ⟨S10000x128, val_main_v177 (F := Ideal) x0 x1 x2 x3 x4 x5⟩,
      ⟨S10000x128, val_main_v194 (F := Ideal) x0 x1 x2 x3 x4 x5⟩] concatenates_S10000x128_S10000x128_S10000x128_S10000x128_S10000x512_d1 := by
  rw [cat2_eq V, keep2_h V, hop21_of V x0 x1 x2 x3 x4 x5 hh hn hs hd, hop22_of V x0 x1 x2 x3 x4 x5 hh hn hs hd,
    hop23_of V x0 x1 x2 x3 x4 x5 hh hn hs hd, hh]
set_option maxHeartbeats 4000000 in
theorem wflat2_of (h6 : V (Proc.devRef .tc main_arg6) = x6) :
    after hostOps2 V (Proc.devRef .tc main_v155) = shapeCast S512x64 x6 shapeCasts_S4x128x64_S512x64 := by
  subst h6
  after_results_simp <;> rfl
set_option maxHeartbeats 4000000 in
theorem brow2_of (h7 : V (Proc.devRef .tc main_arg7) = x7) :
    after hostOps2 V (Proc.devRef .tc main_v156) = shapeCast S1x64 x7 shapeCasts_S64_S1x64 := by
  subst h7
  after_results_simp <;> rfl

end Generic

/-! ## Along @main -/

variable (m : (ℓ : Loc nD τ sig) → Buf (Elt Ideal) ℓ) (ρ : Dev nD → PrngReg) (c : Dev nD)

/-- The arguments at the boundaries that read them are as launched. -/
theorem arg_at2 (r : Ref sig .tc) (hr : r ∈ args) : W2 m ρ c (Proc.devRef .tc r) = m ((c : Thread nD τ).loc r) :=
  (after_keeps hostOps0_1 _ keeps0_1 r hr).trans ((after_keeps hostOps0 _ keeps0 r hr).trans rfl)
theorem arg_at4 (r : Ref sig .tc) (hr : r ∈ args) : W4 m ρ c (Proc.devRef .tc r) = m ((c : Thread nD τ).loc r) :=
  (call0_keeps m ρ c r hr).trans ((after_keeps hostOps0_2 _ keeps0_2 r hr).trans (arg_at2 m ρ c r hr))
theorem arg_at6 (r : Ref sig .tc) (hr : r ∈ args) : W6 m ρ c (Proc.devRef .tc r) = m ((c : Thread nD τ).loc r) :=
  (call1_keeps m ρ c r hr).trans ((after_keeps hostOps1 _ keeps1 r hr).trans (arg_at4 m ρ c r hr))

/-! ### Up to the degree normaliser -/

set_option maxHeartbeats 4000000 in
theorem src1 : W1 m ρ c (Proc.devRef .tc main_v1) = val_main_v1 (F := Ideal) (m ((c : Thread nD τ).loc main_arg1)) := by after_results_simp <;> rfl
set_option maxHeartbeats 4000000 in
theorem dst1 : W1 m ρ c (Proc.devRef .tc main_v3) = val_main_v3 (F := Ideal) (m ((c : Thread nD τ).loc main_arg1)) := by after_results_simp <;> rfl
set_option maxHeartbeats 4000000 in
theorem pos1 : W1 m ρ c (Proc.devRef .tc main_v9) = val_main_v9 (F := Ideal) (m ((c : Thread nD τ).loc main_arg1)) := by after_results_simp <;> rfl
set_option maxHeartbeats 4000000 in
theorem inv1 : W1 m ρ c (Proc.devRef .tc main_v12) = val_main_v12 (F := Ideal) (m ((c : Thread nD τ).loc main_arg1)) := by after_results_simp <;> rfl
set_option maxHeartbeats 4000000 in
theorem zero1 : W1 m ρ c (Proc.devRef .tc main_cst_3) = constant (F := Ideal) S_ .f32 0x00000000#32 := by after_results_simp <;> rfl

theorem dis2 : W2 m ρ c (Proc.devRef .tc main_v13) = val_main_v13 (F := Ideal) (m ((c : Thread nD τ).loc main_arg1)) :=
  (where_eq (W1 m ρ c)).trans (by rw [pos1 m ρ c, inv1 m ρ c, zero1 m ρ c]; rfl)
theorem src2 : W2 m ρ c (Proc.devRef .tc main_v1) = val_main_v1 (F := Ideal) (m ((c : Thread nD τ).loc main_arg1)) := (where_src (W1 m ρ c)).trans (src1 m ρ c)
theorem dst2 : W2 m ρ c (Proc.devRef .tc main_v3) = val_main_v3 (F := Ideal) (m ((c : Thread nD τ).loc main_arg1)) := (where_dst (W1 m ρ c)).trans (dst1 m ρ c)

/-! ### The first layer -/

theorem norm3 : W3 m ρ c (Proc.devRef .tc main_v28) = val_main_v28 (F := Ideal) (m ((c : Thread nD τ).loc main_arg1)) :=
  norm_of (W2 m ρ c) _ (dis2 m ρ c) (src2 m ρ c) (dst2 m ρ c)
theorem src3 : W3 m ρ c (Proc.devRef .tc main_v1) = val_main_v1 (F := Ideal) (m ((c : Thread nD τ).loc main_arg1)) := (keep02_src (W2 m ρ c)).trans (src2 m ρ c)
theorem dst3 : W3 m ρ c (Proc.devRef .tc main_v3) = val_main_v3 (F := Ideal) (m ((c : Thread nD τ).loc main_arg1)) := (keep02_dst (W2 m ρ c)).trans (dst2 m ρ c)
theorem xcat3 : W3 m ρ c (Proc.devRef .tc main_v68) = concatenate S10000x1024 1 [⟨S10000x256, (m ((c : Thread nD τ).loc main_arg0))⟩, ⟨S10000x256, val_main_v44 (F := Ideal) (m ((c : Thread nD τ).loc main_arg0)) (m ((c : Thread nD τ).loc main_arg1))⟩,
      ⟨S10000x256, val_main_v61 (F := Ideal) (m ((c : Thread nD τ).loc main_arg0)) (m ((c : Thread nD τ).loc main_arg1))⟩, ⟨S10000x256, val_main_v78 (F := Ideal) (m ((c : Thread nD τ).loc main_arg0)) (m ((c : Thread nD τ).loc main_arg1))⟩]
      concatenates_S10000x256_S10000x256_S10000x256_S10000x256_S10000x1024_d1 :=
  xcat0_of (W2 m ρ c) _ _ (arg_at2 m ρ c main_arg0 (by decide)) (dis2 m ρ c) (src2 m ρ c) (dst2 m ρ c)
theorem wflat3 : W3 m ρ c (Proc.devRef .tc main_v69) = shapeCast S1024x128 (m ((c : Thread nD τ).loc main_arg2)) shapeCasts_S4x256x128_S1024x128 :=
  wflat0_of (W2 m ρ c) _ (arg_at2 m ρ c main_arg2 (by decide))
theorem brow3 : W3 m ρ c (Proc.devRef .tc main_v70) = shapeCast S1x128 (m ((c : Thread nD τ).loc main_arg3)) shapeCasts_S128_S1x128 :=
  brow0_of (W2 m ρ c) _ (arg_at2 m ρ c main_arg3 (by decide))

/-- The first call's result is the reference's first-layer stage. -/
theorem layer1_at4 : W4 m ρ c (Proc.devRef .tc main_v71) = val_main_v86 (F := Ideal) (m ((c : Thread nD τ).loc main_arg0)) (m ((c : Thread nD τ).loc main_arg1)) (m ((c : Thread nD τ).loc main_arg2)) (m ((c : Thread nD τ).loc main_arg3)) := by
  refine (W4_arr m ρ c 3).trans ((RgVal.final0 (V3 m ρ) c).trans ?_)
  show Dense.affineRelu (n := 10000) (k := 1024) (c := 128) (W3 m ρ c (Proc.devRef .tc main_v68)) (W3 m ρ c (Proc.devRef .tc main_v69))
    (W3 m ρ c (Proc.devRef .tc main_v70)) = _
  rw [xcat3 m ρ c, wflat3 m ρ c, brow3 m ρ c]
  exact (Cert.RefLayers.layer1 _ _ _ _).symm
theorem norm4 : W4 m ρ c (Proc.devRef .tc main_v28) = val_main_v28 (F := Ideal) (m ((c : Thread nD τ).loc main_arg1)) := (W4_of_ne m ρ c main_v28 (by decide)).trans (norm3 m ρ c)
theorem src4 : W4 m ρ c (Proc.devRef .tc main_v1) = val_main_v1 (F := Ideal) (m ((c : Thread nD τ).loc main_arg1)) := (W4_of_ne m ρ c main_v1 (by decide)).trans (src3 m ρ c)
theorem dst4 : W4 m ρ c (Proc.devRef .tc main_v3) = val_main_v3 (F := Ideal) (m ((c : Thread nD τ).loc main_arg1)) := (W4_of_ne m ρ c main_v3 (by decide)).trans (dst3 m ρ c)

/-! ### The second layer -/

theorem xcat5 : W5 m ρ c (Proc.devRef .tc main_v111) = concatenate S10000x512 1 [⟨S10000x128, val_main_v86 (F := Ideal) (m ((c : Thread nD τ).loc main_arg0)) (m ((c : Thread nD τ).loc main_arg1)) (m ((c : Thread nD τ).loc main_arg2)) (m ((c : Thread nD τ).loc main_arg3))⟩,
      ⟨S10000x128, val_main_v102 (F := Ideal) (m ((c : Thread nD τ).loc main_arg0)) (m ((c : Thread nD τ).loc main_arg1)) (m ((c : Thread nD τ).loc main_arg2)) (m ((c : Thread nD τ).loc main_arg3))⟩, ⟨S10000x128, val_main_v119 (F := Ideal) (m ((c : Thread nD τ).loc main_arg0)) (m ((c : Thread nD τ).loc main_arg1)) (m ((c : Thread nD τ).loc main_arg2)) (m ((c : Thread nD τ).loc main_arg3))⟩,
      ⟨S10000x128, val_main_v136 (F := Ideal) (m ((c : Thread nD τ).loc main_arg0)) (m ((c : Thread nD τ).loc main_arg1)) (m ((c : Thread nD τ).loc main_arg2)) (m ((c : Thread nD τ).loc main_arg3))⟩] concatenates_S10000x128_S10000x128_S10000x128_S10000x128_S10000x512_d1 :=
  xcat1_of (W4 m ρ c) _ _ _ _ (layer1_at4 m ρ c) (norm4 m ρ c) (src4 m ρ c) (dst4 m ρ c)
theorem wflat5 : W5 m ρ c (Proc.devRef .tc main_v112) = shapeCast S512x128 (m ((c : Thread nD τ).loc main_arg4)) shapeCasts_S4x128x128_S512x128 :=
  wflat1_of (W4 m ρ c) _ (arg_at4 m ρ c main_arg4 (by decide))
theorem brow5 : W5 m ρ c (Proc.devRef .tc main_v113) = shapeCast S1x128 (m ((c : Thread nD τ).loc main_arg5)) shapeCasts_S128_S1x128 :=
  brow1_of (W4 m ρ c) _ (arg_at4 m ρ c main_arg5 (by decide))

/-- The second call's result is the reference's second-layer stage. -/
theorem layer2_at6 : W6 m ρ c (Proc.devRef .tc main_v114) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((RgVal.final1 (V5 m ρ) c).trans ?_)
  show Dense.affineRelu (n := 10000) (k := 512) (c := 128) (W5 m ρ c (Proc.devRef .tc main_v111)) (W5 m ρ c (Proc.devRef .tc main_v112))
    (W5 m ρ c (Proc.devRef .tc main_v113)) = _
  rw [xcat5 m ρ c, wflat5 m ρ c, brow5 m ρ c]
  exact (Cert.RefLayers.layer2 _ _ _ _ _ _).symm
theorem norm6 : W6 m ρ c (Proc.devRef .tc main_v28) = val_main_v28 (F := Ideal) (m ((c : Thread nD τ).loc main_arg1)) :=
  (W6_of_ne m ρ c main_v28 (by decide)).trans ((keep1_norm (W4 m ρ c)).trans (norm4 m ρ c))
theorem src6 : W6 m ρ c (Proc.devRef .tc main_v1) = val_main_v1 (F := Ideal) (m ((c : Thread nD τ).loc main_arg1)) :=
  (W6_of_ne m ρ c main_v1 (by decide)).trans ((keep1_src (W4 m ρ c)).trans (src4 m ρ c))
theorem dst6 : W6 m ρ c (Proc.devRef .tc main_v3) = val_main_v3 (F := Ideal) (m ((c : Thread nD τ).loc main_arg1)) :=
  (W6_of_ne m ρ c main_v3 (by decide)).trans ((keep1_dst (W4 m ρ c)).trans (dst4 m ρ c))

/-! ### The third layer -/

theorem xcat7 : W7 m ρ c (Proc.devRef .tc main_v154) = concatenate S10000x512 1 [⟨S10000x128, val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩,
      ⟨S10000x128, val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩, ⟨S10000x128, val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩,
      ⟨S10000x128, val_main_v194 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩] concatenates_S10000x128_S10000x128_S10000x128_S10000x128_S10000x512_d1 :=
  xcat2_of (W6 m ρ c) _ _ _ _ _ _ (layer2_at6 m ρ c) (norm6 m ρ c) (src6 m ρ c) (dst6 m ρ c)
theorem wflat7 : W7 m ρ c (Proc.devRef .tc main_v155) = shapeCast S512x64 (m ((c : Thread nD τ).loc main_arg6)) shapeCasts_S4x128x64_S512x64 :=
  wflat2_of (W6 m ρ c) _ (arg_at6 m ρ c main_arg6 (by decide))
theorem brow7 : W7 m ρ c (Proc.devRef .tc main_v156) = shapeCast S1x64 (m ((c : Thread nD τ).loc main_arg7)) shapeCasts_S64_S1x64 :=
  brow2_of (W6 m ρ c) _ (arg_at6 m ρ c main_arg7 (by decide))

/-- The third call's result is the reference's third-layer stage. -/
theorem layer3_at8 : W8 m ρ c (Proc.devRef .tc main_v157) = val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((RgVal.final2 (V7 m ρ) c).trans ?_)
  show Dense.affineRelu (n := 10000) (k := 512) (c := 64) (W7 m ρ c (Proc.devRef .tc main_v154)) (W7 m ρ c (Proc.devRef .tc main_v155))
    (W7 m ρ c (Proc.devRef .tc main_v156)) = _
  rw [xcat7 m ρ c, wflat7 m ρ c, brow7 m ρ c]
  exact (Cert.RefLayers.layer3 _ _ _ _ _ _ _ _).symm

end Cert.KernelIdeal.Lk

end
-- ==== Proof.KVal3.lean ====
/-
  The code projection, as one function of its three input arrays.

  Its ten grid points each take a thousand rows of the feature array, multiply them by the whole 64 × 64 matrix and
  add the bias row; point `t` writes rows `1000 t … 1000 t + 999` of the output array.  Read at an entry, the body's
  value is the sum over the contracted axis of the feature row times the matrix column, plus the bias entry: the
  product runs into a zero accumulator, so it is the plain sum.  A block of an input at point `t` is the array read at
  block index × block size + the coordinate inside the block; the feature rows' block index is `t`, the matrix's and
  the bias row's is zero.  So every point writes its rows of ONE function of the three arrays, `Dense.affine`, and the
  ten blocks cover the output array (row `r` is in the block of point `r / 1000`): after the step the array is
  `Dense.affine` of the feature array, the matrix and the bias row.
-/
import proofs.«106689_j32762010534267_1_alg».proof.Proof.KReg3
import proofs.«106689_j32762010534267_1_alg».proof.Proof.DenseSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RgVal

open Cert.KernelIdeal Cert.KernelIdeal.Gen
open Idealize.ShloMosaic Idealize.ShloMosaic.TcCoe Idealize.ShloMosaic.ValueIdx
open Idealize.ShloMosaic.Pipeline (Dat)

/-! ## The body's value at an entry of its block -/

theorem mm3_lhs0 (i : S1000x64.Idx) (k : dot_S1000x64_S64x64_S1000x64_1_0_0_1_n_n.contr.Idx) :
    (dot_S1000x64_S64x64_S1000x64_1_0_0_1_n_n.lhsIdx i k 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl

theorem mm3_rhs1 (i : S1000x64.Idx) (k : dot_S1000x64_S64x64_S1000x64_1_0_0_1_n_n.contr.Idx) :
    (dot_S1000x64_S64x64_S1000x64_1_0_0_1_n_n.rhsIdx i k 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- A thousand rows against the 64 × 64 matrix, into a zero accumulator: entry `(p, q)` is the sum over the contracted
    axis of row `p` times column `q`. -/
theorem mm3_apply (l : FVec Ideal S1000x64 .f32) (r : FVec Ideal S64x64 .f32) (p : Fin 1000) (q : Fin 64) :
    matmul dot_S1000x64_S64x64_S1000x64_1_0_0_1_n_n none l r (constant S1000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 p q) ((ValueIdx.contrEquiv1 dot_S1000x64_S64x64_S1000x64_1_0_0_1_n_n 64 rfl rfl).symm k) = ix2 p k := funext fun a => Fin.ext (by
    match a with
    | ⟨0, _⟩ => exact mm3_lhs0 _ _
    | ⟨1, _⟩ => exact (dot_S1000x64_S64x64_S1000x64_1_0_0_1_n_n.lhsIdx_val_of_single rfl _ _).trans hk)
  have er : dot_S1000x64_S64x64_S1000x64_1_0_0_1_n_n.rhsIdx (ix2 p q) ((ValueIdx.contrEquiv1 dot_S1000x64_S64x64_S1000x64_1_0_0_1_n_n 64 rfl rfl).symm k) = ix2 k q := funext fun a => Fin.ext (by
    match a with
    | ⟨0, _⟩ => exact (dot_S1000x64_S64x64_S1000x64_1_0_0_1_n_n.rhsIdx_val_of_single rfl _ _).trans hk
    | ⟨1, _⟩ => exact mm3_rhs1 _ _)
  rw [el, er]

/-- The bias row repeated down the thousand rows: entry `(p, q)` is the row's entry `q`. -/
theorem bias3_apply (b : FVec Ideal S1x64 .f32) (p : Fin 1000) (q : Fin 64) :
    broadcastTo S1000x64 b broadcasts_S1x64_S1000x64 (ix2 p q) = b (ix2 (0 : Fin 1) q) :=
  broadcastTo_apply b broadcasts_S1x64_S1000x64 (ix2 p q) (ix2 (0 : Fin 1) q) (fun a => by
    match a with
    | ⟨0, _⟩ => rfl
    | ⟨1, _⟩ => rfl)

/-- The body's value at entry `(p, q)` of its block: row `p` of the feature block against column `q` of the matrix,
    plus the bias row's entry `q`. -/
theorem pay3_apply (v0 : Vec Ideal S1000x64 .f32) (v2 : Vec Ideal S64x64 .f32) (v4 : Vec Ideal S1x64 .f32) (p : Fin 1000) (q : Fin 64) :
    k3_pay1 (F := Ideal) v0 v2 v4 (ix2 p q) = (∑ l : Fin 64, v0 (ix2 p l) * v2 (ix2 l q)) + v4 (ix2 (0 : Fin 1) q) := by
  unfold k3_pay1
  simp only [shapeCast_self]
  refine (addf_apply _ _ _).trans ?_
  rw [mm3_apply, bias3_apply]

/-! ## From the blocks to the array -/

variable (V : (c : Dev nD) → (b : Ref sig .tc) → Buf (Elt Ideal) ((c : Thread nD τ).loc b))

theorem hz3 : (![0, 0] : Fin 2 → Nat) = fun _ => 0 := funext fun a => by fin_cases a <;> rfl

/-- The block indices over the ten points: the feature rows and the output rows move together, block `t` at point `t`;
    the matrix and the bias row stay at block zero. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry `(p, l)` of the feature block at point `t` is entry `(1000 t + p, l)` of the feature array. -/
theorem read3_0 (c : Dev nD) (t : Fin cfg3.N) (p : Fin 1000) (l : Fin 64) (i : S10000x64.Idx)
    (h0 : (i 0).val = 1000 * t.val + p.val) (h1 : (i 1).val = l.val) :
    Rg.iblk3 V c 0 t (ix2 p l) = V c (Pipeline.arrRef spec3 0) i := by
  obtain ⟨e0, e1, -⟩ := idx3 t
  unfold Rg.iblk3
  rw [View.read_apply]
  refine congrArg (V c (Pipeline.arrRef spec3 0)) (funext fun a => Fin.ext ?_)
  match a with
  | ⟨0, _⟩ => show win3_0.index t (0 : Fin 2) * 1000 + 1 * p.val = (i 0).val; omega
  | ⟨1, _⟩ => show win3_0.index t (1 : Fin 2) * 64 + 1 * l.val = (i 1).val; omega

/-- The matrix's block at every point is the matrix. -/
theorem read3_1 (c : Dev nD) (t : Fin cfg3.N) (l : Fin 64) (q : Fin 64) (i : S64x64.Idx)
    (h0 : (i 0).val = l.val) (h1 : (i 1).val = q.val) :
    Rg.iblk3 V c 1 t (ix2 l q) = V c (Pipeline.arrRef spec3 1) i := by
  obtain ⟨-, -, e2, e3, -⟩ := idx3 t
  unfold Rg.iblk3
  rw [View.read_apply]
  refine congrArg (V c (Pipeline.arrRef spec3 1)) (funext fun a => Fin.ext ?_)
  match a with
  | ⟨0, _⟩ => show win3_1.index t (0 : Fin 2) * 64 + 1 * l.val = (i 0).val; omega
  | ⟨1, _⟩ => show win3_1.index t (1 : Fin 2) * 64 + 1 * q.val = (i 1).val; omega

/-- The bias row's block at every point is the bias row. -/
theorem read3_2 (c : Dev nD) (t : Fin cfg3.N) (q : Fin 64) (i : S1x64.Idx)
    (h0 : (i 0).val = 0) (h1 : (i 1).val = q.val) :
    Rg.iblk3 V c 2 t (ix2 (0 : Fin 1) q) = V c (Pipeline.arrRef spec3 2) i := by
  obtain ⟨-, -, -, -, e4, e5, -⟩ := idx3 t
  unfold Rg.iblk3
  rw [View.read_apply]
  refine congrArg (V c (Pipeline.arrRef spec3 2)) (funext fun a => Fin.ext ?_)
  match a with
  | ⟨0, _⟩ => show win3_2.index t (0 : Fin 2) * 1 + 1 * (0 : Fin 1).val = (i 0).val; rw [h0, e4]; rfl
  | ⟨1, _⟩ => show win3_2.index t (1 : Fin 2) * 64 + 1 * q.val = (i 1).val; omega

/-- The projection of the whole feature array: every row against the matrix, plus the bias row. -/
abbrev whole3 (c : Dev nD) : S10000x64.Idx → EReal :=
  Dense.affine (V c (Pipeline.arrRef spec3 0)) (V c (Pipeline.arrRef spec3 1)) (V c (Pipeline.arrRef spec3 2))

/-- What point `t` writes back is rows `1000 t … 1000 t + 999` of the projection of the whole array. -/
theorem flushed3_eq (c : Dev nD) (t : Fin cfg3.N) :
    (Rg.dat3 (F := Ideal) V c).flushed 3 t = ((cfg3.win 3).blk t).view.read (Elt Ideal) (whole3 V c) := by
  show (cfg3.win 3).cut (grid3.coords t) ((Rg.dat3 (F := Ideal) V c).after 3 t) = _
  rw [Rg.after3_3]
  unfold Rg.out3_3
  rw [View.canon_unit_zero hz3]
  simp only [View.ld_unit_zero (S := S1000x64) hz3, View.ld_unit_zero (S := S64x64) hz3, View.ld_unit_zero (S := S1x64) hz3]
  obtain ⟨-, -, -, -, -, -, e6, e7⟩ := idx3 t
  funext j
  obtain ⟨p, q, rfl⟩ : ∃ (p : Fin 1000) (q : Fin 64), j = ix2 p q := ⟨j 0, j 1, eq_ix2 j⟩
  rw [View.read_apply]
  have hi0 : ((((cfg3.win 3).blk t).view.emb (ix2 p q)) 0).val = win3_3.index t (0 : Fin 2) * 1000 + 1 * p.val := rfl
  have hi1 : ((((cfg3.win 3).blk t).view.emb (ix2 p q)) 1).val = win3_3.index t (1 : Fin 2) * 64 + 1 * q.val := rfl
  refine (pay3_apply (Rg.iblk3 V c 0 t) (Rg.iblk3 V c 1 t) (Rg.iblk3 V c 2 t) p q).trans ?_
  refine congrArg₂ (· + ·) (Finset.sum_congr rfl fun l _ => congrArg₂ (· * ·) ?_ ?_) ?_
  · exact read3_0 V c t p l _ (by show ((((cfg3.win 3).blk t).view.emb (ix2 p q)) 0).val = _; omega) rfl
  · exact read3_1 V c t l q _ rfl (by show ((((cfg3.win 3).blk t).view.emb (ix2 p q)) 1).val = _; omega)
  · exact read3_2 V c t q _ rfl (by show ((((cfg3.win 3).blk t).view.emb (ix2 p q)) 1).val = _; omega)

/-- Row `r` of the output array lies in the block of point `r / 1000`. -/
theorem cover3 (i : S10000x64.Idx) : ∃ t : Fin cfg3.N, (cfg3.win 3).flush t = true ∧ i ∈ ((cfg3.win 3).blk t).view.set := by
  have h0 : (i 0).val < 10000 := (i 0).isLt
  have h1 : (i 1).val < 64 := (i 1).isLt
  have hN : grid3.N = 10 := N_3
  let t : Fin cfg3.N := ⟨(i 0).val / 1000, by show (i 0).val / 1000 < grid3.N; omega⟩
  obtain ⟨-, -, -, -, -, -, e6, e7⟩ := idx3 t
  have et : t.val = (i 0).val / 1000 := rfl
  refine ⟨t, flush3_3 t, ?_⟩
  show i ∈ ((View.whole main_v159).slice (win3_3.rect t)).set
  rw [View.set_slice_whole, Rect.mem_set_unit]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 64 ≤ (i 1).val ∧ (i 1).val < win3_3.index t (1 : Fin 2) * 64 + 64; omega

/-- The output array after the step: the projection of the whole feature array. -/
theorem final3 (c : Dev nD) :
    (Rg.dat3 (F := Ideal) V c).arrAt 3 cfg3.N
      = Dense.affine (V c (Pipeline.arrRef spec3 0)) (V c (Pipeline.arrRef spec3 1)) (V c (Pipeline.arrRef spec3 2)) :=
  (Rg.dat3 (F := Ideal) V c).arrAt_eq_of_cover 3 (whole3 V c) (fun t _ => flushed3_eq V c t) (cover3)

end Cert.KernelIdeal.RgVal

end
-- ==== Proof.KVal4.lean ====
/-
  The decoder-side projection, as one function of its three input arrays.

  Its ten grid points each take a thousand rows of the code array, multiply them by the whole 64 × 64 matrix and
  add the bias row; point `t` writes rows `1000 t … 1000 t + 999` of the output array.  Read at an entry, the body's
  value is the sum over the contracted axis of the feature row times the matrix column, plus the bias entry: the
  product runs into a zero accumulator, so it is the plain sum.  A block of an input at point `t` is the array read at
  block index × block size + the coordinate inside the block; the feature rows' block index is `t`, the matrix's and
  the bias row's is zero.  So every point writes its rows of ONE function of the three arrays, `Dense.affine`, and the
  ten blocks cover the output array (row `r` is in the block of point `r / 1000`): after the step the array is
  `Dense.affine` of the feature array, the matrix and the bias row.
-/
import proofs.«106689_j32762010534267_1_alg».proof.Proof.KReg4
import proofs.«106689_j32762010534267_1_alg».proof.Proof.DenseSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RgVal

open Cert.KernelIdeal Cert.KernelIdeal.Gen
open Idealize.ShloMosaic Idealize.ShloMosaic.TcCoe Idealize.ShloMosaic.ValueIdx
open Idealize.ShloMosaic.Pipeline (Dat)

/-! ## The body's value at an entry of its block -/

theorem mm4_lhs0 (i : S1000x64.Idx) (k : dot_S1000x64_S64x64_S1000x64_1_0_0_1_n_n.contr.Idx) :
    (dot_S1000x64_S64x64_S1000x64_1_0_0_1_n_n.lhsIdx i k 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl

theorem mm4_rhs1 (i : S1000x64.Idx) (k : dot_S1000x64_S64x64_S1000x64_1_0_0_1_n_n.contr.Idx) :
    (dot_S1000x64_S64x64_S1000x64_1_0_0_1_n_n.rhsIdx i k 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- A thousand rows against the 64 × 64 matrix, into a zero accumulator: entry `(p, q)` is the sum over the contracted
    axis of row `p` times column `q`. -/
theorem mm4_apply (l : FVec Ideal S1000x64 .f32) (r : FVec Ideal S64x64 .f32) (p : Fin 1000) (q : Fin 64) :
    matmul dot_S1000x64_S64x64_S1000x64_1_0_0_1_n_n none l r (constant S1000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 p q) ((ValueIdx.contrEquiv1 dot_S1000x64_S64x64_S1000x64_1_0_0_1_n_n 64 rfl rfl).symm k) = ix2 p k := funext fun a => Fin.ext (by
    match a with
    | ⟨0, _⟩ => exact mm4_lhs0 _ _
    | ⟨1, _⟩ => exact (dot_S1000x64_S64x64_S1000x64_1_0_0_1_n_n.lhsIdx_val_of_single rfl _ _).trans hk)
  have er : dot_S1000x64_S64x64_S1000x64_1_0_0_1_n_n.rhsIdx (ix2 p q) ((ValueIdx.contrEquiv1 dot_S1000x64_S64x64_S1000x64_1_0_0_1_n_n 64 rfl rfl).symm k) = ix2 k q := funext fun a => Fin.ext (by
    match a with
    | ⟨0, _⟩ => exact (dot_S1000x64_S64x64_S1000x64_1_0_0_1_n_n.rhsIdx_val_of_single rfl _ _).trans hk
    | ⟨1, _⟩ => exact mm4_rhs1 _ _)
  rw [el, er]

/-- The bias row repeated down the thousand rows: entry `(p, q)` is the row's entry `q`. -/
theorem bias4_apply (b : FVec Ideal S1x64 .f32) (p : Fin 1000) (q : Fin 64) :
    broadcastTo S1000x64 b broadcasts_S1x64_S1000x64 (ix2 p q) = b (ix2 (0 : Fin 1) q) :=
  broadcastTo_apply b broadcasts_S1x64_S1000x64 (ix2 p q) (ix2 (0 : Fin 1) q) (fun a => by
    match a with
    | ⟨0, _⟩ => rfl
    | ⟨1, _⟩ => rfl)

/-- The body's value at entry `(p, q)` of its block: row `p` of the feature block against column `q` of the matrix,
    plus the bias row's entry `q`. -/
theorem pay4_apply (v0 : Vec Ideal S1000x64 .f32) (v2 : Vec Ideal S64x64 .f32) (v4 : Vec Ideal S1x64 .f32) (p : Fin 1000) (q : Fin 64) :
    k4_pay1 (F := Ideal) v0 v2 v4 (ix2 p q) = (∑ l : Fin 64, v0 (ix2 p l) * v2 (ix2 l q)) + v4 (ix2 (0 : Fin 1) q) := by
  unfold k4_pay1
  simp only [shapeCast_self]
  refine (addf_apply _ _ _).trans ?_
  rw [mm4_apply, bias4_apply]

/-! ## From the blocks to the array -/

variable (V : (c : Dev nD) → (b : Ref sig .tc) → Buf (Elt Ideal) ((c : Thread nD τ).loc b))

theorem hz4 : (![0, 0] : Fin 2 → Nat) = fun _ => 0 := funext fun a => by fin_cases a <;> rfl

/-- The block indices over the ten points: the feature rows and the output rows move together, block `t` at point `t`;
    the matrix and the bias row stay at block zero. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Entry `(p, l)` of the feature block at point `t` is entry `(1000 t + p, l)` of the feature array. -/
theorem read4_0 (c : Dev nD) (t : Fin cfg4.N) (p : Fin 1000) (l : Fin 64) (i : S10000x64.Idx)
    (h0 : (i 0).val = 1000 * t.val + p.val) (h1 : (i 1).val = l.val) :
    Rg.iblk4 V c 0 t (ix2 p l) = V c (Pipeline.arrRef spec4 0) i := by
  obtain ⟨e0, e1, -⟩ := idx4 t
  unfold Rg.iblk4
  rw [View.read_apply]
  refine congrArg (V c (Pipeline.arrRef spec4 0)) (funext fun a => Fin.ext ?_)
  match a with
  | ⟨0, _⟩ => show win4_0.index t (0 : Fin 2) * 1000 + 1 * p.val = (i 0).val; omega
  | ⟨1, _⟩ => show win4_0.index t (1 : Fin 2) * 64 + 1 * l.val = (i 1).val; omega

/-- The matrix's block at every point is the matrix. -/
theorem read4_1 (c : Dev nD) (t : Fin cfg4.N) (l : Fin 64) (q : Fin 64) (i : S64x64.Idx)
    (h0 : (i 0).val = l.val) (h1 : (i 1).val = q.val) :
    Rg.iblk4 V c 1 t (ix2 l q) = V c (Pipeline.arrRef spec4 1) i := by
  obtain ⟨-, -, e2, e3, -⟩ := idx4 t
  unfold Rg.iblk4
  rw [View.read_apply]
  refine congrArg (V c (Pipeline.arrRef spec4 1)) (funext fun a => Fin.ext ?_)
  match a with
  | ⟨0, _⟩ => show win4_1.index t (0 : Fin 2) * 64 + 1 * l.val = (i 0).val; omega
  | ⟨1, _⟩ => show win4_1.index t (1 : Fin 2) * 64 + 1 * q.val = (i 1).val; omega

/-- The bias row's block at every point is the bias row. -/
theorem read4_2 (c : Dev nD) (t : Fin cfg4.N) (q : Fin 64) (i : S1x64.Idx)
    (h0 : (i 0).val = 0) (h1 : (i 1).val = q.val) :
    Rg.iblk4 V c 2 t (ix2 (0 : Fin 1) q) = V c (Pipeline.arrRef spec4 2) i := by
  obtain ⟨-, -, -, -, e4, e5, -⟩ := idx4 t
  unfold Rg.iblk4
  rw [View.read_apply]
  refine congrArg (V c (Pipeline.arrRef spec4 2)) (funext fun a => Fin.ext ?_)
  match a with
  | ⟨0, _⟩ => show win4_2.index t (0 : Fin 2) * 1 + 1 * (0 : Fin 1).val = (i 0).val; rw [h0, e4]; rfl
  | ⟨1, _⟩ => show win4_2.index t (1 : Fin 2) * 64 + 1 * q.val = (i 1).val; omega

/-- The projection of the whole feature array: every row against the matrix, plus the bias row. -/
abbrev whole4 (c : Dev nD) : S10000x64.Idx → EReal :=
  Dense.affine (V c (Pipeline.arrRef spec4 0)) (V c (Pipeline.arrRef spec4 1)) (V c (Pipeline.arrRef spec4 2))

/-- What point `t` writes back is rows `1000 t … 1000 t + 999` of the projection of the whole array. -/
theorem flushed4_eq (c : Dev nD) (t : Fin cfg4.N) :
    (Rg.dat4 (F := Ideal) V c).flushed 3 t = ((cfg4.win 3).blk t).view.read (Elt Ideal) (whole4 V c) := by
  show (cfg4.win 3).cut (grid4.coords t) ((Rg.dat4 (F := Ideal) V c).after 3 t) = _
  rw [Rg.after4_3]
  unfold Rg.out4_3
  rw [View.canon_unit_zero hz4]
  simp only [View.ld_unit_zero (S := S1000x64) hz4, View.ld_unit_zero (S := S64x64) hz4, View.ld_unit_zero (S := S1x64) hz4]
  obtain ⟨-, -, -, -, -, -, e6, e7⟩ := idx4 t
  funext j
  obtain ⟨p, q, rfl⟩ : ∃ (p : Fin 1000) (q : Fin 64), j = ix2 p q := ⟨j 0, j 1, eq_ix2 j⟩
  rw [View.read_apply]
  have hi0 : ((((cfg4.win 3).blk t).view.emb (ix2 p q)) 0).val = win4_3.index t (0 : Fin 2) * 1000 + 1 * p.val := rfl
  have hi1 : ((((cfg4.win 3).blk t).view.emb (ix2 p q)) 1).val = win4_3.index t (1 : Fin 2) * 64 + 1 * q.val := rfl
  refine (pay4_apply (Rg.iblk4 V c 0 t) (Rg.iblk4 V c 1 t) (Rg.iblk4 V c 2 t) p q).trans ?_
  refine congrArg₂ (· + ·) (Finset.sum_congr rfl fun l _ => congrArg₂ (· * ·) ?_ ?_) ?_
  · exact read4_0 V c t p l _ (by show ((((cfg4.win 3).blk t).view.emb (ix2 p q)) 0).val = _; omega) rfl
  · exact read4_1 V c t l q _ rfl (by show ((((cfg4.win 3).blk t).view.emb (ix2 p q)) 1).val = _; omega)
  · exact read4_2 V c t q _ rfl (by show ((((cfg4.win 3).blk t).view.emb (ix2 p q)) 1).val = _; omega)

/-- Row `r` of the output array lies in the block of point `r / 1000`. -/
theorem cover4 (i : S10000x64.Idx) : ∃ t : Fin cfg4.N, (cfg4.win 3).flush t = true ∧ i ∈ ((cfg4.win 3).blk t).view.set := by
  have h0 : (i 0).val < 10000 := (i 0).isLt
  have h1 : (i 1).val < 64 := (i 1).isLt
  have hN : grid4.N = 10 := N_4
  let t : Fin cfg4.N := ⟨(i 0).val / 1000, by show (i 0).val / 1000 < grid4.N; omega⟩
  obtain ⟨-, -, -, -, -, -, e6, e7⟩ := idx4 t
  have et : t.val = (i 0).val / 1000 := rfl
  refine ⟨t, flush4_3 t, ?_⟩
  show i ∈ ((View.whole main_v162).slice (win4_3.rect t)).set
  rw [View.set_slice_whole, Rect.mem_set_unit]
  intro a
  match a with
  | ⟨0, _⟩ => show win4_3.index t (0 : Fin 2) * 1000 ≤ (i 0).val ∧ (i 0).val < win4_3.index t (0 : Fin 2) * 1000 + 1000; omega
  | ⟨1, _⟩ => show win4_3.index t (1 : Fin 2) * 64 ≤ (i 1).val ∧ (i 1).val < win4_3.index t (1 : Fin 2) * 64 + 64; omega

/-- The output array after the step: the projection of the whole feature array. -/
theorem final4 (c : Dev nD) :
    (Rg.dat4 (F := Ideal) V c).arrAt 3 cfg4.N
      = Dense.affine (V c (Pipeline.arrRef spec4 0)) (V c (Pipeline.arrRef spec4 1)) (V c (Pipeline.arrRef spec4 2)) :=
  (Rg.dat4 (F := Ideal) V c).arrAt_eq_of_cover 3 (whole4 V c) (fun t _ => flushed4_eq V c t) (cover4)

end Cert.KernelIdeal.RgVal

end
-- ==== Proof.KVal5.lean ====
/-
  The bilinear decode, as one function of its two input arrays.

  Its fifty grid points each take two hundred rows of the projected array `a` and the whole code array `z`, turn `z`
  over (rows become columns) and multiply: point `t` writes rows `200 t … 200 t + 199` of the 10000 × 10000 output.
  Read at an entry `(p, q)` of the block, the product into a zero accumulator is the plain sum over the contracted axis
  of `a[p, l]` times the turned array's `[l, q]`, and the turned array's `[l, q]` is `z[q, l]`.  A block of an input at
  point `t` is the array read at block index × block size + the coordinate inside the block; the rows' block index is
  `t`, the code array's is zero.  So every point writes its rows of ONE function of the two arrays, `Dense.gram`, and
  the fifty blocks cover the output (row `r` is in the block of point `r / 200`): after the step the array is
  `Dense.gram` of the two arrays.
-/
import proofs.«106689_j32762010534267_1_alg».proof.Proof.KReg5
import proofs.«106689_j32762010534267_1_alg».proof.Proof.DenseSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RgVal

open Cert.KernelIdeal Cert.KernelIdeal.Gen
open Idealize.ShloMosaic Idealize.ShloMosaic.TcCoe Idealize.ShloMosaic.ValueIdx
open Idealize.ShloMosaic.Pipeline (Dat)

/-! ## The body's value at an entry of its block -/

theorem mm5_lhs0 (i : S200x10000.Idx) (k : dot_S200x64_S64x10000_S200x10000_1_0_0_1_n_n.contr.Idx) :
    (dot_S200x64_S64x10000_S200x10000_1_0_0_1_n_n.lhsIdx i k 0).val = (i 0).val := by
  unfold DotDims.lhsIdx
  rw [dif_neg (show ¬(0 : Fin S200x64.rank) ∈ dot_S200x64_S64x10000_S200x10000_1_0_0_1_n_n.lhsBatch by decide), dif_pos (show (0 : Fin S200x64.rank) ∈ dot_S200x64_S64x10000_S200x10000_1_0_0_1_n_n.lhsNonContracting by decide)]
  rfl

theorem mm5_rhs1 (i : S200x10000.Idx) (k : dot_S200x64_S64x10000_S200x10000_1_0_0_1_n_n.contr.Idx) :
    (dot_S200x64_S64x10000_S200x10000_1_0_0_1_n_n.rhsIdx i k 1).val = (i 1).val := by
  unfold DotDims.rhsIdx
  rw [dif_neg (show ¬(1 : Fin S64x10000.rank) ∈ dot_S200x64_S64x10000_S200x10000_1_0_0_1_n_n.rhsBatch by decide), dif_pos (show (1 : Fin S64x10000.rank) ∈ dot_S200x64_S64x10000_S200x10000_1_0_0_1_n_n.rhsNonContracting by decide)]
  rfl

/-- Two hundred rows against a 64 × 10000 matrix, into a zero accumulator: entry `(p, q)` is the sum over the
    contracted axis of row `p` times column `q`. -/
theorem mm5_apply (l : FVec Ideal S200x64 .f32) (r : FVec Ideal S64x10000 .f32) (p : Fin 200) (q : Fin 10000) :
    matmul dot_S200x64_S64x10000_S200x10000_1_0_0_1_n_n none l r (constant S200x10000 .f32 0x00000000#32) (ix2 p q)
      = ∑ k : Fin 64, l (ix2 p k) * r (ix2 k q) := by
  simp only [matmul]
  rw [Ideal.matmul_constant_zero_apply, ← Equiv.sum_comp (ValueIdx.contrEquiv1 dot_S200x64_S64x10000_S200x10000_1_0_0_1_n_n 64 rfl rfl).symm]
  refine Finset.sum_congr rfl fun k _ => ?_
  have hk := ValueIdx.contrEquiv1_symm_val dot_S200x64_S64x10000_S200x10000_1_0_0_1_n_n 64 rfl rfl k
  have el : dot_S200x64_S64x10000_S200x10000_1_0_0_1_n_n.lhsIdx (ix2 p q) ((ValueIdx.contrEquiv1 dot_S200x64_S64x10000_S200x10000_1_0_0_1_n_n 64 rfl rfl).symm k) = ix2 p k := funext fun a => Fin.ext (by
    match a with
    | ⟨0, _⟩ => exact mm5_lhs0 _ _
    | ⟨1, _⟩ => exact (dot_S200x64_S64x10000_S200x10000_1_0_0_1_n_n.lhsIdx_val_of_single rfl _ _).trans hk)
  have er : dot_S200x64_S64x10000_S200x10000_1_0_0_1_n_n.rhsIdx (ix2 p q) ((ValueIdx.contrEquiv1 dot_S200x64_S64x10000_S200x10000_1_0_0_1_n_n 64 rfl rfl).symm k) = ix2 k q := funext fun a => Fin.ext (by
    match a with
    | ⟨0, _⟩ => exact (dot_S200x64_S64x10000_S200x10000_1_0_0_1_n_n.rhsIdx_val_of_single rfl _ _).trans hk
    | ⟨1, _⟩ => exact mm5_rhs1 _ _)
  rw [el, er]

/-- The code array turned over: its entry `(l, q)` is the array's entry `(q, l)`. -/
theorem turn5_apply (z : FVec Ideal S10000x64 .f32) (l : Fin 64) (q : Fin 10000) :
    transpose S64x10000 [1, 0] z transposes_S10000x64_p1_0_S64x10000 (ix2 l q) = z (ix2 q l) :=
  transpose_apply [1, 0] z transposes_S10000x64_p1_0_S64x10000 (ix2 l q) (ix2 q l) (fun b => by
    match b with
    | ⟨0, _⟩ => rfl
    | ⟨1, _⟩ => rfl)

/-- The body's value at entry `(p, q)` of its block: row `p` of the rows' block against row `q` of the code array. -/
theorem pay5_apply (v0 : Vec Ideal S200x64 .f32) (v2 : Vec Ideal S10000x64 .f32) (p : Fin 200) (q : Fin 10000) :
    k5_pay1 (F := Ideal) v0 v2 (ix2 p q) = ∑ l : Fin 64, v0 (ix2 p l) * v2 (ix2 q l) := by
  unfold k5_pay1
  simp only [shapeCast_self]
  refine (mm5_apply _ _ p q).trans ?_
  exact Finset.sum_congr rfl fun l _ => congrArg (v0 (ix2 p l) * ·) (turn5_apply v2 l q)

/-! ## From the blocks to the array -/

variable (V : (c : Dev nD) → (b : Ref sig .tc) → Buf (Elt Ideal) ((c : Thread nD τ).loc b))

theorem hz5 : (![0, 0] : Fin 2 → Nat) = fun _ => 0 := funext fun a => by fin_cases a <;> rfl

/-- The block indices over the fifty points: the rows of `a` and the output rows move together, block `t` at point `t`;
    the code array stays at block zero. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry `(p, l)` of the rows' block at point `t` is entry `(200 t + p, l)` of the array `a`. -/
theorem read5_0 (c : Dev nD) (t : Fin cfg5.N) (p : Fin 200) (l : Fin 64) (i : S10000x64.Idx)
    (h0 : (i 0).val = 200 * t.val + p.val) (h1 : (i 1).val = l.val) :
    Rg.iblk5 V c 0 t (ix2 p l) = V c (Pipeline.arrRef spec5 0) i := by
  obtain ⟨e0, e1, -⟩ := idx5 t
  unfold Rg.iblk5
  rw [View.read_apply]
  refine congrArg (V c (Pipeline.arrRef spec5 0)) (funext fun a => Fin.ext ?_)
  match a with
  | ⟨0, _⟩ => show win5_0.index t (0 : Fin 2) * 200 + 1 * p.val = (i 0).val; omega
  | ⟨1, _⟩ => show win5_0.index t (1 : Fin 2) * 64 + 1 * l.val = (i 1).val; omega

/-- The code array's block at every point is the code array. -/
theorem read5_1 (c : Dev nD) (t : Fin cfg5.N) (q : Fin 10000) (l : Fin 64) (i : S10000x64.Idx)
    (h0 : (i 0).val = q.val) (h1 : (i 1).val = l.val) :
    Rg.iblk5 V c 1 t (ix2 q l) = V c (Pipeline.arrRef spec5 1) i := by
  obtain ⟨-, -, e2, e3, -⟩ := idx5 t
  unfold Rg.iblk5
  rw [View.read_apply]
  refine congrArg (V c (Pipeline.arrRef spec5 1)) (funext fun a => Fin.ext ?_)
  match a with
  | ⟨0, _⟩ => show win5_1.index t (0 : Fin 2) * 10000 + 1 * q.val = (i 0).val; omega
  | ⟨1, _⟩ => show win5_1.index t (1 : Fin 2) * 64 + 1 * l.val = (i 1).val; omega

/-- Every row of `a` against every row of `z`. -/
abbrev whole5 (c : Dev nD) : S10000x10000.Idx → EReal :=
  Dense.gram (V c (Pipeline.arrRef spec5 0)) (V c (Pipeline.arrRef spec5 1))

/-- What point `t` writes back is rows `200 t … 200 t + 199` of the product of the whole arrays. -/
theorem flushed5_eq (c : Dev nD) (t : Fin cfg5.N) :
    (Rg.dat5 (F := Ideal) V c).flushed 2 t = ((cfg5.win 2).blk t).view.read (Elt Ideal) (whole5 V c) := by
  show (cfg5.win 2).cut (grid5.coords t) ((Rg.dat5 (F := Ideal) V c).after 2 t) = _
  rw [Rg.after5_2]
  unfold Rg.out5_2
  rw [View.canon_unit_zero hz5]
  simp only [View.ld_unit_zero (S := S200x64) hz5, View.ld_unit_zero (S := S10000x64) hz5]
  obtain ⟨-, -, -, -, e4, e5⟩ := idx5 t
  funext j
  obtain ⟨p, q, rfl⟩ : ∃ (p : Fin 200) (q : Fin 10000), j = ix2 p q := ⟨j 0, j 1, eq_ix2 j⟩
  have hi0 : ((((cfg5.win 2).blk t).view.emb (ix2 p q)) 0).val = win5_2.index t (0 : Fin 2) * 200 + 1 * p.val := rfl
  have hi1 : ((((cfg5.win 2).blk t).view.emb (ix2 p q)) 1).val = win5_2.index t (1 : Fin 2) * 10000 + 1 * q.val := rfl
  show k5_pay1 (F := Ideal) (Rg.iblk5 V c 0 t) (Rg.iblk5 V c 1 t) (ix2 p q)
    = Dense.gram (V c (Pipeline.arrRef spec5 0)) (V c (Pipeline.arrRef spec5 1)) (((cfg5.win 2).blk t).view.emb (ix2 p q))
  refine (pay5_apply (Rg.iblk5 V c 0 t) (Rg.iblk5 V c 1 t) p q).trans ?_
  unfold Dense.gram
  refine Finset.sum_congr rfl fun l _ => congrArg₂ (fun x y : EReal => x * y) ?_ ?_
  · exact read5_0 V c t p l _ (by show ((((cfg5.win 2).blk t).view.emb (ix2 p q)) 0).val = _; omega) rfl
  · exact read5_1 V c t q l _ (by show ((((cfg5.win 2).blk t).view.emb (ix2 p q)) 1).val = _; omega) rfl

/-- Row `r` of the output array lies in the block of point `r / 200`. -/
theorem cover5 (i : S10000x10000.Idx) : ∃ t : Fin cfg5.N, (cfg5.win 2).flush t = true ∧ i ∈ ((cfg5.win 2).blk t).view.set := by
  have h0 : (i 0).val < 10000 := (i 0).isLt
  have h1 : (i 1).val < 10000 := (i 1).isLt
  have hN : grid5.N = 50 := N_5
  let t : Fin cfg5.N := ⟨(i 0).val / 200, by show (i 0).val / 200 < grid5.N; omega⟩
  obtain ⟨-, -, -, -, e4, e5⟩ := idx5 t
  have et : t.val = (i 0).val / 200 := rfl
  refine ⟨t, flush5_2 t, ?_⟩
  show i ∈ ((View.whole main_v163).slice (win5_2.rect t)).set
  rw [View.set_slice_whole, Rect.mem_set_unit]
  intro a
  match a with
  | ⟨0, _⟩ => show win5_2.index t (0 : Fin 2) * 200 ≤ (i 0).val ∧ (i 0).val < win5_2.index t (0 : Fin 2) * 200 + 200; omega
  | ⟨1, _⟩ => show win5_2.index t (1 : Fin 2) * 10000 ≤ (i 1).val ∧ (i 1).val < win5_2.index t (1 : Fin 2) * 10000 + 10000; omega

/-- The output array after the step: every row of `a` against every row of `z`. -/
theorem final5 (c : Dev nD) :
    (Rg.dat5 (F := Ideal) V c).arrAt 2 cfg5.N
      = Dense.gram (V c (Pipeline.arrRef spec5 0)) (V c (Pipeline.arrRef spec5 1)) :=
  (Rg.dat5 (F := Ideal) V c).arrAt_eq_of_cover 2 (whole5 V c) (fun t _ => flushed5_eq V c t) (cover5)

end Cert.KernelIdeal.RgVal

end
-- ==== Proof.RefHead.lean ====
/-
  The reference's last three dense steps.

  After the third layer the reference multiplies by a square weight matrix and adds a bias row (`z`), multiplies `z` by a
  second square matrix (`zw`, an affine step whose bias row is the zero word), and multiplies `zw` by the transpose of
  `z`.  Each is read entry by entry: a matrix product's entry is the sum over the contracted axis of the operands'
  products, a bias row's entry is the bias vector's, and the transpose swaps the two coordinates.
-/
import proofs.«106689_j32762010534267_1_alg».proof.Proof.RefImports
import proofs.«106689_j32762010534267_1_alg».proof.Proof.DenseSpec
import proofs.«106689_j32762010534267_1_alg».proof.Proof.RefAlgebra
import proofs.«106689_j32762010534267_1_alg».proof.Proof.Gen.KernelIdeal

noncomputable section

namespace Cert.RefLayers

open Idealize.ShloMosaic Idealize.ShloMosaic.ValueIdx Cert.ReferenceIdeal Cert.ReferenceIdeal.Gen
open scoped BigOperators

variable (x0 : (⟨S10000x256, .f32⟩ : BufTy).Contents (Elt Ideal)) (x1 : (⟨S2x320000, .i32⟩ : BufTy).Contents (Elt Ideal))
  (x2 : (⟨S4x256x128, .f32⟩ : BufTy).Contents (Elt Ideal)) (x3 : (⟨S128, .f32⟩ : BufTy).Contents (Elt Ideal))
  (x4 : (⟨S4x128x128, .f32⟩ : BufTy).Contents (Elt Ideal)) (x5 : (⟨S128, .f32⟩ : BufTy).Contents (Elt Ideal))
  (x6 : (⟨S4x128x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))
  (x10 : (⟨S64x64, .f32⟩ : BufTy).Contents (Elt Ideal))

/-- `z = h · Wf + bf`. -/
theorem proj :
    ReadP.val_main_v206 (F := Ideal) x0 x1 x2 x3 x4 x5 x6 x7 x8 x9 =
      Dense.affine (ReadP.val_main_v202 (F := Ideal) x0 x1 x2 x3 x4 x5 x6 x7) x8
        (shapeCast Cert.KernelIdeal.S1x64 x9 Cert.KernelIdeal.Gen.shapeCasts_S64_S1x64) := by
  funext i
  obtain ⟨p, q, rfl⟩ : ∃ (p : Fin 10000) (q : Fin 64), i = ix2 p q := ⟨i 0, i 1, eq_ix2 i⟩
  rw [Dense.affine_apply, row_apply, ReadP.val_main_v206_apply, ReadP.val_main_v203_apply, ReadP.val_main_v205_apply,
    ReadP.val_main_v204_apply]
  refine congrArg₂ (· + ·) (Finset.sum_congr rfl fun l _ => ?_) (congrArg x9 (eq_ix1_of_val _ q rfl))
  rw [eq_ix2_of_val (ReadP.lidx_main_v203 (ix2 p q) l) p l rfl rfl,
    eq_ix2_of_val (ReadP.ridx_main_v203 (ix2 p q) l) l q rfl rfl]

/-- `zw = z · Wd`, as an affine step whose bias row is the zero word: adding the extended real `0` changes nothing. -/
theorem projD :
    ReadP.val_main_v207 (F := Ideal) x0 x1 x2 x3 x4 x5 x6 x7 x8 x9 x10 =
      Dense.affine (ReadP.val_main_v206 (F := Ideal) x0 x1 x2 x3 x4 x5 x6 x7 x8 x9) x10
        (shapeCast Cert.KernelIdeal.S1x64
          (broadcastInDim Cert.KernelIdeal.S64 ![] Cert.KernelIdeal.Gen.bcast_S_S64
            (constant (F := Ideal) Cert.KernelIdeal.S_ .f32 0x00000000#32))
          Cert.KernelIdeal.Gen.shapeCasts_S64_S1x64) := by
  funext i
  obtain ⟨p, q, rfl⟩ : ∃ (p : Fin 10000) (q : Fin 64), i = ix2 p q := ⟨i 0, i 1, eq_ix2 i⟩
  have hz : broadcastInDim Cert.KernelIdeal.S64 ![] Cert.KernelIdeal.Gen.bcast_S_S64
      (constant (F := Ideal) Cert.KernelIdeal.S_ .f32 0x00000000#32) (ix1 q) = 0 := Ideal.ofBits_zero_f32
  rw [Dense.affine_apply, row_apply, hz, add_zero, ReadP.val_main_v207_apply]
  refine Finset.sum_congr rfl fun l _ => ?_
  rw [eq_ix2_of_val (ReadP.lidx_main_v207 (ix2 p q) l) p l rfl rfl,
    eq_ix2_of_val (ReadP.ridx_main_v207 (ix2 p q) l) l q rfl rfl]

/-- `adj = zw · zᵀ`: the transposed operand at `(l, q)` is `z` at `(q, l)`. -/
theorem decode :
    ReadP.val_main_v209 (F := Ideal) x0 x1 x2 x3 x4 x5 x6 x7 x8 x9 x10 =
      Dense.gram (ReadP.val_main_v207 (F := Ideal) x0 x1 x2 x3 x4 x5 x6 x7 x8 x9 x10)
        (ReadP.val_main_v206 (F := Ideal) x0 x1 x2 x3 x4 x5 x6 x7 x8 x9) := by
  funext i
  obtain ⟨p, q, rfl⟩ : ∃ (p : Fin 10000) (q : Fin 10000), i = ix2 p q := ⟨i 0, i 1, eq_ix2 i⟩
  rw [Dense.gram_apply, ReadP.val_main_v209_apply]
  refine Finset.sum_congr rfl fun l _ => ?_
  rw [ReadP.val_main_v208_apply, eq_ix2_of_val (ReadP.lidx_main_v209 (ix2 p q) l) p l rfl rfl,
    eq_ix2_of_val (ReadP.idx_main_v208 (ReadP.ridx_main_v209 (ix2 p q) l)) q l rfl rfl]

end Cert.RefLayers

end
-- ==== Proof.KLinksHead.lean ====
/-
  From the third layer's output to the array the program returns.

  After the third layer three dense steps remain.  The code projection multiplies the layer's output by a square matrix
  (an argument) and adds a bias row, which a host operation has re-laid from a bias vector (an argument) as a one-row
  array; this gives the codes `z`.  The decoder-side projection multiplies `z` by a second square matrix (an argument)
  and adds a bias row that host operations fill with the zero word; this gives `zw`.  The bilinear decode multiplies
  `zw` by the transpose of `z`.  Each step's output array is the dense function of its input arrays as the step finds
  them; a host stretch changes only the buffers it writes; a step leaves its input arrays as it found them; and no
  operation writes an argument.  So, if the third layer's output is the reference's value at that point, the returned
  array is the reference's result: the reference's last three values are the same dense functions of the same arrays.
-/
import proofs.«106689_j32762010534267_1_alg».proof.Proof.KRun
import proofs.«106689_j32762010534267_1_alg».proof.Proof.KVal3
import proofs.«106689_j32762010534267_1_alg».proof.Proof.KVal4
import proofs.«106689_j32762010534267_1_alg».proof.Proof.KVal5
import proofs.«106689_j32762010534267_1_alg».proof.Proof.RefImports
import proofs.«106689_j32762010534267_1_alg».proof.Proof.RefHead

set_option maxRecDepth 65536

noncomputable section

namespace Cert.KernelIdeal.Lk

open Cert.KernelIdeal Cert.KernelIdeal.Gen Cert.KernelIdeal.Rg Cert.KernelIdeal.Rn
open Idealize.ShloMosaic Idealize.ShloMosaic.TcCoe Idealize.ShloMosaic.StableHlo
open Idealize.ShloMosaic.Pipeline (Dat)
open Cert.ReferenceIdeal (ReadP.val_main_v202 ReadP.val_main_v206 ReadP.val_main_v207 ReadP.val_main_v209)

variable (m : (ℓ : Loc nD τ sig) → Buf (Elt Ideal) ℓ) (ρ : Dev nD → PrngReg) (c : Dev nD)

/-! ## The arguments are as launched at every boundary from the third layer's exit on -/

theorem arg_at12 (r : Ref sig .tc) (hr : r ∈ args) : W12 m ρ c (Proc.devRef .tc r) = m ((c : Thread nD τ).loc r) :=
  (call5_keeps m ρ c r hr).symm.trans (final_arg m ρ c r hr)

theorem arg_at11 (r : Ref sig .tc) (hr : r ∈ args) : W11 m ρ c (Proc.devRef .tc r) = m ((c : Thread nD τ).loc r) :=
  (call4_keeps m ρ c r hr).symm.trans (arg_at12 m ρ c r hr)

theorem arg_at10 (r : Ref sig .tc) (hr : r ∈ args) : W10 m ρ c (Proc.devRef .tc r) = m ((c : Thread nD τ).loc r) :=
  (after_keeps hostOps4 _ keeps4 r hr).symm.trans (arg_at11 m ρ c r hr)

theorem arg_at9 (r : Ref sig .tc) (hr : r ∈ args) : W9 m ρ c (Proc.devRef .tc r) = m ((c : Thread nD τ).loc r) :=
  (call3_keeps m ρ c r hr).symm.trans (arg_at10 m ρ c r hr)

theorem arg_at8 (r : Ref sig .tc) (hr : r ∈ args) : W8 m ρ c (Proc.devRef .tc r) = m ((c : Thread nD τ).loc r) :=
  (after_keeps hostOps3 _ keeps3 r hr).symm.trans (arg_at9 m ρ c r hr)

/-! ## The code projection -/

/-- The bias vector re-laid as a one-row array. -/
theorem bias_row9 :
    W9 m ρ c (Proc.devRef .tc main_v158) = shapeCast S1x64 (m ((c : Thread nD τ).loc main_arg9)) shapeCasts_S64_S1x64 := by
  show StableHlo.after hostOps3 (W8 m ρ c) (Proc.devRef .tc main_v158) = _
  after_results_simp
  rw [arg_at8 m ρ c main_arg9 (by decide)]
  rfl

/-- The re-laying leaves the third layer's output where it was. -/
theorem layer3_at9 : W9 m ρ c (Proc.devRef .tc main_v157) = W8 m ρ c (Proc.devRef .tc main_v157) := by
  show StableHlo.after hostOps3 (W8 m ρ c) (Proc.devRef .tc main_v157) = _
  after_results_simp

set_option maxHeartbeats 4000000 in
/-- The codes: the third layer's output against the projection matrix, plus the bias row. -/
theorem codes_at10
    (h : W8 m ρ c (Proc.devRef .tc main_v157) = ReadP.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W10 m ρ c (Proc.devRef .tc main_v159) = ReadP.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 3).trans ((RgVal.final3 (V9 m ρ) c).trans ?_)
  show Dense.affine (n := 10000) (k := 64) (c := 64) (W9 m ρ c (Proc.devRef .tc main_v157)) (W9 m ρ c (Proc.devRef .tc main_arg8))
    (W9 m ρ c (Proc.devRef .tc main_v158)) = _
  rw [layer3_at9, h, arg_at9 m ρ c main_arg8 (by decide), bias_row9]
  exact (Cert.RefLayers.proj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## The decoder-side projection -/

/-- The zero bias row: the zero word repeated along a vector, re-laid as a one-row array. -/
theorem zero_row11 :
    W11 m ρ c (Proc.devRef .tc main_v161)
      = shapeCast S1x64 (broadcastInDim S64 ![] bcast_S_S64 (constant (F := Ideal) S_ .f32 0x00000000#32)) shapeCasts_S64_S1x64 := by
  show StableHlo.after hostOps4 (W10 m ρ c) (Proc.devRef .tc main_v161) = _
  after_results_simp
  rfl

/-- Making the zero bias row leaves the codes where they were. -/
theorem codes_at11 : W11 m ρ c (Proc.devRef .tc main_v159) = W10 m ρ c (Proc.devRef .tc main_v159) := by
  show StableHlo.after hostOps4 (W10 m ρ c) (Proc.devRef .tc main_v159) = _
  after_results_simp

set_option maxHeartbeats 4000000 in
/-- The codes against the decoder matrix. -/
theorem projected_at12
    (h : W8 m ρ c (Proc.devRef .tc main_v157) = ReadP.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W12 m ρ c (Proc.devRef .tc main_v162) = ReadP.val_main_v207 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 3).trans ((RgVal.final4 (V11 m ρ) c).trans ?_)
  show Dense.affine (n := 10000) (k := 64) (c := 64) (W11 m ρ c (Proc.devRef .tc main_v159)) (W11 m ρ c (Proc.devRef .tc main_arg10))
    (W11 m ρ c (Proc.devRef .tc main_v161)) = _
  rw [codes_at11, codes_at10 m ρ c h, arg_at11 m ρ c main_arg10 (by decide), zero_row11]
  exact (Cert.RefLayers.projD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

set_option maxHeartbeats 4000000 in
/-- The codes are an input of the decoder-side projection: it leaves them as it found them. -/
theorem codes_at12
    (h : W8 m ρ c (Proc.devRef .tc main_v157) = ReadP.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W12 m ρ c (Proc.devRef .tc main_v159) = ReadP.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 0).trans ((((dat4 (V11 m ρ) c).arrAt_in 0 rfl _).trans (A_eq4 (V11 m ρ) c 0)).trans ?_)
  show W11 m ρ c (Proc.devRef .tc main_v159) = _
  rw [codes_at11, codes_at10 m ρ c h]

/-! ## The bilinear decode -/

set_option maxHeartbeats 4000000 in
/-- If the third layer's output is the reference's value there, the returned array is the reference's result. -/
theorem out_of_layer3
    (h : W8 m ρ c (Proc.devRef .tc main_v157) = ReadP.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) :
    W13 m ρ c (Proc.devRef .tc main_v163) = ReadP.val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W13_arr m ρ c 2).trans ((RgVal.final5 (V12 m ρ) c).trans ?_)
  show Dense.gram (n := 10000) (k := 64) (W12 m ρ c (Proc.devRef .tc main_v162)) (W12 m ρ c (Proc.devRef .tc main_v159)) = _
  rw [projected_at12 m ρ c h, codes_at12 m ρ c h]
  exact (Cert.RefLayers.decode (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

end Cert.KernelIdeal.Lk

end
-- ==== Proof.lean ====
/-
  A graph auto-encoder — three graph-convolution layers, a code projection, a bilinear decode — as a Pallas program
  against its plain reference, equal over the extended reals.

  Both programs compute the edge normaliser and every hop aggregate (gather the source rows, scale by the edge's weight,
  scatter-add into the destination rows) by the same host operations.  They differ in the dense steps.  The reference's
  layer is  max(h₀·W[0] + h₁·W[1] + h₂·W[2] + h₃·W[3] + b, 0)  over the four hop features h₀ … h₃; the kernel's is ONE
  product of the four features set side by side with W's four slabs stacked, computed in row blocks of a thousand, plus
  the bias row, clipped — the same entry, since a sum over four blocks laid end to end is the sum of the four sums
  (only commutativity and associativity of the extended reals' addition: no finiteness is used).  The code projection is
  the same product in both; the decoder-side projection adds, in the kernel, a bias row of zeros; the decode is the
  product with the codes' transpose, in row blocks of two hundred in the kernel.

  The three frames: each of the kernel's six calls is a pipeline over a grid whose body reads whole blocks and stores one
  whole block, so the launch of the segment list (host stretch, call, host stretch, …) terminates without fault and no
  segment writes an argument; the same text serves the word-level program and the idealized one.  The reference is a
  list of host operations.  Nothing was rewritten by the idealization, so it preserves trivially.  The value claim
  chains, boundary by boundary, "this buffer of the kernel is that stage of the reference", ending at the result.
-/
import proofs.«106689_j32762010534267_1_alg».proof.Defs
import proofs.«106689_j32762010534267_1_alg».proof.Proof.Gen.Kernel
import proofs.«106689_j32762010534267_1_alg».proof.Proof.Gen.KernelIdeal
import proofs.«106689_j32762010534267_1_alg».proof.Proof.Gen.ReferenceIdeal
import proofs.«106689_j32762010534267_1_alg».proof.Proof.Gen.Pre_finite_inputs
import proofs.«106689_j32762010534267_1_alg».proof.Proof.WRun
import proofs.«106689_j32762010534267_1_alg».proof.Proof.KRun
import proofs.«106689_j32762010534267_1_alg».proof.Proof.RefStaged
import proofs.«106689_j32762010534267_1_alg».proof.Proof.KLinks
import proofs.«106689_j32762010534267_1_alg».proof.Proof.KLinksHead
import Idealize.ShloMosaic.Adequacy
import Idealize.ShloMosaic.Init

noncomputable section

namespace Cert.Proof

open Idealize.ShloMosaic Idealize.ShloMosaic.TcCoe Idealize.SL.Sem

/-- The word-level kernel runs to its end, faults nowhere, and leaves its arguments as launched. -/
theorem frame_kernel : Cert.frame_Kernel := fun m ρ _ => Cert.Kernel.Rn.frame (F := Bits) m ρ

/-- The idealized kernel likewise. -/
theorem frame_kernelIdeal : Cert.frame_KernelIdeal := fun m ρ _ => Cert.KernelIdeal.Rn.frame (F := Ideal) m ρ

/-- The reference likewise: its run, the result forgotten. -/
theorem frame_reference : Cert.frame_ReferenceIdeal := fun m ρ _ =>
  (θ_run Cert.ReferenceIdeal.defs _ _).mono (fun _ h c => (h c).2) (Cert.RefStaged.run (F := Ideal) m ρ)

/-- The idealization rewrote nothing. -/
theorem preserves : Cert.preserves_Kernel_KernelIdeal := trivial

/-- From memories agreeing on the arguments both programs end with the same result: the reference's last stage of the
    arguments — the kernel's result buffer by the chain of links, the reference's by its run. -/
theorem algebraic : Cert.algebraic_KernelIdeal_ReferenceIdeal := by
  intro m ρ m' ρ' _ hagree
  refine ⟨fun c => Cert.ReferenceIdeal.ReadP.val_main_v209 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨?_,
      Cert.KernelIdeal.Rn.arg_kept m ρ h c Cert.KernelIdeal.main_arg0 (by decide), Cert.KernelIdeal.Rn.arg_kept m ρ h c Cert.KernelIdeal.main_arg1 (by decide),
      Cert.KernelIdeal.Rn.arg_kept m ρ h c Cert.KernelIdeal.main_arg2 (by decide), Cert.KernelIdeal.Rn.arg_kept m ρ h c Cert.KernelIdeal.main_arg3 (by decide),
      Cert.KernelIdeal.Rn.arg_kept m ρ h c Cert.KernelIdeal.main_arg4 (by decide), Cert.KernelIdeal.Rn.arg_kept m ρ h c Cert.KernelIdeal.main_arg5 (by decide),
      Cert.KernelIdeal.Rn.arg_kept m ρ h c Cert.KernelIdeal.main_arg6 (by decide), Cert.KernelIdeal.Rn.arg_kept m ρ h c Cert.KernelIdeal.main_arg7 (by decide),
      Cert.KernelIdeal.Rn.arg_kept m ρ h c Cert.KernelIdeal.main_arg8 (by decide), Cert.KernelIdeal.Rn.arg_kept m ρ h c Cert.KernelIdeal.main_arg9 (by decide),
      Cert.KernelIdeal.Rn.arg_kept m ρ h c Cert.KernelIdeal.main_arg10 (by decide)⟩) (Cert.KernelIdeal.Rn.run_all (F := Ideal) m ρ)
    exact (h c _ (Cert.KernelIdeal.Rn.mem_uc Cert.KernelIdeal.main_v163 (by decide))).trans
      (Cert.KernelIdeal.Lk.out_of_layer3 m ρ c (Cert.KernelIdeal.Lk.layer3_at8 m ρ c))
  · refine (θ_run Cert.ReferenceIdeal.defs _ _).mono (fun r h c => ⟨?_, (h c).2⟩) (Cert.RefStaged.run (F := Ideal) m' ρ')
    obtain ⟨a0, a1, a2, a3, a4, a5, a6, a7, a8, a9, a10⟩ := hagree c
    rw [(h c).1, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
